-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x256 : Shape := ⟨2, ![128, 256]⟩
abbrev S256x64 : Shape := ⟨2, ![256, 64]⟩
abbrev S64x256 : Shape := ⟨2, ![64, 256]⟩
abbrev S256x128 : Shape := ⟨2, ![256, 128]⟩
abbrev S128x32 : Shape := ⟨2, ![128, 32]⟩
abbrev S32 : Shape := ⟨1, ![32]⟩
abbrev S10x32 : Shape := ⟨2, ![10, 32]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x256 : S_.BroadcastsInDim S128x256 (![] : Fin 0 → Fin S128x256.rank)
  reducesTo_S128x256_S_d0_1 : S128x256.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_

variable [Facts]

def fn_part3 {F : FTy → Type} [FloatOps F] (main_arg11 : FVec F S10x32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S10x32 .f32 := Host.absf main_arg11
  let main_cst_20 : FVec F S_ .f32 := constant S_ .f32 0x7F800000#32
  let main_v55 : FVec F S10x32 .f32 := broadcastInDim S10x32 ![] bcast_S_S10x32 main_cst_20
  let main_v56 : IVec S10x32 1 := cmpf .olt main_v54 main_v55
  let main_c_21 : IVec S_ 1 := constantI S_ 1 1#1
  let main_v57 : IVec S_ 1 := (fun x v => Host.reduce IntOp.andi x v reducesTo_S10x32_S_d0_1 h_S_) main_v56 main_c_21
  let main_v58 : IVec S_ 1 := andi main_v53 main_v57
  main_v58

def fn_part2 {F : FTy → Type} [FloatOps F] (main_arg7 : FVec F S64x256 .f32) (main_arg8 : FVec F S256x128 .f32) (main_arg9 : FVec F S128x32 .f32) (main_arg10 : FVec F S32 .f32) (main_arg11 : FVec F S10x32 .f32) (main_v33 : IVec S_ 1) : IVec S_ 1 :=
  let main_v34 : FVec F S64x256 .f32 := Host.absf main_arg7
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128x32 .f32 := Host.absf main_arg9
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_v48 main_v49 main_v50

def fn_part1 {F : FTy → Type} [FloatOps F] (main_arg4 : FVec F S256x64 .f32) (main_arg5 : FVec F S128x256 .f32) (main_arg6 : FVec F S256x64 .f32) (main_arg7 : FVec F S64x256 .f32) (main_arg8 : FVec F S256x128 .f32) (main_arg9 : FVec F S128x32 .f32) (main_arg10 : FVec F S32 .f32) (main_arg11 : FVec F S10x32 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x128 .f32) (main_arg1 : FVec F S4096x4096 .f32) (main_arg2 : FVec F S4096x4096 .f32) (main_arg3 : FVec F S128x256 .f32) (main_arg4 : FVec F S256x64 .f32) (main_arg5 : FVec F S128x256 .f32) (main_arg6 : FVec F S256x64 .f32) (main_arg7 : FVec F S64x256 .f32) (main_arg8 : FVec F S256x128 .f32) (main_arg9 : FVec F S128x32 .f32) (main_arg10 : FVec F S32 .f32) (main_arg11 : FVec F S10x32 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_v13 main_v16
-- ==== Kernel.lean ====
abbrev S4096x128 : Shape := ⟨2, ![4096, 128]⟩
abbrev S4096x4096 : Shape := ⟨2, ![4096, 4096]⟩
abbrev S128x256 : Shape := ⟨2, ![128, 256]⟩
abbrev S256x64 : Shape := ⟨2, ![256, 64]⟩
abbrev S64x256 : Shape := ⟨2, ![64, 256]⟩
abbrev S256x128 : Shape := ⟨2, ![256, 128]⟩
abbrev S128x32 : Shape := ⟨2, ![128, 32]⟩
abbrev S32 : Shape := ⟨1, ![32]⟩
abbrev S10x32 : Shape := ⟨2, ![10, 32]⟩
abbrev S4096x1 : Shape := ⟨2, ![4096, 1]⟩
abbrev S512x4096 : Shape := ⟨2, ![512, 4096]⟩
abbrev S512x128 : Shape := ⟨2, ![512, 128]⟩
abbrev S512x1 : Shape := ⟨2, ![512, 1]⟩
abbrev S512 : Shape := ⟨1, ![512]⟩
abbrev S4096x64 : Shape := ⟨2, ![4096, 64]⟩
abbrev S512x64 : Shape := ⟨2, ![512, 64]⟩
abbrev S512x256 : Shape := ⟨2, ![512, 256]⟩
abbrev S1x32 : Shape := ⟨2, ![1, 32]⟩
abbrev S4096x32 : Shape := ⟨2, ![4096, 32]⟩
abbrev S4096x10 : Shape := ⟨2, ![4096, 10]⟩
abbrev S4096x256 : Shape := ⟨2, ![4096, 256]⟩
abbrev S64x32 : Shape := ⟨2, ![64, 32]⟩
abbrev S32x10 : Shape := ⟨2, ![32, 10]⟩
abbrev S4096 : Shape := ⟨1, ![4096]⟩
abbrev S10 : Shape := ⟨1, ![10]⟩
abbrev S1x10 : Shape := ⟨2, ![1, 10]⟩

abbrev nBuf : Space → Nat
  | .hbm => 27
  | .vmem => 59
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x256, .f32⟩
  | .hbm, ⟨4, _⟩ => ⟨S256x64, .f32⟩
  | .hbm, ⟨5, _⟩ => ⟨S128x256, .f32⟩
  | .hbm, ⟨6, _⟩ => ⟨S256x64, .f32⟩
  | .hbm, ⟨7, _⟩ => ⟨S64x256, .f32⟩
  | .hbm, ⟨8, _⟩ => ⟨S256x128, .f32⟩
  | .hbm, ⟨9, _⟩ => ⟨S128x32, .f32⟩
  | .hbm, ⟨10, _⟩ => ⟨S32, .f32⟩
  | .hbm, ⟨11, _⟩ => ⟨S10x32, .f32⟩
  | .hbm, ⟨12, _⟩ => ⟨S4096x1, .f32⟩
  | .hbm, ⟨13, _⟩ => ⟨S4096x128, .f32⟩
  | .hbm, ⟨14, _⟩ => ⟨S4096x4096, .bf16⟩
  | .hbm, ⟨15, _⟩ => ⟨S4096x64, .f32⟩
  | .hbm, ⟨16, _⟩ => ⟨S4096x64, .f32⟩
  | .hbm, ⟨17, _⟩ => ⟨S4096x1, .f32⟩
  | .hbm, ⟨18, _⟩ => ⟨S4096x128, .f32⟩
  | .hbm, ⟨19, _⟩ => ⟨S4096x4096, .bf16⟩
  | .hbm, ⟨20, _⟩ => ⟨S4096x64, .f32⟩
  | .hbm, ⟨21, _⟩ => ⟨S4096x64, .f32⟩
  | .hbm, ⟨22, _⟩ => ⟨S1x32, .f32⟩
  | .hbm, ⟨23, _⟩ => ⟨S4096x32, .f32⟩
  | .hbm, ⟨24, _⟩ => ⟨S4096x10, .f32⟩
  | .hbm, ⟨25, _⟩ => ⟨S4096x10, .f32⟩
  | .hbm, ⟨26, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S512x128, .f32⟩
  | .local _ .vmem, ⟨3, _⟩ => ⟨S512x128, .f32⟩
  | .local _ .vmem, ⟨4, _⟩ => ⟨S512x1, .f32⟩
  | .local _ .vmem, ⟨5, _⟩ => ⟨S512x1, .f32⟩
  | .local _ .vmem, ⟨6, _⟩ => ⟨S512x128, .f32⟩
  | .local _ .vmem, ⟨7, _⟩ => ⟨S512x128, .f32⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S4096x128, .f32⟩
  | .local _ .vmem, ⟨13, _⟩ => ⟨S4096x1, .f32⟩
  | .local _ .vmem, ⟨14, _⟩ => ⟨S128x256, .f32⟩
  | .local _ .vmem, ⟨15, _⟩ => ⟨S256x64, .f32⟩
  | .local _ .vmem, ⟨16, _⟩ => ⟨S512x64, .f32⟩
  | .local _ .vmem, ⟨17, _⟩ => ⟨S512x64, .f32⟩
  | .local _ .vmem, ⟨18, _⟩ => ⟨S512x4096, .bf16⟩
  | .local _ .vmem, ⟨19, _⟩ => ⟨S512x4096, .bf16⟩
  | .local _ .vmem, ⟨20, _⟩ => ⟨S4096x64, .f32⟩
  | .local _ .vmem, ⟨21, _⟩ => ⟨S4096x1, .f32⟩
  | .local _ .vmem, ⟨22, _⟩ => ⟨S512x64, .f32⟩
  | .local _ .vmem, ⟨23, _⟩ => ⟨S512x64, .f32⟩
  | .local _ .vmem, ⟨24, _⟩ => ⟨S512x4096, .f32⟩
  | .local _ .vmem, ⟨25, _⟩ => ⟨S512x4096, .f32⟩
  | .local _ .vmem, ⟨26, _⟩ => ⟨S512x128, .f32⟩
  | .local _ .vmem, ⟨27, _⟩ => ⟨S512x128, .f32⟩
  | .local _ .vmem, ⟨28, _⟩ => ⟨S512x1, .f32⟩
  | .local _ .vmem, ⟨29, _⟩ => ⟨S512x1, .f32⟩
  | .local _ .vmem, ⟨30, _⟩ => ⟨S512x128, .f32⟩
  | .local _ .vmem, ⟨31, _⟩ => ⟨S512x128, .f32⟩
  | .local _ .vmem, ⟨32, _⟩ => ⟨S512x4096, .bf16⟩
  | .local _ .vmem, ⟨33, _⟩ => ⟨S512x4096, .bf16⟩
  | .local _ .vmem, ⟨34, _⟩ => ⟨S512x4096, .bf16⟩
  | .local _ .vmem, ⟨35, _⟩ => ⟨S512x4096, .bf16⟩
  | .local _ .vmem, ⟨36, _⟩ => ⟨S4096x128, .f32⟩
  | .local _ .vmem, ⟨37, _⟩ => ⟨S4096x1, .f32⟩
  | .local _ .vmem, ⟨38, _⟩ => ⟨S128x256, .f32⟩
  | .local _ .vmem, ⟨39, _⟩ => ⟨S256x64, .f32⟩
  | .local _ .vmem, ⟨40, _⟩ => ⟨S512x64, .f32⟩
  | .local _ .vmem, ⟨41, _⟩ => ⟨S512x64, .f32⟩
  | .local _ .vmem, ⟨42, _⟩ => ⟨S512x4096, .bf16⟩
  | .local _ .vmem, ⟨43, _⟩ => ⟨S512x4096, .bf16⟩
  | .local _ .vmem, ⟨44, _⟩ => ⟨S4096x64, .f32⟩
  | .local _ .vmem, ⟨45, _⟩ => ⟨S4096x1, .f32⟩
  | .local _ .vmem, ⟨46, _⟩ => ⟨S512x64, .f32⟩
  | .local _ .vmem, ⟨47, _⟩ => ⟨S512x64, .f32⟩
  | .local _ .vmem, ⟨48, _⟩ => ⟨S4096x64, .f32⟩
  | .local _ .vmem, ⟨49, _⟩ => ⟨S4096x64, .f32⟩
  | .local _ .vmem, ⟨50, _⟩ => ⟨S64x256, .f32⟩
  | .local _ .vmem, ⟨51, _⟩ => ⟨S256x128, .f32⟩
  | .local _ .vmem, ⟨52, _⟩ => ⟨S128x32, .f32⟩
  | .local _ .vmem, ⟨53, _⟩ => ⟨S1x32, .f32⟩
  | .local _ .vmem, ⟨54, _⟩ => ⟨S10x32, .f32⟩
  | .local _ .vmem, ⟨55, _⟩ => ⟨S4096x32, .f32⟩
  | .local _ .vmem, ⟨56, _⟩ => ⟨S4096x10, .f32⟩
  | .local _ .vmem, ⟨57, _⟩ => ⟨S4096x10, .f32⟩
  | .local _ .vmem, ⟨58, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg7_0 : Ref sig .tc := ⟨.vmem, 55, rfl⟩
abbrev cc6_stg8_0 : Ref sig .tc := ⟨.vmem, 56, rfl⟩
abbrev cc6_stg9_0 : Ref sig .tc := ⟨.vmem, 57, rfl⟩
abbrev cc6_stg10_0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem7_0 : DmaSem sig := 55
abbrev cc6_sem8_0 : DmaSem sig := 56
abbrev cc6_sem9_0 : DmaSem sig := 57
abbrev cc6_sem10_0 : DmaSem sig := 58

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v6 : BitVec 32 := Scalar.muli arg0 c512_i32
  let v7 : Index := Scalar.indexCast v6
  let c0_3 : Index := 0#32
  ![v7.toNat, 0]
def k1_off2 (i : grid1.Coords) : Fin 2 → Nat :=
  let arg0 : BitVec 32 := BitVec.ofNat 32 (i 0).val
  let c512_i32_4 : BitVec 32 := 512#32
  let v11 : BitVec 32 := Scalar.muli arg0 c512_i32_4
  let v12 : Index := Scalar.indexCast v11
  let c0_5 : Index := 0#32
  ![v12.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def k2_off1 (i : grid2.Coords) : Fin 2 → Nat :=
  let arg0 : BitVec 32 := BitVec.ofNat 32 (i 0).val
  let c512_i32 : BitVec 32 := 512#32
  let v6 : BitVec 32 := Scalar.muli arg0 c512_i32
  let v7 : Index := Scalar.indexCast v6
  let c0_3 : Index := 0#32
  ![v7.toNat, 0]
def k2_off2 (i : grid2.Coords) : Fin 2 → Nat :=
  let arg0 : BitVec 32 := BitVec.ofNat 32 (i 0).val
  let c512_i32_4 : BitVec 32 := 512#32
  let v11 : BitVec 32 := Scalar.muli arg0 c512_i32_4
  let v12 : Index := Scalar.indexCast v11
  let c0_5 : Index := 0#32
  ![v12.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x4096 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def k4_off1 (i : grid4.Coords) : Fin 2 → Nat :=
  let arg0 : BitVec 32 := BitVec.ofNat 32 (i 0).val
  let c512_i32 : BitVec 32 := 512#32
  let v6 : BitVec 32 := Scalar.muli arg0 c512_i32
  let v7 : Index := Scalar.indexCast v6
  let c0_3 : Index := 0#32
  ![v7.toNat, 0]
def k4_off2 (i : grid4.Coords) : Fin 2 → Nat :=
  let arg0 : BitVec 32 := BitVec.ofNat 32 (i 0).val
  let c512_i32_4 : BitVec 32 := 512#32
  let v11 : BitVec 32 := Scalar.muli arg0 c512_i32_4
  let v12 : Index := Scalar.indexCast v11
  let c0_5 : Index := 0#32
  ![v12.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4096x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def k5_off1 (i : grid5.Coords) : Fin 2 → Nat :=
  let arg0 : BitVec 32 := BitVec.ofNat 32 (i 0).val
  let c512_i32 : BitVec 32 := 512#32
  let v6 : BitVec 32 := Scalar.muli arg0 c512_i32
  let v7 : Index := Scalar.indexCast v6
  let c0_3 : Index := 0#32
  ![v7.toNat, 0]
def k5_off2 (i : grid5.Coords) : Fin 2 → Nat :=
  let arg0 : BitVec 32 := BitVec.ofNat 32 (i 0).val
  let c512_i32_4 : BitVec 32 := 512#32
  let v11 : BitVec 32 := Scalar.muli arg0 c512_i32_4
  let v12 : Index := Scalar.indexCast v11
  let c0_5 : Index := 0#32
  ![v12.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S4096x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := .none

abbrev stage6_0 : Fin 1 → Memref sig .tc .vmem S4096x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S4096x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S64x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S128x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S1x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S10x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S4096x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev stage6_8 : Fin 1 → Memref sig .tc .vmem S4096x10 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))

abbrev stage6_9 : Fin 1 → Memref sig .tc .vmem S4096x10 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))

abbrev stage6_10 : Fin 1 → Memref sig .tc .vmem S4096x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S512x128_S512x128_0_0 : ∀ a, (![0, 0] : Fin 2 → Nat) a + S512x128.size a ≤ S512x128.size a
  h_S512x128 : 0 < S512x128.numel
  broadcasts_S512x1_S512x128 : S512x1.Broadcasts S512x128
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S512x128_S512x128 : S512x128.ShapeCasts S512x128
  shapeCasts_S512x1_S512x1 : S512x1.ShapeCasts S512x1
  inb_S128x256_S128x256_0_0 : ∀ a, (![0, 0] : Fin 2 → Nat) a + S128x256.size a ≤ S128x256.size a
  h_S128x256 : 0 < S128x256.numel
  inb_S256x64_S256x64_0_0 : ∀ a, (![0, 0] : Fin 2 → Nat) a + S256x64.size a ≤ S256x64.size a
  h_S256x64 : 0 < S256x64.numel
  broadcasts_S512x1_S512x64 : S512x1.Broadcasts S512x64
  inb_S512x64_S512x64_0_0 : ∀ a, (![0, 0] : Fin 2 → Nat) a + S512x64.size a ≤ S512x64.size a
  h_S512x64 : 0 < S512x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  shapeCasts_S512x64_S512x64 : S512x64.ShapeCasts S512x64
  shapeCasts_S32_S1x32 : S32.ShapeCasts S1x32
  inb_S64x256_S64x256_0_0 : ∀ a, (![0, 0] : Fin 2 → Nat) a + S64x256.size a ≤ S64x256.size a
  h_S64x256 : 0 < S64x256.numel
  inb_S256x128_S256x128_0_0 : ∀ a, (![0, 0] : Fin 2 → Nat) a + S256x128.size a ≤ S256x128.size a
  h_S256x128 : 0 < S256x128.numel
  inb_S128x32_S128x32_0_0 : ∀ a, (![0, 0] : Fin 2 → Nat) a + S128x32.size a ≤ S128x32.size a
  h_S128x32 : 0 < S128x32.numel
  slices_S128x32_o0_0_S64x32 : S128x32.Slices ![0, 0] S64x32
  slices_S128x32_o64_0_S64x32 : S128x32.Slices ![64, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  inb_S10x32_S10x32_0_0 : ∀ a, (![0, 0] : Fin 2 → Nat) a + S10x32.size a ≤ S10x32.size a
  h_S10x32 : 0 < S10x32.numel
  transposes_S10x32_p1_0_S32x10 : S10x32.Transposes [1, 0] S32x10
  reduces_S4096x32_S4096 : S4096x32.Reduces [1] S4096
  shapeCasts_S4096_S4096x1 : S4096.ShapeCasts S4096x1
  reduces_S10x32_S10 : S10x32.Reduces [1] S10
  shapeCasts_S10_S1x10 : S10.ShapeCasts S1x10
  broadcasts_S4096x1_S4096x10 : S4096x1.Broadcasts S4096x10
  broadcasts_S1x10_S4096x10 : S1x10.Broadcasts S4096x10
  reduces_S4096x10_S4096 : S4096x10.Reduces [1] S4096
  inb_S4096x10_S4096x10_0_0 : ∀ a, (![0, 0] : Fin 2 → Nat) a + S4096x10.size a ≤ S4096x10.size a
  h_S4096x10 : 0 < S4096x10.numel
  reduces_S4096x10_S10 : S4096x10.Reduces [0] S10
  dot_S512x4096_S4096x128_S512x128_1_0_0_1_n_n_wf : DotDims.WF S512x4096 S4096x128 S512x128 [1] [0] [0] [1] [] []
  dot_S512x128_S128x256_S512x256_1_0_0_1_n_n_wf : DotDims.WF S512x128 S128x256 S512x256 [1] [0] [0] [1] [] []
  dot_S512x256_S256x64_S512x64_1_0_0_1_n_n_wf : DotDims.WF S512x256 S256x64 S512x64 [1] [0] [0] [1] [] []
  dot_S512x4096_S4096x64_S512x64_1_0_0_1_n_n_wf : DotDims.WF S512x4096 S4096x64 S512x64 [1] [0] [0] [1] [] []
  dot_S4096x64_S64x256_S4096x256_1_0_0_1_n_n_wf : DotDims.WF S4096x64 S64x256 S4096x256 [1] [0] [0] [1] [] []
  dot_S4096x256_S256x128_S4096x128_1_0_0_1_n_n_wf : DotDims.WF S4096x256 S256x128 S4096x128 [1] [0] [0] [1] [] []
  dot_S4096x64_S64x32_S4096x32_1_0_0_1_n_n_wf : DotDims.WF S4096x64 S64x32 S4096x32 [1] [0] [0] [1] [] []
  dot_S4096x32_S32x10_S4096x10_1_0_0_1_n_n_wf : DotDims.WF S4096x32 S32x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hrank1 : 0 < grid1.rank
  k1_off1_inb : ∀ i : grid1.Coords, ∀ a, (k1_off1 i) a + S512x128.size a ≤ S4096x128.size a
  k1_off2_inb : ∀ i : grid1.Coords, ∀ a, (k1_off2 i) a + S512x1.size a ≤ S4096x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S4096x1.size a
  hwx1_2 : ∀ i : grid1.Coords, EltTy.bits .f32 = 32 ∨ (Rect.block (s := S4096x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S4096x64.size a
  hwx1_5 : ∀ i : grid1.Coords, EltTy.bits .f32 = 32 ∨ (Rect.block (s := S4096x64) S512x64.size (cc1_transform_5 i) (hinb1_5 i)).WholeWords (EltTy.packing .f32)
  hrank2 : 0 < grid2.rank
  k2_off1_inb : ∀ i : grid2.Coords, ∀ a, (k2_off1 i) a + S512x64.size a ≤ S4096x64.size a
  k2_off2_inb : ∀ i : grid2.Coords, ∀ a, (k2_off2 i) a + S512x1.size a ≤ S4096x1.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .f32 = 32 ∨ (Rect.block (s := S4096x64) S4096x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S4096x1.size a
  hwx2_2 : ∀ i : grid2.Coords, EltTy.bits .f32 = 32 ∨ (Rect.block (s := S4096x1) S4096x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S4096x64.size a
  hwx2_3 : ∀ i : grid2.Coords, EltTy.bits .f32 = 32 ∨ (Rect.block (s := S4096x64) S512x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .f32 = 32 ∨ (Rect.block (s := S4096x4096) S512x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S4096x128.size a
  hwx3_1 : ∀ i : grid3.Coords, EltTy.bits .f32 = 32 ∨ (Rect.block (s := S4096x128) S512x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S4096x1.size a
  hwx3_2 : ∀ i : grid3.Coords, EltTy.bits .f32 = 32 ∨ (Rect.block (s := S4096x1) S512x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S4096x128.size a
  hwx3_3 : ∀ i : grid3.Coords, EltTy.bits .f32 = 32 ∨ (Rect.block (s := S4096x128) S512x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x4096.size a ≤ S4096x4096.size a
  hwx3_4 : ∀ i : grid3.Coords, EltTy.bits .bf16 = 32 ∨ (Rect.block (s := S4096x4096) S512x4096.size (cc3_transform_4 i) (hinb3_4 i)).WholeWords (EltTy.packing .bf16)
  hrank4 : 0 < grid4.rank
  k4_off1_inb : ∀ i : grid4.Coords, ∀ a, (k4_off1 i) a + S512x128.size a ≤ S4096x128.size a
  k4_off2_inb : ∀ i : grid4.Coords, ∀ a, (k4_off2 i) a + S512x1.size a ≤ S4096x1.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S4096x4096.size a
  hwx4_0 : ∀ i : grid4.Coords, EltTy.bits .bf16 = 32 ∨ (Rect.block (s := S4096x4096) S512x4096.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S4096x128.size a
  hwx4_1 : ∀ i : grid4.Coords, EltTy.bits .f32 = 32 ∨ (Rect.block (s := S4096x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4096x1.size a ≤ S4096x1.size a
  hwx4_2 : ∀ i : grid4.Coords, EltTy.bits .f32 = 32 ∨ (Rect.block (s := S4096x1) S4096x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x64.size a ≤ S256x64.size a
  hwx4_4 : ∀ i : grid4.Coords, EltTy.bits .f32 = 32 ∨ (Rect.block (s := S256x64) S256x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x64.size a ≤ S4096x64.size a
  hwx4_5 : ∀ i : grid4.Coords, EltTy.bits .f32 = 32 ∨ (Rect.block (s := S4096x64) S512x64.size (cc4_transform_5 i) (hinb4_5 i)).WholeWords (EltTy.packing .f32)
  hrank5 : 0 < grid5.rank
  k5_off1_inb : ∀ i : grid5.Coords, ∀ a, (k5_off1 i) a + S512x64.size a ≤ S4096x64.size a
  k5_off2_inb : ∀ i : grid5.Coords, ∀ a, (k5_off2 i) a + S512x1.size a ≤ S4096x1.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S4096x4096.size a
  hwx5_0 : ∀ i : grid5.Coords, EltTy.bits .bf16 = 32 ∨ (Rect.block (s := S4096x4096) S512x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x64.size a ≤ S4096x64.size a
  hwx5_1 : ∀ i : grid5.Coords, EltTy.bits .f32 = 32 ∨ (Rect.block (s := S4096x64) S4096x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4096x1.size a ≤ S4096x1.size a
  hwx5_2 : ∀ i : grid5.Coords, EltTy.bits .f32 = 32 ∨ (Rect.block (s := S4096x1) S4096x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x64.size a ≤ S4096x64.size a
  hwx5_3 : ∀ i : grid5.Coords, EltTy.bits .f32 = 32 ∨ (Rect.block (s := S4096x64) S512x64.size (cc5_transform_3 i) (hinb5_3 i)).WholeWords (EltTy.packing .f32)
  hstage6_0 : ∀ j, (stage6_0 j).IsWhole
  hstage6_1 : ∀ j, (stage6_1 j).IsWhole
  hstage6_2 : ∀ j, (stage6_2 j).IsWhole
  hstage6_3 : ∀ j, (stage6_3 j).IsWhole
  hstage6_4 : ∀ j, (stage6_4 j).IsWhole
  hstage6_5 : ∀ j, (stage6_5 j).IsWhole
  hstage6_6 : ∀ j, (stage6_6 j).IsWhole
  hstage6_7 : ∀ j, (stage6_7 j).IsWhole
  hstage6_8 : ∀ j, (stage6_8 j).IsWhole
  hstage6_9 : ∀ j, (stage6_9 j).IsWhole
  hstage6_10 : ∀ j, (stage6_10 j).IsWhole

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x10_S4096x10_1_0_0_1_n_n : DotDims S4096x32 S32x10 S4096x10 where
  lhsContracting := [1]
  rhsContracting := [0]
  lhsNonContracting := [0]
  rhsNonContracting := [1]
  lhsBatch := []
  rhsBatch := []
  wf := dot_S4096x32_S32x10_S4096x10_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S4096x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0_2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S4096x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3_0) S512x1.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3_1) S512x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3_2) S512x4096.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v3_2) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3_1) S4096x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v3_0) S4096x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg6) S256x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v4) S512x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v3_2) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S4096x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v3_0) S4096x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S512x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.whole (Memref.whole main_v2) false false (stage6_0 0) (sem6_0 0) (Memref.isWhole_whole _) (hstage6_0 0)

abbrev win6_1 : Pipeline.Window sig grid6 :=
  Pipeline.Window.whole (Memref.whole main_v5) false false (stage6_1 0) (sem6_1 0) (Memref.isWhole_whole _) (hstage6_1 0)

abbrev win6_2 : Pipeline.Window sig grid6 :=
  Pipeline.Window.whole (Memref.whole main_arg7) false false (stage6_2 0) (sem6_2 0) (Memref.isWhole_whole _) (hstage6_2 0)

abbrev win6_3 : Pipeline.Window sig grid6 :=
  Pipeline.Window.whole (Memref.whole main_arg8) false false (stage6_3 0) (sem6_3 0) (Memref.isWhole_whole _) (hstage6_3 0)

abbrev win6_4 : Pipeline.Window sig grid6 :=
  Pipeline.Window.whole (Memref.whole main_arg9) false false (stage6_4 0) (sem6_4 0) (Memref.isWhole_whole _) (hstage6_4 0)

abbrev win6_5 : Pipeline.Window sig grid6 :=
  Pipeline.Window.whole (Memref.whole main_v6) false false (stage6_5 0) (sem6_5 0) (Memref.isWhole_whole _) (hstage6_5 0)

abbrev win6_6 : Pipeline.Window sig grid6 :=
  Pipeline.Window.whole (Memref.whole main_arg11) false false (stage6_6 0) (sem6_6 0) (Memref.isWhole_whole _) (hstage6_6 0)

abbrev win6_7 : Pipeline.Window sig grid6 :=
  Pipeline.Window.whole (Memref.whole main_v7_0) true false (stage6_7 0) (sem6_7 0) (Memref.isWhole_whole _) (hstage6_7 0)

abbrev win6_8 : Pipeline.Window sig grid6 :=
  Pipeline.Window.whole (Memref.whole main_v7_1) true false (stage6_8 0) (sem6_8 0) (Memref.isWhole_whole _) (hstage6_8 0)

abbrev win6_9 : Pipeline.Window sig grid6 :=
  Pipeline.Window.whole (Memref.whole main_v7_2) true false (stage6_9 0) (sem6_9 0) (Memref.isWhole_whole _) (hstage6_9 0)

abbrev win6_10 : Pipeline.Window sig grid6 :=
  Pipeline.Window.whole (Memref.whole main_v7_3) true false (stage6_10 0) (sem6_10 0) (Memref.isWhole_whole _) (hstage6_10 0)

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x256 : Shape := ⟨2, ![128, 256]⟩
abbrev S256x64 : Shape := ⟨2, ![256, 64]⟩
abbrev S64x256 : Shape := ⟨2, ![64, 256]⟩
abbrev S256x128 : Shape := ⟨2, ![256, 128]⟩
abbrev S128x32 : Shape := ⟨2, ![128, 32]⟩
abbrev S32 : Shape := ⟨1, ![32]⟩
abbrev S10x32 : Shape := ⟨2, ![10, 32]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x256 : Shape := ⟨2, ![4096, 256]⟩
abbrev S4096x64 : Shape := ⟨2, ![4096, 64]⟩
abbrev S4096x32 : Shape := ⟨2, ![4096, 32]⟩
abbrev S1x32 : Shape := ⟨2, ![1, 32]⟩
abbrev S4096x1x32 : Shape := ⟨3, ![4096, 1, 32]⟩
abbrev S1x10x32 : Shape := ⟨3, ![1, 10, 32]⟩
abbrev S4096x10x32 : Shape := ⟨3, ![4096, 10, 32]⟩
abbrev S4096x10 : Shape := ⟨2, ![4096, 10]⟩
abbrev S10 : Shape := ⟨1, ![10]⟩
abbrev S1x10 : Shape := ⟨2, ![1, 10]⟩

abbrev nBuf : Space → Nat
  | .hbm => 107
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x256, .f32⟩
  | .hbm, ⟨4, _⟩ => ⟨S256x64, .f32⟩
  | .hbm, ⟨5, _⟩ => ⟨S128x256, .f32⟩
  | .hbm, ⟨6, _⟩ => ⟨S256x64, .f32⟩
  | .hbm, ⟨7, _⟩ => ⟨S64x256, .f32⟩
  | .hbm, ⟨8, _⟩ => ⟨S256x128, .f32⟩
  | .hbm, ⟨9, _⟩ => ⟨S128x32, .f32⟩
  | .hbm, ⟨10, _⟩ => ⟨S32, .f32⟩
  | .hbm, ⟨11, _⟩ => ⟨S10x32, .f32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .i32⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096x1, .f32⟩
  | .hbm, ⟨47, _⟩ => ⟨S4096x4096, .f32⟩
  | .hbm, ⟨48, _⟩ => ⟨S4096x4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S4096x256, .f32⟩
  | .hbm, ⟨53, _⟩ => ⟨S4096x256, .f32⟩
  | .hbm, ⟨54, _⟩ => ⟨S_, .f32⟩
  | .hbm, ⟨55, _⟩ => ⟨S4096x256, .f32⟩
  | .hbm, ⟨56, _⟩ => ⟨S4096x256, .f32⟩
  | .hbm, ⟨57, _⟩ => ⟨S4096x256, .f32⟩
  | .hbm, ⟨58, _⟩ => ⟨S4096x64, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x64, .f32⟩
  | .hbm, ⟨66, _⟩ => ⟨S4096x256, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x128, .f32⟩
  | .hbm, ⟨71, _⟩ => ⟨S4096x128, .f32⟩
  | .hbm, ⟨72, _⟩ => ⟨S4096x32, .f32⟩
  | .hbm, ⟨73, _⟩ => ⟨S1x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x1x32, .f32⟩
  | .hbm, ⟨78, _⟩ => ⟨S1x10x32, .f32⟩
  | .hbm, ⟨79, _⟩ => ⟨S4096x10x32, .f32⟩
  | .hbm, ⟨80, _⟩ => ⟨S4096x10x32, .f32⟩
  | .hbm, ⟨81, _⟩ => ⟨S4096x10x32, .f32⟩
  | .hbm, ⟨82, _⟩ => ⟨S4096x10x32, .f32⟩
  | .hbm, ⟨83, _⟩ => ⟨S_, .f32⟩
  | .hbm, ⟨84, _⟩ => ⟨S4096x10, .f32⟩
  | .hbm, ⟨85, _⟩ => ⟨S_, .f32⟩
  | .hbm, ⟨86, _⟩ => ⟨S4096x10, .f32⟩
  | .hbm, ⟨87, _⟩ => ⟨S4096x10, .f32⟩
  | .hbm, ⟨88, _⟩ => ⟨S_, .f32⟩
  | .hbm, ⟨89, _⟩ => ⟨S4096x10, .f32⟩
  | .hbm, ⟨90, _⟩ => ⟨S4096x10, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x10, .f32⟩
  | .hbm, ⟨95, _⟩ => ⟨S4096x10, .f32⟩
  | .hbm, ⟨96, _⟩ => ⟨S_, .f32⟩
  | .hbm, ⟨97, _⟩ => ⟨S10, .f32⟩
  | .hbm, ⟨98, _⟩ => ⟨S4096x10, .f32⟩
  | .hbm, ⟨99, _⟩ => ⟨S1x10, .f32⟩
  | .hbm, ⟨100, _⟩ => ⟨S4096x10, .f32⟩
  | .hbm, ⟨101, _⟩ => ⟨S4096x10, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x10, .f32⟩
  | .hbm, ⟨106, _⟩ => ⟨S4096x10, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call2_cst : Ref sig .tc := ⟨.hbm, 67, rfl⟩
abbrev main_call2_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_4 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_9 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x256 : S_.BroadcastsInDim S4096x256 (![] : Fin 0 → Fin S4096x256.rank)
  concatenates_S4096x64_S4096x64_S4096x128_d1 : Shape.Concatenates [S4096x64, S4096x64] S4096x128 1
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S4096x32_S4096x1x32_0_2 : S4096x32.BroadcastsInDim S4096x1x32 (![0, 2] : Fin 2 → Fin S4096x1x32.rank)
  bcast_S10x32_S1x10x32_1_2 : S10x32.BroadcastsInDim S1x10x32 (![1, 2] : Fin 2 → Fin S1x10x32.rank)
  bcast_S4096x1x32_S4096x10x32_0_1_2 : S4096x1x32.BroadcastsInDim S4096x10x32 (![0, 1, 2] : Fin 3 → Fin S4096x10x32.rank)
  bcast_S1x10x32_S4096x10x32_0_1_2 : S1x10x32.BroadcastsInDim S4096x10x32 (![0, 1, 2] : Fin 3 → Fin S4096x10x32.rank)
  reducesTo_S4096x10x32_S4096x10_d2 : S4096x10x32.ReducesTo [2] S4096x10
  bcast_S_S4096x10 : S_.BroadcastsInDim S4096x10 (![] : Fin 0 → Fin S4096x10.rank)
  reducesTo_S4096x10_S4096_d1 : S4096x10.ReducesTo [1] S4096
  bcast_S4096x1_S4096x10_0_1 : S4096x1.BroadcastsInDim S4096x10 (![0, 1] : Fin 2 → Fin S4096x10.rank)
  reducesTo_S4096x10_S10_d0 : S4096x10.ReducesTo [0] S10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S4096x128_S128x256_S4096x256_1_0_0_1_n_n_wf : DotDims.WF S4096x128 S128x256 S4096x256 [1] [0] [0] [1] [] []
  dot_S4096x4096_S4096x256_S4096x256_1_0_0_1_n_n_wf : DotDims.WF S4096x4096 S4096x256 S4096x256 [1] [0] [0] [1] [] []
  dot_S4096x256_S256x64_S4096x64_1_0_0_1_n_n_wf : DotDims.WF S4096x256 S256x64 S4096x64 [1] [0] [0] [1] [] []
  dot_S4096x64_S64x256_S4096x256_1_0_0_1_n_n_wf : DotDims.WF S4096x64 S64x256 S4096x256 [1] [0] [0] [1] [] []
  dot_S4096x256_S256x128_S4096x128_1_0_0_1_n_n_wf : DotDims.WF S4096x256 S256x128 S4096x128 [1] [0] [0] [1] [] []
  dot_S4096x128_S128x32_S4096x32_1_0_0_1_n_n_wf : DotDims.WF S4096x128 S128x32 S4096x32 [1] [0] [0] [1] [] []

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf

class Facts : Prop extends Facts₀ where

variable [Facts]
-- ==== Proof.KRun.lean ====
/-
  The idealized kernel's run, for any property of the final memory that the last boundary's contents imply.

  The program is seven pipelined regions among stretches of host operations. Its buffer contents at each boundary are a
  fold from the launch memory: a region replaces its arrays by what its write-backs leave and keeps every other buffer,
  a host stretch applies its operations. Every weakly fair execution terminates without a fault, and in the final state
  every unscoped buffer holds the last fold's contents. So whatever follows from that — here: the four result buffers
  at the fold's value, the twelve argument buffers as launched — holds of every final state.
-/
import proofs.«122668_g52140902973514_cont_8to1_c_536_6_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memory in which every unscoped buffer of every core holds the contents of the last boundary of the fold. -/
def AtLastFold (s : MemSt nD τ sig (Elt F)) : Prop :=
  ∀ c : Dev nD, ∀ b ∈ Pipeline.ucRefs τ sig, s.mem (((c : Thread nD τ)).1, b) = W8 m ρ c b

/-- The resources the launch hands out: the cells' initial element, and nothing per core. -/
theorem launch_split :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hown
  imodintro
  isplitl [Hown]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hown
  · iapply (show (BI.emp : sProp 𝕄) ⊢ bigSep Finset.univ (fun _ : Dev nD => (BI.emp : sProp 𝕄)) from by
      rw [BI.bigSep_emp_const])
    iempintro

set_option backward.isDefEq.respectTransparency.types false in
/-- Every weakly fair execution of the program terminates, nothing faulting, in a state whose memory has every
    unscoped buffer at the last fold's contents; so any `Q` those contents imply holds at the end. -/
theorem run_of_fold {Q : PUnit × MemSt nD τ sig (Elt F) → Prop}
    (hQ : ∀ s : MemSt nD τ sig (Elt F), AtLastFold m ρ s → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q' => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_split)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b))
            = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      iexists ∅; iexact Howes)
    (QY := fun c s => ∀ b ∈ Pipeline.ucRefs τ sig, s.mem (((c : Thread nD τ)).1, b) = W8 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W8 m ρ c) s')
      isplitl [Hbufs] <;> iassumption)
    (hQ := fun s h => hQ s h)

/-- The run with the four results and the twelve arguments named: each result buffer ends at the last fold's
    contents, each argument buffer as launched. -/
theorem run_vals : θ_run defs (onTc (τ := τ) (main (F := F))) ⟨m, fun _ => 0, ρ⟩ (fun r => ∀ c : Dev nD,
      r.2.mem ((c.tc : Thread nD τ).loc main_v7_0) = W8 m ρ c (Proc.devRef .tc main_v7_0)
      ∧ r.2.mem ((c.tc : Thread nD τ).loc main_v7_1) = W8 m ρ c (Proc.devRef .tc main_v7_1)
      ∧ r.2.mem ((c.tc : Thread nD τ).loc main_v7_2) = W8 m ρ c (Proc.devRef .tc main_v7_2)
      ∧ r.2.mem ((c.tc : Thread nD τ).loc main_v7_3) = W8 m ρ c (Proc.devRef .tc main_v7_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_of_fold m ρ fun s h c =>
    ⟨h c _ (mem_uc main_v7_0 (by decide)),
     h c _ (mem_uc main_v7_1 (by decide)),
     h c _ (mem_uc main_v7_2 (by decide)),
     h c _ (mem_uc main_v7_3 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c)⟩

end Cert.KRun

end
-- ==== Proof.Spec.lean ====
/-
  The two arrangements of one computation, as formulas on coordinate-indexed arrays of extended reals.

  A graph branch normalises an adjacency A by its degrees, An = D (A + I) D with D = diag(dinv),
  dinv i = rsqrt (max (deg i) eps), and applies two graph-convolution layers to the features X:
  h = (An * relu (An * (X * W1))) * W2.  One arrangement (prefix k) never forms An: it scales the rows of its operand
  by dinv, multiplies by A, adds the scaled row back (the identity's share) and scales again, and it applies W1 after
  the first adjacency product and W2 before the second.  The other (prefix r) forms A + I, its row sums, An, and the
  four products in the order written.  The two agree on real inputs by distributivity and associativity of finite sums.

  The closing stage reconstructs the features (eXhat, the same in both), fuses the two branches' embeddings through one
  linear layer and tanh (k: two half-width products added; r: one product of the concatenation), and computes Student-t
  soft assignments q and their sharpened targets p from squared distances to the centres (k: |h|^2 + |c|^2 - 2 h.c;
  r: the sum of squared differences).
-/
import Idealize.ShloMosaic.PureOps.Ideal

noncomputable section

namespace Cert.Spec

open Idealize.ShloMosaic

/-- The degree floor both programs clamp with: the f32 word nearest 1e-12. -/
def eps : EReal := Ideal.ofBits .f32 0x2B8CBCCC#32

/-! ## One graph branch -/

section Branch

variable {n d h1 h2 : ℕ}
variable (A : Fin n → Fin n → EReal) (X : Fin n → Fin d → EReal) (W1 : Fin d → Fin h1 → EReal) (W2 : Fin h1 → Fin h2 → EReal)

/-- k: the inverse square root of a row's degree, the identity's 1 added to the row sum. -/
def kDinv (i : Fin n) : EReal := Ideal.rsqrt (max ((∑ j, A i j) + 1) eps)
/-- k: the features with row l scaled by dinv l. -/
def kXp (l : Fin n) (e : Fin d) : EReal := X l e * kDinv A l
/-- k: row j of An * X. -/
def kT (j : Fin n) (e : Fin d) : EReal := ((∑ l, A j l * kXp A X l e) + kXp A X j e) * kDinv A j
/-- k: the first layer's activations. -/
def kR (j : Fin n) (h : Fin h1) : EReal := max (∑ e, kT A X j e * W1 e h) 0
/-- k: the activations through W2, row j scaled by dinv j. -/
def kM (j : Fin n) (o : Fin h2) : EReal := (∑ h, kR A X W1 j h * W2 h o) * kDinv A j
/-- k: the branch's embedding. -/
def kH (i : Fin n) (o : Fin h2) : EReal := ((∑ j, A i j * kM A X W1 W2 j o) + kM A X W1 W2 i o) * kDinv A i

/-- r: A + I. -/
def rAp (i j : Fin n) : EReal := A i j + (if i = j then 1 else 0)
/-- r: the inverse square root of a row sum of A + I. -/
def rDinv (i : Fin n) : EReal := Ideal.rsqrt (max (∑ j, rAp A i j) eps)
/-- r: the normalised adjacency. -/
def rAn (i j : Fin n) : EReal := (rAp A i j * rDinv A i) * rDinv A j
/-- r: X * W1. -/
def rXW (j : Fin n) (h : Fin h1) : EReal := ∑ e, X j e * W1 e h
/-- r: the first layer's activations. -/
def rR (i : Fin n) (h : Fin h1) : EReal := max (∑ j, rAn A i j * rXW X W1 j h) 0
/-- r: An * relu(...). -/
def rQ (i : Fin n) (h : Fin h1) : EReal := ∑ j, rAn A i j * rR A X W1 j h
/-- r: the branch's embedding. -/
def rH (i : Fin n) (o : Fin h2) : EReal := ∑ h, rQ A X W1 i h * W2 h o

end Branch

/-! ## The closing stage -/

section Closing

variable {n : ℕ}
variable (hv hg : Fin n → Fin 64 → EReal) (Wd1 : Fin 64 → Fin 256 → EReal) (Wd2 : Fin 256 → Fin 128 → EReal)
  (Wf : Fin 128 → Fin 32 → EReal) (bf : Fin 32 → EReal) (C : Fin 10 → Fin 32 → EReal)

/-- The reconstructed features (both arrangements). -/
def eXhat (i : Fin n) (e : Fin 128) : EReal := ∑ h : Fin 256, max (∑ k : Fin 64, hv i k * Wd1 k h) 0 * Wd2 h e

/-- k: the fused pre-activation, the two halves of Wf applied apart. -/
def kFuse (i : Fin n) (o : Fin 32) : EReal :=
  ((∑ k : Fin 64, hv i k * Wf ⟨k.val, by omega⟩ o) + ∑ k : Fin 64, hg i k * Wf ⟨64 + k.val, by omega⟩ o) + bf o
/-- r: the concatenation of the two embeddings along the feature axis. -/
def rCat (i : Fin n) (k : Fin 128) : EReal :=
  if h : k.val < 64 then hv i ⟨k.val, h⟩ else hg i ⟨k.val - 64, by omega⟩
/-- r: the fused pre-activation. -/
def rFuse (i : Fin n) (o : Fin 32) : EReal := (∑ k : Fin 128, rCat hv hg i k * Wf k o) + bf o

variable (h : Fin n → Fin 32 → EReal)

/-- k: squared distance to centre k, the square expanded. -/
def kDist2 (i : Fin n) (k : Fin 10) : EReal :=
  ((∑ e, h i e * h i e) + ∑ e, C k e * C k e) - 2 * ∑ e, h i e * C k e
/-- r: squared distance to centre k. -/
def rDist2 (i : Fin n) (k : Fin 10) : EReal := ∑ e, (h i e - C k e) * (h i e - C k e)

variable (dist2 : Fin n → Fin 10 → EReal)

/-- The Student-t kernel before normalisation. -/
def q0 (i : Fin n) (k : Fin 10) : EReal := Ideal.div 1 (1 + dist2 i k)
/-- The soft assignment: each row of q0 normalised. -/
def q (i : Fin n) (k : Fin 10) : EReal := Ideal.div (q0 dist2 i k) (∑ k', q0 dist2 i k')
/-- The soft cluster frequencies. -/
def freq (k : Fin 10) : EReal := ∑ i, q dist2 i k
/-- The sharpened assignment before normalisation. -/
def p0 (i : Fin n) (k : Fin 10) : EReal := Ideal.div (q dist2 i k * q dist2 i k) (freq dist2 k)
/-- The target distribution: each row of p0 normalised. -/
def p (i : Fin n) (k : Fin 10) : EReal := Ideal.div (p0 dist2 i k) (∑ k', p0 dist2 i k')

end Closing

/-! ## The four results of each arrangement, from the twelve inputs -/

section Whole

variable {n : ℕ}
variable (X : Fin n → Fin 128 → EReal) (Av Ag : Fin n → Fin n → EReal)
  (W1v : Fin 128 → Fin 256 → EReal) (W2v : Fin 256 → Fin 64 → EReal)
  (W1g : Fin 128 → Fin 256 → EReal) (W2g : Fin 256 → Fin 64 → EReal)
  (Wd1 : Fin 64 → Fin 256 → EReal) (Wd2 : Fin 256 → Fin 128 → EReal)
  (Wf : Fin 128 → Fin 32 → EReal) (bf : Fin 32 → EReal) (C : Fin 10 → Fin 32 → EReal)

def kOutH (i : Fin n) (o : Fin 32) : EReal :=
  Ideal.tanh (kFuse (kH Av X W1v W2v) (kH Ag X W1g W2g) Wf bf i o)
def kOutQ : Fin n → Fin 10 → EReal := q (kDist2 C (kOutH X Av Ag W1v W2v W1g W2g Wf bf))
def kOutP : Fin n → Fin 10 → EReal := p (kDist2 C (kOutH X Av Ag W1v W2v W1g W2g Wf bf))
def kOutX : Fin n → Fin 128 → EReal := eXhat (kH Av X W1v W2v) Wd1 Wd2

def rOutH (i : Fin n) (o : Fin 32) : EReal :=
  Ideal.tanh (rFuse (rH Av X W1v W2v) (rH Ag X W1g W2g) Wf bf i o)
def rOutQ : Fin n → Fin 10 → EReal := q (rDist2 C (rOutH X Av Ag W1v W2v W1g W2g Wf bf))
def rOutP : Fin n → Fin 10 → EReal := p (rDist2 C (rOutH X Av Ag W1v W2v W1g W2g Wf bf))
def rOutX : Fin n → Fin 128 → EReal := eXhat (rH Av X W1v W2v) Wd1 Wd2

end Whole

end Cert.Spec

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/-
  The first region of a graph branch, read as three whole arrays.

  For each block of 512 rows of the adjacency A the region computes the rows' degree factors
  dinv r = rsqrt (max ((sum over the row) + 1) eps) (the 1 is the identity's share of A + I), the features with row r scaled by
  dinv r, and a copy of the block in a narrower float format, which on extended reals is the block itself. Block t of
  each output is rows 512 t … 512 t + 511, so the eight blocks tile the arrays, and each output array ends as one
  function of the two input arrays, index by index.
-/
import proofs.«122668_g52140902973514_cont_8to1_c_536_6_alg».proof.Proof.Gen.KernelIdeal.Frame
import proofs.«122668_g52140902973514_cont_8to1_c_536_6_alg».proof.Proof.Spec
import proofs.«122668_g52140902973514_cont_8to1_c_536_6_alg».proof.Proof.LibLayoutCol
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Region0

open Idealize.ShloMosaic Idealize.ShloMosaic.TcCoe Idealize.SL.Sem Cert.KernelIdeal Cert.KernelIdeal.Gen
open Idealize.ShloMosaic.ValueIdx

/-- A rank-2 array read by its two coordinates. -/
abbrev cur {a b : ℕ} (x : (⟨2, ![a, b]⟩ : Shape).Idx → EReal) : Fin a → Fin b → EReal := fun i j => x (ix2 i j)

theorem hz : (![0, 0] : Fin 2 → Nat) = fun _ => 0 := funext fun a => by fin_cases a <;> rfl

/-- The f32 word of one denotes 1. -/
theorem one_word : Ideal.ofBits .f32 0x3F800000#32 = (1 : EReal) := by
  simp [Ideal.ofBits, Ideal.ieee]
  rw [← EReal.coe_mul, ← EReal.coe_one]
  exact congrArg _ (by norm_num)

/-- The lane sum of a [512, 4096] block along its rows, at row p: the sum of the row's entries. -/
theorem rowsum_apply (x0 : FVec Ideal S512x4096 .f32) (hφ : FKind.Formats .f32)
    (hacc : (0x00000000#32 : BitVec 32) = FKind.add.neutral .f32 hφ) (p : Fin 512) :
    multiReduction .add [1] S512 x0 0x00000000#32 reduces_S512x4096_S512 hφ hacc (ix1 p) = ∑ j : Fin 4096, x0 (ix2 p j) :=
  (Ideal.multiReduction_add_single x0 _ reduces_S512x4096_S512 hφ hacc (ix1 p)).trans
    (Finset.sum_congr rfl fun k _ => congrArg x0 (funext fun a => Fin.ext (by match a with | ⟨0, _⟩ => rfl | ⟨1, _⟩ => rfl)))

/-- The degree column of a block of rows: entry (p, u) is rsqrt (max (row sum + 1) eps). -/
theorem pay1_apply (x0 : Vec Ideal S512x4096 .f32) (p : Fin 512) (u : Fin 1) :
    k0_pay1 (F := Ideal) x0 (ix2 p u) = Ideal.rsqrt (max ((∑ j : Fin 4096, x0 (ix2 p j)) + 1) Spec.eps) := by
  unfold k0_pay1
  show Ideal.rsqrt (max (shapeCast S512x1 (multiReduction (F := Ideal) .add [1] S512 x0 0x00000000#32 reduces_S512x4096_S512 _ _) shapeCasts_S512_S512x1 (ix2 p u) + Ideal.ofBits .f32 0x3F800000#32) (Ideal.ofBits .f32 0x2B8CBCCC#32)) = _
  rw [shapeCast_a_a1_apply]
  exact congrArg₂ (fun s o => Ideal.rsqrt (max (s + o) (Ideal.ofBits .f32 0x2B8CBCCC#32))) (rowsum_apply x0 _ _ p) one_word

/-- The scaled features of a block of rows: entry (p, e) is x (p, e) times the row's degree factor. -/
theorem pay2_apply (x0 : Vec Ideal S512x4096 .f32) (x1 : Vec Ideal S512x128 .f32) (p : Fin 512) (e : Fin 128) :
    k0_pay2 (F := Ideal) x0 x1 (ix2 p e)
      = x1 (ix2 p e) * Ideal.rsqrt (max ((∑ j : Fin 4096, x0 (ix2 p j)) + 1) Spec.eps) := by
  unfold k0_pay2
  show x1 (ix2 p e) * broadcastTo S512x128 (k0_pay1 (F := Ideal) x0) broadcasts_S512x1_S512x128 (ix2 p e) = _
  rw [broadcastTo_a1_ab_apply, pay1_apply]

/-- The narrowed copy of a block: a change of float format is the identity on extended reals. -/
theorem pay3_apply (x0 : Vec Ideal S512x4096 .f32) (y : S512x4096.Idx) : k0_pay3 (F := Ideal) x0 y = x0 y := rfl

/-! ## From blocks to arrays -/

section Arrays

variable (V : (c : Dev nD) → (b : Ref sig .tc) → Buf (Elt Ideal) ((c : Thread nD τ).loc b))

/-- The printed index maps over the eight grid points: block t of every window starts at row 512 t, column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The degree factors of all rows, as a column. -/
def dinvArr (A : S4096x4096.Idx → EReal) : S4096x1.Idx → EReal :=
  fun y => Spec.kDinv (n := 4096) (cur A) ⟨(y 0).val, idx2_lt0 y⟩

theorem flushed_dinv (c : Dev nD) (t : Fin cfg0.N) :
    (dat0 V c).flushed 2 t = ((cfg0.win 2).blk t).view.read (Elt Ideal) (dinvArr (V c (Pipeline.arrRef spec0 0))) := by
  show (cfg0.win 2).cut (grid0.coords t) ((dat0 V c).after 2 t) = _
  rw [after0_2]
  unfold out0_2
  rw [View.canon_unit_zero hz]
  simp only [View.ld_unit_zero (S := S512x4096) hz]
  obtain ⟨e00, e01, e10, e11, e20, e21, e30, e31, e40, e41⟩ := idx_facts t
  funext j
  obtain ⟨p, u, rfl⟩ : ∃ (p : Fin 512) (u : Fin 1), j = ix2 p u := ⟨j 0, j 1, eq_ix2 j⟩
  refine (pay1_apply _ p u).trans ?_
  show _ = dinvArr (V c (Pipeline.arrRef spec0 0)) (((cfg0.win 2).blk t).view.emb (ix2 p u))
  unfold dinvArr Spec.kDinv
  refine congrArg (fun s => Ideal.rsqrt (max (s + 1) Spec.eps)) (Finset.sum_congr rfl fun jj _ => ?_)
  show V c (Pipeline.arrRef spec0 0) (((cfg0.win 0).blk t).view.emb (ix2 p jj)) = V c (Pipeline.arrRef spec0 0) (ix2 _ jj)
  refine congrArg _ (funext fun a => Fin.ext ?_)
  match a with
  | ⟨0, _⟩ => show win0_0.index t (0 : Fin 2) * 512 + 1 * p.val = win0_2.index t (0 : Fin 2) * 512 + 1 * p.val; omega
  | ⟨1, _⟩ => show win0_0.index t (1 : Fin 2) * 4096 + 1 * jj.val = jj.val; omega

/-- The features with every row scaled by its degree factor. -/
def xpArr (A : S4096x4096.Idx → EReal) (X : S4096x128.Idx → EReal) : S4096x128.Idx → EReal :=
  fun y => Spec.kXp (n := 4096) (d := 128) (cur A) (cur X) ⟨(y 0).val, idx2_lt0 y⟩ ⟨(y 1).val, idx2_lt1 y⟩

theorem flushed_xp (c : Dev nD) (t : Fin cfg0.N) :
    (dat0 V c).flushed 3 t = ((cfg0.win 3).blk t).view.read (Elt Ideal)
      (xpArr (V c (Pipeline.arrRef spec0 0)) (V c (Pipeline.arrRef spec0 1))) := by
  show (cfg0.win 3).cut (grid0.coords t) ((dat0 V c).after 3 t) = _
  rw [after0_3]
  unfold out0_3
  rw [View.canon_unit_zero hz]
  simp only [View.ld_unit_zero (S := S512x4096) hz, View.ld_unit_zero (S := S512x128) hz]
  obtain ⟨e00, e01, e10, e11, e20, e21, e30, e31, e40, e41⟩ := idx_facts t
  funext j
  obtain ⟨p, e, rfl⟩ : ∃ (p : Fin 512) (e : Fin 128), j = ix2 p e := ⟨j 0, j 1, eq_ix2 j⟩
  refine (pay2_apply _ _ p e).trans ?_
  show _ = xpArr (V c (Pipeline.arrRef spec0 0)) (V c (Pipeline.arrRef spec0 1)) (((cfg0.win 3).blk t).view.emb (ix2 p e))
  unfold xpArr Spec.kXp Spec.kDinv
  refine congrArg₂ (fun x s => x * Ideal.rsqrt (max (s + 1) Spec.eps)) ?_ (Finset.sum_congr rfl fun jj _ => ?_)
  · show V c (Pipeline.arrRef spec0 1) (((cfg0.win 1).blk t).view.emb (ix2 p e)) = V c (Pipeline.arrRef spec0 1) (ix2 _ _)
    refine congrArg _ (funext fun a => Fin.ext ?_)
    match a with
    | ⟨0, _⟩ => show win0_1.index t (0 : Fin 2) * 512 + 1 * p.val = win0_3.index t (0 : Fin 2) * 512 + 1 * p.val; omega
    | ⟨1, _⟩ => show win0_1.index t (1 : Fin 2) * 128 + 1 * e.val = win0_3.index t (1 : Fin 2) * 128 + 1 * e.val; omega
  · show V c (Pipeline.arrRef spec0 0) (((cfg0.win 0).blk t).view.emb (ix2 p jj)) = V c (Pipeline.arrRef spec0 0) (ix2 _ jj)
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * jj.val = jj.val; omega

/-- The adjacency in the narrower float format: the same extended reals. -/
def abfArr (A : S4096x4096.Idx → EReal) : S4096x4096.Idx → EReal := A

theorem flushed_abf (c : Dev nD) (t : Fin cfg0.N) :
    (dat0 V c).flushed 4 t = ((cfg0.win 4).blk t).view.read (Elt Ideal) (abfArr (V c (Pipeline.arrRef spec0 0))) := by
  show (cfg0.win 4).cut (grid0.coords t) ((dat0 V c).after 4 t) = _
  rw [after0_4]
  unfold out0_4
  rw [View.canon_unit_zero hz]
  simp only [View.ld_unit_zero (S := S512x4096) hz]
  obtain ⟨e00, e01, e10, e11, e20, e21, e30, e31, e40, e41⟩ := idx_facts t
  funext j
  obtain ⟨p, q, rfl⟩ : ∃ (p : Fin 512) (q : Fin 4096), j = ix2 p q := ⟨j 0, j 1, eq_ix2 j⟩
  refine (pay3_apply _ (ix2 p q)).trans ?_
  show V c (Pipeline.arrRef spec0 0) (((cfg0.win 0).blk t).view.emb (ix2 p q)) = V c (Pipeline.arrRef spec0 0) (((cfg0.win 4).blk t).view.emb (ix2 p q))
  refine congrArg _ (funext fun a => Fin.ext ?_)
  match a with
  | ⟨0, _⟩ => show win0_0.index t (0 : Fin 2) * 512 + 1 * p.val = win0_4.index t (0 : Fin 2) * 512 + 1 * p.val; omega
  | ⟨1, _⟩ => show win0_0.index t (1 : Fin 2) * 4096 + 1 * q.val = win0_4.index t (1 : Fin 2) * 4096 + 1 * q.val; omega

/-! ### Every index of an output array lies in the block of the point its row falls in -/

theorem mem_blk_dinv (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_0).slice (win0_2.rect t)).set ↔ _
  rw [View.set_slice_whole, Rect.mem_set_unit]
  exact Iff.rfl

theorem mem_blk_xp (t : Fin cfg0.N) (i : S4096x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v0_1).slice (win0_3.rect t)).set ↔ _
  rw [View.set_slice_whole, Rect.mem_set_unit]
  exact Iff.rfl

theorem mem_blk_abf (t : Fin cfg0.N) (i : S4096x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v0_2).slice (win0_4.rect t)).set ↔ _
  rw [View.set_slice_whole, Rect.mem_set_unit]
  exact Iff.rfl

/-- The grid point whose blocks hold row r. -/
def pointOf (r : ℕ) (hr : r < 4096) : Fin cfg0.N := ⟨r / 512, by show r / 512 < 8; omega⟩

theorem pointOf_val (r : ℕ) (hr : r < 4096) : (pointOf r hr).val = r / 512 := rfl

theorem cover_dinv (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  refine ⟨pointOf (i 0).val hi0, flush0_2 _, ?_⟩
  rw [mem_blk_dinv]
  obtain ⟨e00, e01, e10, e11, e20, e21, e30, e31, e40, e41⟩ := idx_facts (pointOf (i 0).val hi0)
  have hv := pointOf_val (i 0).val hi0
  intro a
  match a with
  | ⟨0, _⟩ => show win0_2.index (pointOf (i 0).val hi0) (0 : Fin 2) * 512 ≤ (i 0).val ∧ (i 0).val < win0_2.index (pointOf (i 0).val hi0) (0 : Fin 2) * 512 + 512; omega
  | ⟨1, _⟩ => show win0_2.index (pointOf (i 0).val hi0) (1 : Fin 2) * 1 ≤ (i 1).val ∧ (i 1).val < win0_2.index (pointOf (i 0).val hi0) (1 : Fin 2) * 1 + 1; omega

theorem cover_xp (i : S4096x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  refine ⟨pointOf (i 0).val hi0, flush0_3 _, ?_⟩
  rw [mem_blk_xp]
  obtain ⟨e00, e01, e10, e11, e20, e21, e30, e31, e40, e41⟩ := idx_facts (pointOf (i 0).val hi0)
  have hv := pointOf_val (i 0).val hi0
  intro a
  match a with
  | ⟨0, _⟩ => show win0_3.index (pointOf (i 0).val hi0) (0 : Fin 2) * 512 ≤ (i 0).val ∧ (i 0).val < win0_3.index (pointOf (i 0).val hi0) (0 : Fin 2) * 512 + 512; omega
  | ⟨1, _⟩ => show win0_3.index (pointOf (i 0).val hi0) (1 : Fin 2) * 128 ≤ (i 1).val ∧ (i 1).val < win0_3.index (pointOf (i 0).val hi0) (1 : Fin 2) * 128 + 128; omega

theorem cover_abf (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  refine ⟨pointOf (i 0).val hi0, flush0_4 _, ?_⟩
  rw [mem_blk_abf]
  obtain ⟨e00, e01, e10, e11, e20, e21, e30, e31, e40, e41⟩ := idx_facts (pointOf (i 0).val hi0)
  have hv := pointOf_val (i 0).val hi0
  intro a
  match a with
  | ⟨0, _⟩ => show win0_4.index (pointOf (i 0).val hi0) (0 : Fin 2) * 512 ≤ (i 0).val ∧ (i 0).val < win0_4.index (pointOf (i 0).val hi0) (0 : Fin 2) * 512 + 512; omega
  | ⟨1, _⟩ => show win0_4.index (pointOf (i 0).val hi0) (1 : Fin 2) * 4096 ≤ (i 1).val ∧ (i 1).val < win0_4.index (pointOf (i 0).val hi0) (1 : Fin 2) * 4096 + 4096; omega

/-! ### The three arrays the region leaves -/

theorem arr_dinv (c : Dev nD) : (dat0 V c).arrAt 2 cfg0.N = dinvArr (V c (Pipeline.arrRef spec0 0)) :=
  (dat0 V c).arrAt_eq_of_cover 2 _ (fun t _ => flushed_dinv V c t) cover_dinv

theorem arr_xp (c : Dev nD) :
    (dat0 V c).arrAt 3 cfg0.N = xpArr (V c (Pipeline.arrRef spec0 0)) (V c (Pipeline.arrRef spec0 1)) :=
  (dat0 V c).arrAt_eq_of_cover 3 _ (fun t _ => flushed_xp V c t) cover_xp

theorem arr_abf (c : Dev nD) : (dat0 V c).arrAt 4 cfg0.N = abfArr (V c (Pipeline.arrRef spec0 0)) :=
  (dat0 V c).arrAt_eq_of_cover 4 _ (fun t _ => flushed_abf V c t) cover_abf

end Arrays

end Cert.Region0
end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.Closing.lean ====
/-
  The closing stage of the kernel's arrangement, read entry by entry.

  The last region takes the two branches' embeddings h_v and h_g and, in one block, leaves four arrays: the reconstructed
  features relu(h_v * Wd1) * Wd2; the fused embedding h = tanh(h_v * Wf[:64] + h_g * Wf[64:] + b); the soft assignment q,
  each row of 1 / (1 + d) normalised, where d(i, k) = |h_i|^2 + |c_k|^2 - 2 h_i . c_k is the squared distance of row i of h
  to centre k with the square expanded; and the target p, each row of q^2 / f normalised, f the column sums of q.

  Each array is what one store of a pure term of the loaded arrays leaves in its whole buffer. A product into a zero
  accumulator read at an entry is a sum over the shared axis; a sum along an axis kept as a unit axis and repeated
  along the other is the row's (or column's) sum at every entry of that row (column); a transposed operand swaps its
  coordinates; the two halves of Wf are its first and last 64 rows. Read this way every entry is, term for term, the
  specification's formula: no algebraic law is needed beyond the definitions.
-/
import proofs.«122668_g52140902973514_cont_8to1_c_536_6_alg».proof.Proof.Gen.KernelIdeal.Frame
import proofs.«122668_g52140902973514_cont_8to1_c_536_6_alg».proof.Proof.Spec
import proofs.«122668_g52140902973514_cont_8to1_c_536_6_alg».proof.Proof.LibPlainDot
import proofs.«122668_g52140902973514_cont_8to1_c_536_6_alg».proof.Proof.LibLayoutCol
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Closing

open Idealize.ShloMosaic Idealize.ShloMosaic.ValueIdx
open Cert.KernelIdeal Cert.KernelIdeal.Gen

/-! ## General readings: a word, sums along one axis, a rows-by-columns product -/

/-- The word of the float two denotes the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- A sum along the second axis of an [a, b] array, read at row i: the sum over the row's b entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) :=
  (Ideal.multiReduction_add_single src _ h hφ hacc (ix1 i)).trans
    (Finset.sum_congr rfl fun k _ => congrArg src (funext fun c => Fin.ext (match c with
      | ⟨0, _⟩ => rfl
      | ⟨1, _⟩ => rfl)))

/-- A sum along the first axis of an [a, b] array, read at column k: the sum over the column's a entries. -/
theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (k : Fin b) :
    multiReduction (F := Ideal) .add [0] ⟨1, ![b]⟩ src 0x00000000#32 h hφ hacc (ix1 k) = ∑ i : Fin a, src (ix2 i k) :=
  (Ideal.multiReduction_add_single src _ h hφ hacc (ix1 k)).trans
    (Finset.sum_congr rfl fun i _ => congrArg src (funext fun c => Fin.ext (match c with
      | ⟨0, _⟩ => rfl
      | ⟨1, _⟩ => rfl)))

/-- With no batch axis and one free axis on the left, the left operand's index reads the result's first
    coordinate on that axis. -/
theorem lhsIdx_free {sl sr so : Shape} (d : DotDims sl sr so) (a : Fin sl.rank) (hB : d.lhsBatch = [])
    (hN : d.lhsNonContracting = [a]) (j : so.Idx) (q : d.contr.Idx) (h0 : 0 < so.rank) :
    (d.lhsIdx j q a).val = (j ⟨0, h0⟩).val := by
  unfold DotDims.lhsIdx
  rw [dif_neg (show ¬ a ∈ d.lhsBatch by rw [hB]; exact List.not_mem_nil),
    dif_pos (show a ∈ d.lhsNonContracting by rw [hN]; exact List.mem_singleton.mpr rfl)]
  simp only [Fin.val_cast]
  have key : ∀ (p p' : Nat) (hp : p < so.rank) (hp' : p' < so.rank), p = p' → (j ⟨p, hp⟩).val = (j ⟨p', hp'⟩).val :=
    fun p p' hp hp' h => by subst h; rfl
  exact key _ _ _ _ (by simp [hB, hN])

/-- With no batch axis, one free axis on the left and one free axis on the right, the right operand's index
    reads the result's second coordinate on its free axis. -/
theorem rhsIdx_free {sl sr so : Shape} (d : DotDims sl sr so) (a₀ : Fin sl.rank) (a : Fin sr.rank) (hB : d.lhsBatch = [])
    (hN : d.lhsNonContracting = [a₀]) (hB' : d.rhsBatch = []) (hN' : d.rhsNonContracting = [a])
    (j : so.Idx) (q : d.contr.Idx) (h1 : 1 < so.rank) :
    (d.rhsIdx j q a).val = (j ⟨1, h1⟩).val := by
  unfold DotDims.rhsIdx
  rw [dif_neg (show ¬ a ∈ d.rhsBatch by rw [hB']; exact List.not_mem_nil),
    dif_pos (show a ∈ d.rhsNonContracting by rw [hN']; exact List.mem_singleton.mpr rfl)]
  simp only [Fin.val_cast]
  have key : ∀ (p p' : Nat) (hp : p < so.rank) (hp' : p' < so.rank), p = p' → (j ⟨p, hp⟩).val = (j ⟨p', hp'⟩).val :=
    fun p p' hp hp' h => by subst h; rfl
  exact key _ _ _ _ (by simp [hB, hN, hN'])

/-- A rows-by-columns product into a zero accumulator, read at entry (i, e): the sum over the shared axis of the
    left operand's row i times the right operand's column e. -/
theorem matmul_plain_apply {m n p : ℕ} (d : DotDims ⟨2, ![m, n]⟩ ⟨2, ![n, p]⟩ ⟨2, ![m, p]⟩)
    (hB : d.lhsBatch = []) (hN : d.lhsNonContracting = [0]) (hC : d.lhsContracting = [1])
    (hB' : d.rhsBatch = []) (hN' : d.rhsNonContracting = [1]) (hC' : d.rhsContracting = [0])
    (hrk : d.contr.rank = 1) (hs : d.contr.size ⟨0, by omega⟩ = n)
    (prec : Option ContractPrecision) (lhs : FVec Ideal ⟨2, ![m, n]⟩ .f32) (rhs : FVec Ideal ⟨2, ![n, p]⟩ .f32)
    (i : Fin m) (e : Fin p) :
    FloatOps.matmul d prec lhs rhs (constant ⟨2, ![m, p]⟩ .f32 0x00000000#32) (ix2 i e)
      = ∑ k : Fin n, lhs (ix2 i k) * rhs (ix2 k e) :=
  Cert.LibPlainDot.matmul_zero_apply d prec n hrk hs lhs rhs (ix2 i e) (fun k => ix2 i k) (fun k => ix2 k e)
    (fun q => Cert.LibPlainDot.ext2 _ _ (lhsIdx_free d 0 hB hN (ix2 i e) q Nat.zero_lt_two)
      (d.lhsIdx_val_of_single hC (ix2 i e) q))
    (fun q => Cert.LibPlainDot.ext2 _ _ (d.rhsIdx_val_of_single hC' (ix2 i e) q)
      (rhsIdx_free d 0 1 hB hN hB' hN' (ix2 i e) q Nat.one_lt_two))

/-! ## The body's pure terms at an entry -/

/-- A cast to the same shape changes nothing. -/
theorem pay3_eq (v0 : Vec Ideal S4096x64 .f32) : k6_pay3 (F := Ideal) v0 = v0 :=
  shapeCast_self v0 _

/-- The reconstructed features at (i, e): relu of row i of h_v through Wd1, then through Wd2. -/
theorem pay4_apply (v0 : Vec Ideal S4096x64 .f32) (v4 : Vec Ideal S64x256 .f32) (v8 : Vec Ideal S256x128 .f32)
    (i : Fin 4096) (e : Fin 128) :
    k6_pay4 (F := Ideal) v0 v4 v8 (ix2 i e)
      = ∑ h : Fin 256, max (∑ k : Fin 64, v0 (ix2 i k) * v4 (ix2 k h)) 0 * v8 (ix2 h e) := by
  unfold k6_pay4
  refine (matmul_plain_apply dot_S4096x256_S256x128_S4096x128_1_0_0_1_n_n rfl rfl rfl rfl rfl rfl rfl rfl none _ v8 i e).trans ?_
  refine Finset.sum_congr rfl fun h _ => congrArg (· * v8 (ix2 h e)) ?_
  refine congrArg₂ max ?_ Ideal.ofBits_zero_f32
  refine (matmul_plain_apply dot_S4096x64_S64x256_S4096x256_1_0_0_1_n_n rfl rfl rfl rfl rfl rfl rfl rfl none _ v4 i h).trans ?_
  exact Finset.sum_congr rfl fun k _ => congrArg (· * v4 (ix2 k h)) (congrFun (pay3_eq v0) (ix2 i k))

/-- An array read by coordinates. -/
abbrev cur {a b : ℕ} (x : (⟨2, ![a, b]⟩ : Shape).Idx → EReal) : Fin a → Fin b → EReal := fun i j => x (ix2 i j)

/-- The one row of a [1, 32] array as a vector. -/
abbrev row {b : ℕ} (x : (⟨2, ![1, b]⟩ : Shape).Idx → EReal) : Fin b → EReal := fun o => x (ix2 (0 : Fin 1) o)

/-- The fused embedding at (i, o): tanh of row i of h_v through the first 64 rows of Wf, plus row i of h_g through
    the last 64, plus the bias. -/
theorem pay5_apply (v0 v2 : Vec Ideal S4096x64 .f32) (v11 : Vec Ideal S128x32 .f32) (v17 : Vec Ideal S1x32 .f32)
    (i : Fin 4096) (o : Fin 32) :
    k6_pay5 (F := Ideal) v0 v2 v11 v17 (ix2 i o) = Ideal.tanh (Spec.kFuse (cur v0) (cur v2) (cur v11) (row v17) i o) := by
  unfold k6_pay5
  refine congrArg Ideal.tanh ?_
  refine congrArg₂ (· + ·) (congrArg₂ (· + ·) ?_ ?_) ?_
  · refine (matmul_plain_apply dot_S4096x64_S64x32_S4096x32_1_0_0_1_n_n rfl rfl rfl rfl rfl rfl rfl rfl none _ _ i o).trans ?_
    exact Finset.sum_congr rfl fun k _ => congrArg₂ (· * ·) (congrFun (pay3_eq v0) (ix2 i k))
      (slice2_axis0_apply 0 v11 _ k o ⟨k.val, by omega⟩ (Nat.zero_add _).symm)
  · refine (matmul_plain_apply dot_S4096x64_S64x32_S4096x32_1_0_0_1_n_n rfl rfl rfl rfl rfl rfl rfl rfl none _ _ i o).trans ?_
    exact Finset.sum_congr rfl fun k _ => congrArg₂ (· * ·) (congrFun (shapeCast_self v2 _) (ix2 i k))
      (slice2_axis0_apply 64 v11 _ k o ⟨64 + k.val, by omega⟩ rfl)
  · exact (broadcastTo_1b_ab_apply _ _ i o).trans (congrFun (shapeCast_self v17 _) (ix2 (0 : Fin 1) o))

/-- The cross term at (i, k): row i of the fused embedding against centre k. -/
theorem pay6_apply (v0 v2 : Vec Ideal S4096x64 .f32) (v11 : Vec Ideal S128x32 .f32) (v17 : Vec Ideal S1x32 .f32)
    (v23 : Vec Ideal S10x32 .f32) (i : Fin 4096) (k : Fin 10) :
    k6_pay6 (F := Ideal) v0 v2 v11 v17 v23 (ix2 i k)
      = ∑ e : Fin 32, k6_pay5 (F := Ideal) v0 v2 v11 v17 (ix2 i e) * v23 (ix2 k e) := by
  unfold k6_pay6
  refine (matmul_plain_apply dot_S4096x32_S32x10_S4096x10_1_0_0_1_n_n rfl rfl rfl rfl rfl rfl rfl rfl none _ _ i k).trans ?_
  exact Finset.sum_congr rfl fun e _ => congrArg (k6_pay5 (F := Ideal) v0 v2 v11 v17 (ix2 i e) * ·)
    (transpose_ix2_apply v23 _ e k)

/-- The squared length of row i of the fused embedding, kept as a column. -/
theorem pay7_apply (v0 v2 : Vec Ideal S4096x64 .f32) (v11 : Vec Ideal S128x32 .f32) (v17 : Vec Ideal S1x32 .f32)
    (i : Fin 4096) (u : Fin 1) :
    k6_pay7 (F := Ideal) v0 v2 v11 v17 (ix2 i u)
      = ∑ e : Fin 32, k6_pay5 (F := Ideal) v0 v2 v11 v17 (ix2 i e) * k6_pay5 (F := Ideal) v0 v2 v11 v17 (ix2 i e) := by
  unfold k6_pay7
  refine (shapeCast_a_a1_apply _ _ i u).trans ?_
  exact rowSum_apply _ _ _ _ i

/-- The squared length of centre k, kept as a row. -/
theorem pay8_apply (v23 : Vec Ideal S10x32 .f32) (u : Fin 1) (k : Fin 10) :
    k6_pay8 (F := Ideal) v23 (ix2 u k) = ∑ e : Fin 32, v23 (ix2 k e) * v23 (ix2 k e) := by
  unfold k6_pay8
  refine (shapeCast_a_1a_apply _ _ u k).trans ?_
  exact rowSum_apply _ _ _ _ k

/-! ## The soft assignment and its sharpened target -/

/-- The Student-t kernel before normalisation, as the body computes it from the cross term, the column of squared
    row lengths and the row of squared centre lengths. -/
def qzero (v25 : FVec Ideal S4096x10 .f32) (v28 : FVec Ideal S4096x1 .f32) (v31 : FVec Ideal S1x10 .f32) :
    FVec Ideal S4096x10 .f32 :=
  divf (broadcast S4096x10 (Scalar.ofBits .f32 0x3F800000#32))
    (addf (broadcast S4096x10 (Scalar.ofBits .f32 0x3F800000#32))
      (subf (addf (broadcastTo S4096x10 v28 broadcasts_S4096x1_S4096x10) (broadcastTo S4096x10 v31 broadcasts_S1x10_S4096x10))
        (mulf (broadcast S4096x10 (Scalar.ofBits .f32 0x40000000#32)) v25)))

/-- At (i, k) it is 1 / (1 + d), d the row's squared length plus the centre's minus twice the cross term. -/
theorem qzero_apply (v25 : FVec Ideal S4096x10 .f32) (v28 : FVec Ideal S4096x1 .f32) (v31 : FVec Ideal S1x10 .f32)
    (i : Fin 4096) (k : Fin 10) :
    qzero v25 v28 v31 (ix2 i k)
      = Ideal.div 1 (1 + ((v28 (ix2 i (0 : Fin 1)) + v31 (ix2 (0 : Fin 1) k)) - 2 * v25 (ix2 i k))) := by
  show Ideal.div (Ideal.ofBits .f32 0x3F800000#32) (Ideal.ofBits .f32 0x3F800000#32
      + ((broadcastTo S4096x10 v28 broadcasts_S4096x1_S4096x10 (ix2 i k)
          + broadcastTo S4096x10 v31 broadcasts_S1x10_S4096x10 (ix2 i k))
        - Ideal.ofBits .f32 0x40000000#32 * v25 (ix2 i k))) = _
  rw [Ideal.ofBits_one_f32, ofBits_two_f32, broadcastTo_a1_ab_apply, broadcastTo_1b_ab_apply]

/-- The soft assignment's term: the kernel before normalisation over its row sum, kept as a column and repeated. -/
theorem pay1_struct (v25 : FVec Ideal S4096x10 .f32) (v28 : FVec Ideal S4096x1 .f32) (v31 : FVec Ideal S1x10 .f32) :
    k6_pay1 (F := Ideal) v25 v28 v31
      = divf (qzero v25 v28 v31) (broadcastTo S4096x10 (shapeCast S4096x1
          (multiReduction (F := Ideal) .add [1] S4096 (qzero v25 v28 v31) 0x00000000#32 reduces_S4096x10_S4096 (.inl rfl) rfl)
          shapeCasts_S4096_S4096x1) broadcasts_S4096x1_S4096x10) := rfl

/-- The soft assignment at (i, k): the kernel at (i, k) over the sum of row i's ten kernels. -/
theorem pay1_apply (v25 : FVec Ideal S4096x10 .f32) (v28 : FVec Ideal S4096x1 .f32) (v31 : FVec Ideal S1x10 .f32)
    (i : Fin 4096) (k : Fin 10) :
    k6_pay1 (F := Ideal) v25 v28 v31 (ix2 i k)
      = Ideal.div (qzero v25 v28 v31 (ix2 i k)) (∑ k' : Fin 10, qzero v25 v28 v31 (ix2 i k')) := by
  rw [pay1_struct]
  exact congrArg (Ideal.div (qzero v25 v28 v31 (ix2 i k)))
    ((broadcastTo_a1_ab_apply _ _ i k).trans ((shapeCast_a_a1_apply _ _ i (0 : Fin 1)).trans (rowSum_apply _ _ _ _ i)))

/-- The sharpened assignment before normalisation: the square of an assignment over its column's sum, kept as a row
    and repeated. -/
def pzero (Q : FVec Ideal S4096x10 .f32) : FVec Ideal S4096x10 .f32 :=
  divf (mulf Q Q) (broadcastTo S4096x10 (shapeCast S1x10
    (multiReduction (F := Ideal) .add [0] S10 Q 0x00000000#32 reduces_S4096x10_S10 (.inl rfl) rfl) shapeCasts_S10_S1x10)
    broadcasts_S1x10_S4096x10)

/-- At (i, k) it is the square of the entry over the sum of column k. -/
theorem pzero_apply (Q : FVec Ideal S4096x10 .f32) (i : Fin 4096) (k : Fin 10) :
    pzero Q (ix2 i k) = Ideal.div (Q (ix2 i k) * Q (ix2 i k)) (∑ i' : Fin 4096, Q (ix2 i' k)) :=
  congrArg (Ideal.div (Q (ix2 i k) * Q (ix2 i k)))
    ((broadcastTo_1b_ab_apply _ _ i k).trans ((shapeCast_a_1a_apply _ _ (0 : Fin 1) k).trans (colSum_apply _ _ _ _ k)))

/-- The target's term: the sharpened assignment over its row sum, kept as a column and repeated. -/
theorem pay2_struct (v25 : FVec Ideal S4096x10 .f32) (v28 : FVec Ideal S4096x1 .f32) (v31 : FVec Ideal S1x10 .f32) :
    k6_pay2 (F := Ideal) v25 v28 v31
      = divf (pzero (k6_pay1 (F := Ideal) v25 v28 v31)) (broadcastTo S4096x10 (shapeCast S4096x1
          (multiReduction (F := Ideal) .add [1] S4096 (pzero (k6_pay1 (F := Ideal) v25 v28 v31)) 0x00000000#32
            reduces_S4096x10_S4096 (.inl rfl) rfl)
          shapeCasts_S4096_S4096x1) broadcasts_S4096x1_S4096x10) := rfl

/-- The target at (i, k): the sharpened assignment at (i, k) over the sum of row i's ten. -/
theorem pay2_apply (v25 : FVec Ideal S4096x10 .f32) (v28 : FVec Ideal S4096x1 .f32) (v31 : FVec Ideal S1x10 .f32)
    (i : Fin 4096) (k : Fin 10) :
    k6_pay2 (F := Ideal) v25 v28 v31 (ix2 i k)
      = Ideal.div (pzero (k6_pay1 (F := Ideal) v25 v28 v31) (ix2 i k))
          (∑ k' : Fin 10, pzero (k6_pay1 (F := Ideal) v25 v28 v31) (ix2 i k')) := by
  rw [pay2_struct]
  exact congrArg (Ideal.div (pzero (k6_pay1 (F := Ideal) v25 v28 v31) (ix2 i k)))
    ((broadcastTo_a1_ab_apply _ _ i k).trans ((shapeCast_a_a1_apply _ _ i (0 : Fin 1)).trans (rowSum_apply _ _ _ _ i)))

/-! ## The four results -/

/-- The offsets of a whole-buffer access are all zero. -/
theorem hz : (![0, 0] : Fin 2 → Nat) = fun _ => 0 := funext fun a => by fin_cases a <;> rfl

/-- The fused embedding, as the specification writes it from the loaded arrays. -/
abbrev H (x0 x1 : Vec Ideal S4096x64 .f32) (x4 : Vec Ideal S128x32 .f32) (x5 : Vec Ideal S1x32 .f32) :
    Fin 4096 → Fin 32 → EReal :=
  fun i o => Ideal.tanh (Spec.kFuse (cur x0) (cur x1) (cur x4) (row x5) i o)

section Results

variable (x0 x1 : Vec Ideal S4096x64 .f32) (x2 : Vec Ideal S64x256 .f32) (x3 : Vec Ideal S256x128 .f32)
  (x4 : Vec Ideal S128x32 .f32) (x5 : Vec Ideal S1x32 .f32) (x6 : Vec Ideal S10x32 .f32)

/-- The body's squared distance is the specification's, the square expanded. -/
theorem dist_eq (i : Fin 4096) (k : Fin 10) :
    (k6_pay7 (F := Ideal) x0 x1 x4 x5 (ix2 i (0 : Fin 1)) + k6_pay8 (F := Ideal) x6 (ix2 (0 : Fin 1) k))
        - 2 * k6_pay6 (F := Ideal) x0 x1 x4 x5 x6 (ix2 i k)
      = Spec.kDist2 (cur x6) (H x0 x1 x4 x5) i k := by
  rw [pay7_apply, pay8_apply, pay6_apply]
  simp only [pay5_apply]
  rfl

/-- The body's kernel before normalisation is the specification's. -/
theorem qzero_eq (i : Fin 4096) (k : Fin 10) :
    qzero (k6_pay6 (F := Ideal) x0 x1 x4 x5 x6) (k6_pay7 (F := Ideal) x0 x1 x4 x5) (k6_pay8 (F := Ideal) x6) (ix2 i k)
      = Spec.q0 (Spec.kDist2 (cur x6) (H x0 x1 x4 x5)) i k := by
  rw [qzero_apply, dist_eq]
  rfl

/-- The body's soft assignment is the specification's. -/
theorem pay1_eq (i : Fin 4096) (k : Fin 10) :
    k6_pay1 (F := Ideal) (k6_pay6 (F := Ideal) x0 x1 x4 x5 x6) (k6_pay7 (F := Ideal) x0 x1 x4 x5) (k6_pay8 (F := Ideal) x6)
        (ix2 i k)
      = Spec.q (Spec.kDist2 (cur x6) (H x0 x1 x4 x5)) i k := by
  rw [pay1_apply]
  simp only [qzero_eq]
  rfl

/-- The body's sharpened assignment before normalisation is the specification's. -/
theorem pzero_eq (i : Fin 4096) (k : Fin 10) :
    pzero (k6_pay1 (F := Ideal) (k6_pay6 (F := Ideal) x0 x1 x4 x5 x6) (k6_pay7 (F := Ideal) x0 x1 x4 x5)
        (k6_pay8 (F := Ideal) x6)) (ix2 i k)
      = Spec.p0 (Spec.kDist2 (cur x6) (H x0 x1 x4 x5)) i k := by
  rw [pzero_apply]
  simp only [pay1_eq]
  rfl

/-- The body's target is the specification's. -/
theorem pay2_eq (i : Fin 4096) (k : Fin 10) :
    k6_pay2 (F := Ideal) (k6_pay6 (F := Ideal) x0 x1 x4 x5 x6) (k6_pay7 (F := Ideal) x0 x1 x4 x5) (k6_pay8 (F := Ideal) x6)
        (ix2 i k)
      = Spec.p (Spec.kDist2 (cur x6) (H x0 x1 x4 x5)) i k := by
  rw [pay2_apply]
  simp only [pzero_eq]
  rfl

/-- The first output's buffer after the body holds the fused embedding. -/
theorem out6_7_apply (i : Fin 4096) (o : Fin 32) :
    out6_7 (F := Ideal) x0 x1 x2 x3 x4 x5 x6 (ix2 i o) = H x0 x1 x4 x5 i o := by
  unfold out6_7
  rw [View.canon_unit_zero hz]
  simp only [View.ld_unit_zero (S := S4096x64) hz, View.ld_unit_zero (S := S128x32) hz, View.ld_unit_zero (S := S1x32) hz]
  exact pay5_apply x0 x1 x4 x5 i o

/-- The second output's buffer after the body holds the soft assignment. -/
theorem out6_8_apply (i : Fin 4096) (k : Fin 10) :
    out6_8 (F := Ideal) x0 x1 x2 x3 x4 x5 x6 (ix2 i k) = Spec.q (Spec.kDist2 (cur x6) (H x0 x1 x4 x5)) i k := by
  unfold out6_8
  rw [View.canon_unit_zero hz]
  simp only [View.ld_unit_zero (S := S4096x64) hz, View.ld_unit_zero (S := S128x32) hz, View.ld_unit_zero (S := S1x32) hz,
    View.ld_unit_zero (S := S10x32) hz]
  exact pay1_eq x0 x1 x4 x5 x6 i k

/-- The third output's buffer after the body holds the target distribution. -/
theorem out6_9_apply (i : Fin 4096) (k : Fin 10) :
    out6_9 (F := Ideal) x0 x1 x2 x3 x4 x5 x6 (ix2 i k) = Spec.p (Spec.kDist2 (cur x6) (H x0 x1 x4 x5)) i k := by
  unfold out6_9
  rw [View.canon_unit_zero hz]
  simp only [View.ld_unit_zero (S := S4096x64) hz, View.ld_unit_zero (S := S128x32) hz, View.ld_unit_zero (S := S1x32) hz,
    View.ld_unit_zero (S := S10x32) hz]
  exact pay2_eq x0 x1 x4 x5 x6 i k

/-- The fourth output's buffer after the body holds the reconstructed features. -/
theorem out6_10_apply (i : Fin 4096) (e : Fin 128) :
    out6_10 (F := Ideal) x0 x1 x2 x3 x4 x5 x6 (ix2 i e) = Spec.eXhat (cur x0) (cur x2) (cur x3) i e := by
  unfold out6_10
  rw [View.canon_unit_zero hz]
  simp only [View.ld_unit_zero (S := S4096x64) hz, View.ld_unit_zero (S := S64x256) hz, View.ld_unit_zero (S := S256x128) hz]
  exact pay4_apply x0 x2 x3 i e

end Results

end Cert.Closing

end
-- ==== Proof.Region1.lean ====
/-
  The first graph-convolution layer of one branch, as the kernel arranges it, read as one array.

  The region runs over eight blocks of 512 rows. At block t it holds rows 512 t .. 512 t + 511 of the adjacency (in
  the narrow float format, which at the exact instance is the same number), the whole array of scaled features
  Xp = dinv * X, the whole column of degree factors dinv, and the two weights. For each of its rows j it forms
  ((A Xp)(j, .) + Xp(j, .)) * dinv j, which is row j of the normalised adjacency applied to X; passes it through W1,
  clamps at zero, passes the result through W2, and scales by dinv j again, ready for the second normalised product.
  The rows of Xp and of dinv it adds and scales by are read from the whole arrays at the block's row offset 512 t.

  So every entry (j, o) of the output is one fixed formula of row j of the adjacency, of Xp, of dinv j, of W1 and of
  column o of W2; each block written back is a block of that one array, and the eight blocks tile the array.
-/
import proofs.«122668_g52140902973514_cont_8to1_c_536_6_alg».proof.Proof.Gen.KernelIdeal.Frame
import proofs.«122668_g52140902973514_cont_8to1_c_536_6_alg».proof.Proof.Closing
import proofs.«122668_g52140902973514_cont_8to1_c_536_6_alg».proof.Proof.LibPlainDot
import proofs.«122668_g52140902973514_cont_8to1_c_536_6_alg».proof.Proof.LibLayoutCol
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.Region1

open Idealize.ShloMosaic Idealize.ShloMosaic.TcCoe Idealize.SL.Sem Cert.KernelIdeal Cert.KernelIdeal.Gen
open Idealize.ShloMosaic.ValueIdx

/-! ## General readings -/

/-- The offsets of a whole-buffer access are all zero. -/
theorem hz : (![0, 0] : Fin 2 → Nat) = fun _ => 0 := funext fun a => by fin_cases a <;> rfl

/-- A rows-by-columns product into a zero accumulator, the operands in any float formats, read at entry (i, e): the
    sum over the shared axis of the left operand's row i times the right operand's column e. -/
theorem matmul_plain_apply' {m n p : ℕ} {φ₁ φ₂ : FTy} (d : DotDims ⟨2, ![m, n]⟩ ⟨2, ![n, p]⟩ ⟨2, ![m, p]⟩)
    (hB : d.lhsBatch = []) (hN : d.lhsNonContracting = [0]) (hC : d.lhsContracting = [1])
    (hB' : d.rhsBatch = []) (hN' : d.rhsNonContracting = [1]) (hC' : d.rhsContracting = [0])
    (hrk : d.contr.rank = 1) (hs : d.contr.size ⟨0, by omega⟩ = n)
    (prec : Option ContractPrecision) (lhs : FVec Ideal ⟨2, ![m, n]⟩ φ₁) (rhs : FVec Ideal ⟨2, ![n, p]⟩ φ₂)
    (i : Fin m) (e : Fin p) :
    FloatOps.matmul d prec lhs rhs (constant ⟨2, ![m, p]⟩ .f32 0x00000000#32) (ix2 i e)
      = ∑ k : Fin n, lhs (ix2 i k) * rhs (ix2 k e) :=
  Cert.LibPlainDot.matmul_zero_apply d prec n hrk hs lhs rhs (ix2 i e) (fun k => ix2 i k) (fun k => ix2 k e)
    (fun q => Cert.LibPlainDot.ext2 _ _ (Cert.Closing.lhsIdx_free d 0 hB hN (ix2 i e) q Nat.zero_lt_two)
      (d.lhsIdx_val_of_single hC (ix2 i e) q))
    (fun q => Cert.LibPlainDot.ext2 _ _ (d.rhsIdx_val_of_single hC' (ix2 i e) q)
      (Cert.Closing.rhsIdx_free d 0 1 hB hN hB' hN' (ix2 i e) q Nat.one_lt_two))

/-! ## The first layer at an entry -/

/-- One entry of the first layer's scaled output, from the row of the adjacency, the scaled features, the row's own
    scaled features, the row's degree factor, the first weight and a column of the second: the adjacency row through
    the scaled features plus the row itself, scaled, through the first weight, clamped at zero, through the second
    weight's column, scaled again. -/
def m2Core (arow : Fin 4096 → EReal) (Xp : Fin 4096 → Fin 128 → EReal) (xrow : Fin 128 → EReal) (d : EReal)
    (W1 : Fin 128 → Fin 256 → EReal) (w2col : Fin 256 → EReal) : EReal :=
  (∑ h : Fin 256, max (∑ e : Fin 128, (((∑ l : Fin 4096, arow l * Xp l e) + xrow e) * d) * W1 e h) 0 * w2col h) * d

/-- The body's pure term at (p, o) is that entry of its loaded blocks. -/
theorem pay1_apply (v0 : Vec Ideal S512x4096 .bf16) (v2 : Vec Ideal S4096x128 .f32) (v8 : Vec Ideal S512x128 .f32)
    (v13 : Vec Ideal S512x1 .f32) (v17 : Vec Ideal S128x256 .f32) (v21 : Vec Ideal S256x64 .f32) (p : Fin 512) (o : Fin 64) :
    k1_pay1 (F := Ideal) v0 v2 v8 v13 v17 v21 (ix2 p o)
      = m2Core (fun l => v0 (ix2 p l)) (fun l e => v2 (ix2 l e)) (fun e => v8 (ix2 p e)) (v13 (ix2 p (0 : Fin 1)))
          (fun e h => v17 (ix2 e h)) (fun h => v21 (ix2 h o)) := by
  unfold k1_pay1 m2Core
  refine congrArg₂ (· * ·) ?_ ((broadcastTo_a1_ab_apply _ _ p o).trans (congrFun (shapeCast_self v13 _) (ix2 p (0 : Fin 1))))
  refine (matmul_plain_apply' dot_S512x256_S256x64_S512x64_1_0_0_1_n_n rfl rfl rfl rfl rfl rfl rfl rfl none _ v21 p o).trans ?_
  refine Finset.sum_congr rfl fun h _ => congrArg (· * v21 (ix2 h o)) ?_
  refine congrArg₂ max ?_ Ideal.ofBits_zero_f32
  refine (matmul_plain_apply' dot_S512x128_S128x256_S512x256_1_0_0_1_n_n rfl rfl rfl rfl rfl rfl rfl rfl none _ v17 p h).trans ?_
  refine Finset.sum_congr rfl fun e _ => congrArg (· * v17 (ix2 e h)) ?_
  refine congrArg₂ (· * ·) (congrArg₂ (· + ·) ?_ (congrFun (shapeCast_self v8 _) (ix2 p e)))
    ((broadcastTo_a1_ab_apply _ _ p e).trans (congrFun (shapeCast_self v13 _) (ix2 p (0 : Fin 1))))
  refine (matmul_plain_apply' dot_S512x4096_S4096x128_S512x128_1_0_0_1_n_n rfl rfl rfl rfl rfl rfl rfl rfl none _ _ p e).trans ?_
  exact Finset.sum_congr rfl fun l _ => congrArg₂ (· * ·) (congrFun (shapeCast_self v0 _) (ix2 p l))
    (congrFun (shapeCast_self v2 _) (ix2 l e))

/-! ## What the body leaves in the output's buffer -/

/-- On any whole staging buffers, the body leaves its pure term of the loaded blocks: the adjacency block, the whole
    scaled features, their rows and the degree factors' rows at the point's row offset, and the two weights. -/
theorem out1_eq (c : Dev nD) (i : grid1.Coords)
    (a1 : Memref sig .tc .vmem S512x4096 .bf16) (h1 : a1.IsWhole) (a2 : Memref sig .tc .vmem S4096x128 .f32) (h2 : a2.IsWhole)
    (a3 : Memref sig .tc .vmem S4096x1 .f32) (h3 : a3.IsWhole) (a4 : Memref sig .tc .vmem S128x256 .f32) (h4 : a4.IsWhole)
    (a5 : Memref sig .tc .vmem S256x64 .f32) (h5 : a5.IsWhole) (a6 : Memref sig .tc .vmem S512x64 .f32) (h6 : a6.IsWhole)
    (x0 : Vec Ideal S512x4096 .bf16) (x1 : Vec Ideal S4096x128 .f32) (x2 : Vec Ideal S4096x1 .f32)
    (x3 : Vec Ideal S128x256 .f32) (x4 : Vec Ideal S256x64 .f32) :
    out1_A_5 (F := Ideal) c i a1 h1 a2 h2 a3 h3 a4 h4 a5 h5 a6 h6 x0 x1 x2 x3 x4
      = k1_pay1 (F := Ideal) x0 x1 (View.ld x1 (Rect.unit (s := S4096x128) (k1_off1 i) S512x128.size (k1_off1_inb i)))
          (View.ld x2 (Rect.unit (s := S4096x1) (k1_off2 i) S512x1.size (k1_off2_inb i))) x3 x4 := by
  unfold out1_A_5
  rw [View.read_writes_eq_canon _ _ _ (cover1_A_5 c i a1 h1 a2 h2 a3 h3 a4 h4 a5 h5 a6 h6 x0 x1 x2 x3 x4)]
  unfold kernelRun1_A
  dsimp only
  rw [View.canon_unit_zero hz]
  simp only [View.readAt_eq_ld, h1.read_unread, h2.read_unread, h3.read_unread, h4.read_unread, h5.read_unread,
    View.ld_unit_zero (S := S512x4096) hz, View.ld_unit_zero (S := S4096x128) hz, View.ld_unit_zero (S := S128x256) hz,
    View.ld_unit_zero (S := S256x64) hz]

/-! ## From blocks to the array -/

/-- One entry of the first layer's scaled output, from the whole arrays: row j of the adjacency, the scaled
    features, row j of the degree factors, the two weights, column o. -/
def m2At (Abf : S4096x4096.Idx → EReal) (Xp : S4096x128.Idx → EReal) (D : S4096x1.Idx → EReal)
    (W1 : S128x256.Idx → EReal) (W2 : S256x64.Idx → EReal) (j : Fin 4096) (o : Fin 64) : EReal :=
  m2Core (fun l => Abf (ix2 j l)) (fun l e => Xp (ix2 l e)) (fun e => Xp (ix2 j e)) (D (ix2 j (0 : Fin 1)))
    (fun e h => W1 (ix2 e h)) (fun h => W2 (ix2 h o))

/-- The first layer's scaled output as one array of the five arrays the region reads. -/
def m2Arr (Abf : S4096x4096.Idx → EReal) (Xp : S4096x128.Idx → EReal) (D : S4096x1.Idx → EReal)
    (W1 : S128x256.Idx → EReal) (W2 : S256x64.Idx → EReal) : S4096x64.Idx → EReal :=
  fun y => m2At Abf Xp D W1 W2 ⟨(y 0).val, idx2_lt0 y⟩ ⟨(y 1).val, idx2_lt1 y⟩

/-- The array at (j, o), written out. -/
theorem m2Arr_apply (Abf : S4096x4096.Idx → EReal) (Xp : S4096x128.Idx → EReal) (D : S4096x1.Idx → EReal)
    (W1 : S128x256.Idx → EReal) (W2 : S256x64.Idx → EReal) (j : Fin 4096) (o : Fin 64) :
    m2Arr Abf Xp D W1 W2 (ix2 j o)
      = (∑ h : Fin 256, max (∑ e : Fin 128, (((∑ l : Fin 4096, Abf (ix2 j l) * Xp (ix2 l e)) + Xp (ix2 j e))
          * D (ix2 j (0 : Fin 1))) * W1 (ix2 e h)) 0 * W2 (ix2 h o)) * D (ix2 j (0 : Fin 1)) := rfl

section Arrays

variable (V : (c : Dev nD) → (b : Ref sig .tc) → Buf (Elt Ideal) ((c : Thread nD τ).loc b))

/-- The printed index maps and row offsets over the eight grid points: block t of the adjacency and of the output
    starts at row 512 t; the other four windows hold their whole arrays; the body's two row loads start at row 512 t. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ k1_off1 (grid1.coords t) (0 : Fin 2) = 512 * t.val ∧ k1_off1 (grid1.coords t) (1 : Fin 2) = 0
    ∧ k1_off2 (grid1.coords t) (0 : Fin 2) = 512 * t.val ∧ k1_off2 (grid1.coords t) (1 : Fin 2) = 0 :=
  (by decide +kernel : ∀ t : Fin grid1.N, _)

/-- What point t writes back is block t of the array. -/
theorem flushed_m2 (c : Dev nD) (t : Fin cfg1.N) :
    (dat1 V c).flushed 5 t = ((cfg1.win 5).blk t).view.read (Elt Ideal)
      (m2Arr (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold outsAt1
  rw [out1_eq]
  obtain ⟨e00, e01, e10, e11, e20, e21, e30, e31, e40, e41, e50, e51, f10, f11, f20, f21⟩ := idx_facts t
  funext j
  obtain ⟨p, o, rfl⟩ : ∃ (p : Fin 512) (o : Fin 64), j = ix2 p o := ⟨j 0, j 1, eq_ix2 j⟩
  refine (pay1_apply (iblk1 V c 0 t) (iblk1 V c 1 t)
    (View.ld (iblk1 V c 1 t) (Rect.unit (s := S4096x128) (k1_off1 (grid1.coords t)) S512x128.size (k1_off1_inb (grid1.coords t))))
    (View.ld (iblk1 V c 2 t) (Rect.unit (s := S4096x1) (k1_off2 (grid1.coords t)) S512x1.size (k1_off2_inb (grid1.coords t))))
    (iblk1 V c 3 t) (iblk1 V c 4 t) p o).trans ?_
  show _ = m2Arr _ _ _ _ _ (((cfg1.win 5).blk t).view.emb (ix2 p o))
  unfold m2Arr m2At
  refine congr (congr (congr (congr (congr (congrArg m2Core ?_) ?_) ?_) ?_) ?_) ?_
  · funext l
    show V c (Pipeline.arrRef spec1 0) (((cfg1.win 0).blk t).view.emb (ix2 p l)) = V c (Pipeline.arrRef spec1 0) (ix2 _ l)
    refine congrArg _ (funext fun a => Fin.ext ?_)
    match a with
    | ⟨0, _⟩ => show win1_0.index t (0 : Fin 2) * 512 + 1 * p.val = win1_5.index t (0 : Fin 2) * 512 + 1 * p.val; omega
    | ⟨1, _⟩ => show win1_0.index t (1 : Fin 2) * 4096 + 1 * l.val = l.val; omega
  · funext l e
    show V c (Pipeline.arrRef spec1 1) (((cfg1.win 1).blk t).view.emb (ix2 l e)) = V c (Pipeline.arrRef spec1 1) (ix2 l e)
    refine congrArg _ (funext fun a => Fin.ext ?_)
    match a with
    | ⟨0, _⟩ => show win1_1.index t (0 : Fin 2) * 4096 + 1 * l.val = l.val; omega
    | ⟨1, _⟩ => show win1_1.index t (1 : Fin 2) * 128 + 1 * e.val = e.val; omega
  · funext e
    show V c (Pipeline.arrRef spec1 1) (((cfg1.win 1).blk t).view.emb
        ((Rect.unit (s := S4096x128) (k1_off1 (grid1.coords t)) S512x128.size (k1_off1_inb (grid1.coords t))).idx (ix2 p e)))
      = V c (Pipeline.arrRef spec1 1) (ix2 _ e)
    refine congrArg _ (funext fun a => Fin.ext ?_)
    match a with
    | ⟨0, _⟩ =>
      show win1_1.index t (0 : Fin 2) * 4096 + 1 * (k1_off1 (grid1.coords t) (0 : Fin 2) + 1 * p.val)
        = win1_5.index t (0 : Fin 2) * 512 + 1 * p.val
      omega
    | ⟨1, _⟩ =>
      show win1_1.index t (1 : Fin 2) * 128 + 1 * (k1_off1 (grid1.coords t) (1 : Fin 2) + 1 * e.val) = e.val
      omega
  · show V c (Pipeline.arrRef spec1 2) (((cfg1.win 2).blk t).view.emb
        ((Rect.unit (s := S4096x1) (k1_off2 (grid1.coords t)) S512x1.size (k1_off2_inb (grid1.coords t))).idx (ix2 p (0 : Fin 1))))
      = V c (Pipeline.arrRef spec1 2) (ix2 _ (0 : Fin 1))
    refine congrArg _ (funext fun a => Fin.ext ?_)
    match a with
    | ⟨0, _⟩ =>
      show win1_2.index t (0 : Fin 2) * 4096 + 1 * (k1_off2 (grid1.coords t) (0 : Fin 2) + 1 * p.val)
        = win1_5.index t (0 : Fin 2) * 512 + 1 * p.val
      omega
    | ⟨1, _⟩ =>
      show win1_2.index t (1 : Fin 2) * 1 + 1 * (k1_off2 (grid1.coords t) (1 : Fin 2) + 1 * 0) = 0
      omega
  · funext e h
    show V c (Pipeline.arrRef spec1 3) (((cfg1.win 3).blk t).view.emb (ix2 e h)) = V c (Pipeline.arrRef spec1 3) (ix2 e h)
    refine congrArg _ (funext fun a => Fin.ext ?_)
    match a with
    | ⟨0, _⟩ => show win1_3.index t (0 : Fin 2) * 128 + 1 * e.val = e.val; omega
    | ⟨1, _⟩ => show win1_3.index t (1 : Fin 2) * 256 + 1 * h.val = h.val; omega
  · funext h
    show V c (Pipeline.arrRef spec1 4) (((cfg1.win 4).blk t).view.emb (ix2 h o)) = V c (Pipeline.arrRef spec1 4) (ix2 h _)
    refine congrArg _ (funext fun a => Fin.ext ?_)
    match a with
    | ⟨0, _⟩ => show win1_4.index t (0 : Fin 2) * 256 + 1 * h.val = h.val; omega
    | ⟨1, _⟩ => show win1_4.index t (1 : Fin 2) * 64 + 1 * o.val = win1_5.index t (1 : Fin 2) * 64 + 1 * o.val; omega

/-- An index of the array is in point t's block iff each coordinate is in the block's range on its axis. -/
theorem mem_blk (t : Fin cfg1.N) (i : S4096x64.Idx) :
    i ∈ ((cfg1.win 5).blk t).view.set
      ↔ ∀ a : Fin 2, win1_5.index t a * S512x64.size a ≤ (i a).val ∧ (i a).val < win1_5.index t a * S512x64.size a + S512x64.size a := by
  show i ∈ ((View.whole main_v1).slice (win1_5.rect t)).set ↔ _
  rw [View.set_slice_whole, Rect.mem_set_unit]
  exact Iff.rfl

/-- Row r of the array is in the block of point r / 512, and every point writes its block back. -/
theorem cover (i : S4096x64.Idx) :
    ∃ t : Fin cfg1.N, (cfg1.win 5).flush t = true ∧ i ∈ ((cfg1.win 5).blk t).view.set := by
  have hi0 : (i 0).val < 4096 := (i 0).isLt
  have hi1 : (i 1).val < 64 := (i 1).isLt
  obtain ⟨t, htv⟩ : ∃ t : Fin cfg1.N, t.val = (i 0).val / 512 :=
    ⟨⟨(i 0).val / 512, by rw [show cfg1.N = 8 from N_1]; omega⟩, rfl⟩
  obtain ⟨e00, e01, e10, e11, e20, e21, e30, e31, e40, e41, e50, e51, f10, f11, f20, f21⟩ := idx_facts t
  refine ⟨t, flush1_5 t, ?_⟩
  rw [mem_blk]
  intro a
  match a with
  | ⟨0, _⟩ =>
    show win1_5.index t (0 : Fin 2) * 512 ≤ (i 0).val ∧ (i 0).val < win1_5.index t (0 : Fin 2) * 512 + 512
    omega
  | ⟨1, _⟩ =>
    show win1_5.index t (1 : Fin 2) * 64 ≤ (i 1).val ∧ (i 1).val < win1_5.index t (1 : Fin 2) * 64 + 64
    omega

/-- The region's output array, once every point has run: the first layer's scaled output of the arrays the region
    finds. -/
theorem arr1 (c : Dev nD) :
    (dat1 V c).arrAt 5 cfg1.N
      = m2Arr (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed_m2 V c t) cover

end Arrays

end Cert.Region1
end
-- ==== Proof.Region2.lean ====
/-
  The second graph-convolution pass of a branch (the layer that multiplies the adjacency copy by the array M, adds M's
  own rows — the identity's share — and scales each row by its degree factor), read as one array.

  The pass runs over eight blocks of 512 rows.  At each block its body stores one payload; read at an entry (p, o) of the
  block the payload is (sum over j of A(p, j) * M(j, o) + M(512 t + p, o)) * dinv(512 t + p), where the last two are
  loaded through rectangles offset by the grid position.  Every block is written back, block t covers rows 512 t to
  512 t + 511, so the result array ends holding, at (i, o), (sum over j of A(i, j) * M(j, o) + M(i, o)) * dinv(i).
-/
import proofs.«122668_g52140902973514_cont_8to1_c_536_6_alg».proof.Proof.Gen.KernelIdeal.Frame
import proofs.«122668_g52140902973514_cont_8to1_c_536_6_alg».proof.Proof.LibLayoutCol
import proofs.«122668_g52140902973514_cont_8to1_c_536_6_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Region2

open Idealize.ShloMosaic Idealize.ShloMosaic.TcCoe Idealize.SL.Sem Cert.KernelIdeal Cert.KernelIdeal.Gen
open Idealize.ShloMosaic.ValueIdx
open Idealize.ShloMosaic.Pipeline (Dat)

theorem hz : (![0, 0] : Fin 2 → Nat) = fun _ => 0 := funext fun a => by fin_cases a <;> rfl

/-! ## The payload at an index -/

/-- The product's dimension numbers: rows of the left operand against columns of the right, contracted over 4096. -/
abbrev D2 : DotDims S512x4096 S4096x64 S512x64 := dot_S512x4096_S4096x64_S512x64_1_0_0_1_n_n

theorem mm_lhs0 (i : S512x64.Idx) (q : D2.contr.Idx) : (D2.lhsIdx i q 0).val = (i 0).val := by
  unfold DotDims.lhsIdx
  rw [dif_neg (show ¬(0 : Fin S512x4096.rank) ∈ D2.lhsBatch by decide), dif_pos (show (0 : Fin S512x4096.rank) ∈ D2.lhsNonContracting by decide)]
  rfl
theorem mm_rhs1 (i : S512x64.Idx) (q : D2.contr.Idx) : (D2.rhsIdx i q 1).val = (i 1).val := by
  unfold DotDims.rhsIdx
  rw [dif_neg (show ¬(1 : Fin S4096x64.rank) ∈ D2.rhsBatch by decide), dif_pos (show (1 : Fin S4096x64.rank) ∈ D2.rhsNonContracting by decide)]
  rfl

/-- The block product into a zero accumulator, at (p,o): the sum over the contracted coordinate. -/
theorem mm_apply (l : FVec Ideal S512x4096 .bf16) (r : FVec Ideal S4096x64 .bf16) (p : Fin 512) (o : Fin 64) :
    FloatOps.matmul D2 none l r (constant (F := Ideal) S512x64 .f32 0x00000000#32) (ix2 p o) = ∑ k : Fin 4096, l (ix2 p k) * r (ix2 k o) := by
  refine Cert.LibPlainDot.matmul_zero_apply D2 none 4096 rfl rfl l r (ix2 p o) (fun k => ix2 p k) (fun k => ix2 k o) (fun q => ?_) (fun q => ?_)
  · refine Cert.LibPlainDot.ext2 _ _ (mm_lhs0 _ _) ?_
    exact (D2.lhsIdx_val_of_single rfl _ _)
  · refine Cert.LibPlainDot.ext2 _ _ ?_ (mm_rhs1 _ _)
    exact (D2.rhsIdx_val_of_single rfl _ _)

/-- The payload at (p,o): the block's product with the narrowed copy of M (a change of float format is the identity on
    extended reals), plus the block's own rows of M, times the rows' degree factor. -/
theorem pay_apply (x0 : Vec Ideal S512x4096 .bf16) (x2 : Vec Ideal S4096x64 .f32) (x8 : Vec Ideal S512x64 .f32)
    (x13 : Vec Ideal S512x1 .f32) (p : Fin 512) (o : Fin 64) :
    k2_pay1 (F := Ideal) x0 x2 x8 x13 (ix2 p o)
      = ((∑ k : Fin 4096, x0 (ix2 p k) * x2 (ix2 k o)) + x8 (ix2 p o)) * x13 (ix2 p (0 : Fin 1)) := by
  unfold k2_pay1
  simp only [shapeCast_self]
  show (FloatOps.matmul D2 none x0 (truncf (F := Ideal) .bf16 x2 bitsLt_bf16_f32) (constant (F := Ideal) S512x64 .f32 0x00000000#32) (ix2 p o) + x8 (ix2 p o))
      * broadcastTo S512x64 x13 broadcasts_S512x1_S512x64 (ix2 p o) = _
  exact congrArg₂ (· * ·) (congrArg (· + x8 (ix2 p o)) (mm_apply x0 _ p o)) (broadcastTo_a1_ab_apply x13 _ p o)

/-! ## What the body leaves in the output's staging buffer -/

/-- The body's one covering store leaves its payload: of the adjacency block and the whole array M as loaded, and of
    the block's own rows of M and of the degree column, loaded through rectangles offset by the grid position. -/
theorem piece (c : Dev nD) (i : grid2.Coords) (a1 : Memref sig .tc .vmem S512x4096 .bf16) (h1 : a1.IsWhole)
    (a2 : Memref sig .tc .vmem S4096x64 .f32) (h2 : a2.IsWhole) (a3 : Memref sig .tc .vmem S4096x1 .f32) (h3 : a3.IsWhole)
    (a4 : Memref sig .tc .vmem S512x64 .f32) (h4 : a4.IsWhole)
    (x0 : Vec Ideal S512x4096 .bf16) (x1 : Vec Ideal S4096x64 .f32) (x2 : Vec Ideal S4096x1 .f32) :
    out2_A_3 (F := Ideal) c i a1 h1 a2 h2 a3 h3 a4 h4 x0 x1 x2
      = k2_pay1 (F := Ideal) x0 x1
          (View.ld x1 (Rect.unit (s := S4096x64) (k2_off1 i) S512x64.size (k2_off1_inb i)))
          (View.ld x2 (Rect.unit (s := S4096x1) (k2_off2 i) S512x1.size (k2_off2_inb i))) := by
  unfold out2_A_3
  rw [View.read_writes_eq_canon _ _ _ (cover2_A_3 c i a1 h1 a2 h2 a3 h3 a4 h4 x0 x1 x2)]
  unfold kernelRun2_A
  dsimp only
  rw [View.canon_unit_zero hz]
  simp only [View.readAt_eq_ld, h1.read_unread, h2.read_unread, h3.read_unread, View.ld_unit_zero (S := S512x4096) hz,
    View.ld_unit_zero (S := S4096x64) hz, shapeCast_self]

/-! ## From blocks to the array -/

/-- The layer's result as one function of the three arrays it reads, entry by entry: the adjacency copy's row against
    the column of M, plus M's own entry, times the row's degree factor. -/
def hArr (Abf : S4096x4096.Idx → EReal) (M : S4096x64.Idx → EReal) (D : S4096x1.Idx → EReal) (y : S4096x64.Idx) : EReal :=
  ((∑ j : Fin 4096, Abf (ix2 (⟨(y 0).val, idx2_lt0 y⟩ : Fin 4096) j) * M (ix2 j (⟨(y 1).val, idx2_lt1 y⟩ : Fin 64)))
      + M (ix2 (⟨(y 0).val, idx2_lt0 y⟩ : Fin 4096) (⟨(y 1).val, idx2_lt1 y⟩ : Fin 64)))
    * D (ix2 (⟨(y 0).val, idx2_lt0 y⟩ : Fin 4096) (0 : Fin 1))

section Arrays

variable (V : (c : Dev nD) → (b : Ref sig .tc) → Buf (Elt Ideal) ((c : Thread nD τ).loc b))

/-- The printed index maps and row offsets over the eight grid points: the adjacency window and the output window sit at
    block (t, 0), the two whole-array windows at block (0, 0), and the offset loads start at row 512 t, column 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ k2_off1 (grid2.coords t) (0 : Fin 2) = t.val * 512 ∧ k2_off1 (grid2.coords t) (1 : Fin 2) = 0
    ∧ k2_off2 (grid2.coords t) (0 : Fin 2) = t.val * 512 ∧ k2_off2 (grid2.coords t) (1 : Fin 2) = 0 :=
  (by decide +kernel : ∀ t : Fin grid2.N, _)

/-- What point t writes back is block t of the layer's result on the arrays as the region finds them. -/
theorem flushed_eq (c : Dev nD) (t : Fin cfg2.N) :
    (dat2 V c).flushed 3 t = ((cfg2.win 3).blk t).view.read (Elt Ideal)
      (hArr (V c (Pipeline.arrRef spec2 0)) (V c (Pipeline.arrRef spec2 1)) (V c (Pipeline.arrRef spec2 2))) := by
  show (cfg2.win 3).cut (grid2.coords t) ((dat2 V c).after 3 t) = _
  rw [after2_3]
  unfold outsAt2
  rw [piece]
  obtain ⟨e00, e01, e10, e11, e20, e21, e30, e31, f10, f11, f20, f21⟩ := idx_facts t
  funext j
  obtain ⟨p, o, rfl⟩ : ∃ (p : Fin 512) (o : Fin 64), j = ix2 p o := ⟨j 0, j 1, eq_ix2 j⟩
  have hp : p.val < 512 := p.isLt
  have ho : o.val < 64 := o.isLt
  refine (pay_apply (iblk2 V c 0 t) (iblk2 V c 1 t)
    (View.ld (iblk2 V c 1 t) (Rect.unit (s := S4096x64) (k2_off1 (grid2.coords t)) S512x64.size (k2_off1_inb (grid2.coords t))))
    (View.ld (iblk2 V c 2 t) (Rect.unit (s := S4096x1) (k2_off2 (grid2.coords t)) S512x1.size (k2_off2_inb (grid2.coords t)))) p o).trans ?_
  show _ = hArr (V c (Pipeline.arrRef spec2 0)) (V c (Pipeline.arrRef spec2 1)) (V c (Pipeline.arrRef spec2 2))
    (((cfg2.win 3).blk t).view.emb (ix2 p o))
  unfold hArr
  refine congrArg₂ (· * ·) (congrArg₂ (· + ·) (Finset.sum_congr rfl fun k _ => congrArg₂ (· * ·) ?_ ?_) ?_) ?_
  · show V c (Pipeline.arrRef spec2 0) (((cfg2.win 0).blk t).view.emb (ix2 p k)) = V c (Pipeline.arrRef spec2 0) (ix2 _ k)
    refine congrArg _ (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 4096 + 1 * k.val = k.val; omega
  · show V c (Pipeline.arrRef spec2 1) (((cfg2.win 1).blk t).view.emb (ix2 k o)) = V c (Pipeline.arrRef spec2 1) (ix2 k _)
    refine congrArg _ (funext fun a => Fin.ext ?_)
    match a with
    | ⟨0, _⟩ => show win2_1.index t (0 : Fin 2) * 4096 + 1 * k.val = k.val; omega
    | ⟨1, _⟩ => show win2_1.index t (1 : Fin 2) * 64 + 1 * o.val = win2_3.index t (1 : Fin 2) * 64 + 1 * o.val; omega
  · show V c (Pipeline.arrRef spec2 1) (((cfg2.win 1).blk t).view.emb
        ((Rect.unit (s := S4096x64) (k2_off1 (grid2.coords t)) S512x64.size (k2_off1_inb (grid2.coords t))).idx (ix2 p o)))
      = V c (Pipeline.arrRef spec2 1) (ix2 _ _)
    refine congrArg _ (funext fun a => Fin.ext ?_)
    match a with
    | ⟨0, _⟩ => show win2_1.index t (0 : Fin 2) * 4096 + 1 * (k2_off1 (grid2.coords t) (0 : Fin 2) + 1 * p.val) = win2_3.index t (0 : Fin 2) * 512 + 1 * p.val; omega
    | ⟨1, _⟩ => show win2_1.index t (1 : Fin 2) * 64 + 1 * (k2_off1 (grid2.coords t) (1 : Fin 2) + 1 * o.val) = win2_3.index t (1 : Fin 2) * 64 + 1 * o.val; omega
  · show V c (Pipeline.arrRef spec2 2) (((cfg2.win 2).blk t).view.emb
        ((Rect.unit (s := S4096x1) (k2_off2 (grid2.coords t)) S512x1.size (k2_off2_inb (grid2.coords t))).idx (ix2 p (0 : Fin 1))))
      = V c (Pipeline.arrRef spec2 2) (ix2 _ (0 : Fin 1))
    refine congrArg _ (funext fun a => Fin.ext ?_)
    match a with
    | ⟨0, _⟩ => show win2_2.index t (0 : Fin 2) * 4096 + 1 * (k2_off2 (grid2.coords t) (0 : Fin 2) + 1 * p.val) = win2_3.index t (0 : Fin 2) * 512 + 1 * p.val; omega
    | ⟨1, _⟩ => show win2_2.index t (1 : Fin 2) * 1 + 1 * (k2_off2 (grid2.coords t) (1 : Fin 2) + 1 * 0) = 0; omega

/-- An index of the result array is in point t's block iff each coordinate is in the block's range on its axis. -/
theorem mem_blk (t : Fin cfg2.N) (i : S4096x64.Idx) :
    i ∈ ((cfg2.win 3).blk t).view.set ↔ ∀ a : Fin 2, win2_3.index t a * S512x64.size a ≤ (i a).val ∧ (i a).val < win2_3.index t a * S512x64.size a + S512x64.size a := by
  show i ∈ ((View.whole main_v2).slice (win2_3.rect t)).set ↔ _
  rw [View.set_slice_whole, Rect.mem_set_unit]
  exact Iff.rfl

/-- Row r of the result array lies in the block of the point r / 512. -/
theorem cover (i : S4096x64.Idx) : ∃ t : Fin cfg2.N, (cfg2.win 3).flush t = true ∧ i ∈ ((cfg2.win 3).blk t).view.set := by
  have hi0 : (i 0).val < 4096 := idx2_lt0 i
  have hi1 : (i 1).val < 64 := idx2_lt1 i
  have hN : grid2.N = 8 := N_2
  let t : Fin cfg2.N := ⟨(i 0).val / 512, by show (i 0).val / 512 < grid2.N; omega⟩
  obtain ⟨e00, e01, e10, e11, e20, e21, e30, e31, f10, f11, f20, f21⟩ := idx_facts t
  have et : t.val = (i 0).val / 512 := rfl
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 64 ≤ (i 1).val ∧ (i 1).val < win2_3.index t (1 : Fin 2) * 64 + 64; omega

/-- The result array after the region's run: the layer's result on the three arrays as the region finds them. -/
theorem arr2 (c : Dev nD) :
    (dat2 V c).arrAt 3 cfg2.N
      = hArr (V c (Pipeline.arrRef spec2 0)) (V c (Pipeline.arrRef spec2 1)) (V c (Pipeline.arrRef spec2 2)) :=
  (dat2 V c).arrAt_eq_of_cover 3
    (hArr (V c (Pipeline.arrRef spec2 0)) (V c (Pipeline.arrRef spec2 1)) (V c (Pipeline.arrRef spec2 2)))
    (fun t _ => flushed_eq V c t) (cover)

end Arrays

end Cert.Region2
end
-- ==== Proof.Region3.lean ====
/-
  The first region of the second graph branch (the global adjacency), read as three whole arrays: the same computation
  as the first branch's first region — degree factors, scaled features, a narrower-format copy — on the other adjacency,
  with the same tiling into eight blocks of 512 rows.
-/
import proofs.«122668_g52140902973514_cont_8to1_c_536_6_alg».proof.Proof.Gen.KernelIdeal.Frame
import proofs.«122668_g52140902973514_cont_8to1_c_536_6_alg».proof.Proof.Spec
import proofs.«122668_g52140902973514_cont_8to1_c_536_6_alg».proof.Proof.LibLayoutCol
import proofs.«122668_g52140902973514_cont_8to1_c_536_6_alg».proof.Proof.Region0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Region3

open Idealize.ShloMosaic Idealize.ShloMosaic.TcCoe Idealize.SL.Sem Cert.KernelIdeal Cert.KernelIdeal.Gen
open Idealize.ShloMosaic.ValueIdx
open Cert.Region0 (cur hz one_word rowsum_apply dinvArr xpArr abfArr)

/-- The degree column of a block of rows: entry (p, u) is rsqrt (max (row sum + 1) eps). -/
theorem pay1_apply (x0 : Vec Ideal S512x4096 .f32) (p : Fin 512) (u : Fin 1) :
    k3_pay1 (F := Ideal) x0 (ix2 p u) = Ideal.rsqrt (max ((∑ j : Fin 4096, x0 (ix2 p j)) + 1) Spec.eps) := by
  unfold k3_pay1
  show Ideal.rsqrt (max (shapeCast S512x1 (multiReduction (F := Ideal) .add [1] S512 x0 0x00000000#32 reduces_S512x4096_S512 _ _) shapeCasts_S512_S512x1 (ix2 p u) + Ideal.ofBits .f32 0x3F800000#32) (Ideal.ofBits .f32 0x2B8CBCCC#32)) = _
  rw [shapeCast_a_a1_apply]
  exact congrArg₂ (fun s o => Ideal.rsqrt (max (s + o) (Ideal.ofBits .f32 0x2B8CBCCC#32))) (rowsum_apply x0 _ _ p) one_word

/-- The scaled features of a block of rows: entry (p, e) is x (p, e) times the row's degree factor. -/
theorem pay2_apply (x0 : Vec Ideal S512x4096 .f32) (x1 : Vec Ideal S512x128 .f32) (p : Fin 512) (e : Fin 128) :
    k3_pay2 (F := Ideal) x0 x1 (ix2 p e)
      = x1 (ix2 p e) * Ideal.rsqrt (max ((∑ j : Fin 4096, x0 (ix2 p j)) + 1) Spec.eps) := by
  unfold k3_pay2
  show x1 (ix2 p e) * broadcastTo S512x128 (k3_pay1 (F := Ideal) x0) broadcasts_S512x1_S512x128 (ix2 p e) = _
  rw [broadcastTo_a1_ab_apply, pay1_apply]

/-- The narrowed copy of a block: a change of float format is the identity on extended reals. -/
theorem pay3_apply (x0 : Vec Ideal S512x4096 .f32) (y : S512x4096.Idx) : k3_pay3 (F := Ideal) x0 y = x0 y := rfl

/-! ## From blocks to arrays -/

section Arrays

variable (V : (c : Dev nD) → (b : Ref sig .tc) → Buf (Elt Ideal) ((c : Thread nD τ).loc b))

/-- The printed index maps over the eight grid points: block t of every window starts at row 512 t, column 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem flushed_dinv (c : Dev nD) (t : Fin cfg3.N) :
    (dat3 V c).flushed 2 t = ((cfg3.win 2).blk t).view.read (Elt Ideal) (dinvArr (V c (Pipeline.arrRef spec3 0))) := by
  show (cfg3.win 2).cut (grid3.coords t) ((dat3 V c).after 2 t) = _
  rw [after3_2]
  unfold out3_2
  rw [View.canon_unit_zero hz]
  simp only [View.ld_unit_zero (S := S512x4096) hz]
  obtain ⟨e00, e01, e10, e11, e20, e21, e30, e31, e40, e41⟩ := idx_facts t
  funext j
  obtain ⟨p, u, rfl⟩ : ∃ (p : Fin 512) (u : Fin 1), j = ix2 p u := ⟨j 0, j 1, eq_ix2 j⟩
  refine (pay1_apply _ p u).trans ?_
  show _ = dinvArr (V c (Pipeline.arrRef spec3 0)) (((cfg3.win 2).blk t).view.emb (ix2 p u))
  unfold dinvArr Spec.kDinv
  refine congrArg (fun s => Ideal.rsqrt (max (s + 1) Spec.eps)) (Finset.sum_congr rfl fun jj _ => ?_)
  show V c (Pipeline.arrRef spec3 0) (((cfg3.win 0).blk t).view.emb (ix2 p jj)) = V c (Pipeline.arrRef spec3 0) (ix2 _ jj)
  refine congrArg _ (funext fun a => Fin.ext ?_)
  match a with
  | ⟨0, _⟩ => show win3_0.index t (0 : Fin 2) * 512 + 1 * p.val = win3_2.index t (0 : Fin 2) * 512 + 1 * p.val; omega
  | ⟨1, _⟩ => show win3_0.index t (1 : Fin 2) * 4096 + 1 * jj.val = jj.val; omega

theorem flushed_xp (c : Dev nD) (t : Fin cfg3.N) :
    (dat3 V c).flushed 3 t = ((cfg3.win 3).blk t).view.read (Elt Ideal)
      (xpArr (V c (Pipeline.arrRef spec3 0)) (V c (Pipeline.arrRef spec3 1))) := by
  show (cfg3.win 3).cut (grid3.coords t) ((dat3 V c).after 3 t) = _
  rw [after3_3]
  unfold out3_3
  rw [View.canon_unit_zero hz]
  simp only [View.ld_unit_zero (S := S512x4096) hz, View.ld_unit_zero (S := S512x128) hz]
  obtain ⟨e00, e01, e10, e11, e20, e21, e30, e31, e40, e41⟩ := idx_facts t
  funext j
  obtain ⟨p, e, rfl⟩ : ∃ (p : Fin 512) (e : Fin 128), j = ix2 p e := ⟨j 0, j 1, eq_ix2 j⟩
  refine (pay2_apply _ _ p e).trans ?_
  show _ = xpArr (V c (Pipeline.arrRef spec3 0)) (V c (Pipeline.arrRef spec3 1)) (((cfg3.win 3).blk t).view.emb (ix2 p e))
  unfold xpArr Spec.kXp Spec.kDinv
  refine congrArg₂ (fun x s => x * Ideal.rsqrt (max (s + 1) Spec.eps)) ?_ (Finset.sum_congr rfl fun jj _ => ?_)
  · show V c (Pipeline.arrRef spec3 1) (((cfg3.win 1).blk t).view.emb (ix2 p e)) = V c (Pipeline.arrRef spec3 1) (ix2 _ _)
    refine congrArg _ (funext fun a => Fin.ext ?_)
    match a with
    | ⟨0, _⟩ => show win3_1.index t (0 : Fin 2) * 512 + 1 * p.val = win3_3.index t (0 : Fin 2) * 512 + 1 * p.val; omega
    | ⟨1, _⟩ => show win3_1.index t (1 : Fin 2) * 128 + 1 * e.val = win3_3.index t (1 : Fin 2) * 128 + 1 * e.val; omega
  · show V c (Pipeline.arrRef spec3 0) (((cfg3.win 0).blk t).view.emb (ix2 p jj)) = V c (Pipeline.arrRef spec3 0) (ix2 _ jj)
    refine congrArg _ (funext fun a => Fin.ext ?_)
    match a with
    | ⟨0, _⟩ => show win3_0.index t (0 : Fin 2) * 512 + 1 * p.val = win3_3.index t (0 : Fin 2) * 512 + 1 * p.val; omega
    | ⟨1, _⟩ => show win3_0.index t (1 : Fin 2) * 4096 + 1 * jj.val = jj.val; omega

theorem flushed_abf (c : Dev nD) (t : Fin cfg3.N) :
    (dat3 V c).flushed 4 t = ((cfg3.win 4).blk t).view.read (Elt Ideal) (abfArr (V c (Pipeline.arrRef spec3 0))) := by
  show (cfg3.win 4).cut (grid3.coords t) ((dat3 V c).after 4 t) = _
  rw [after3_4]
  unfold out3_4
  rw [View.canon_unit_zero hz]
  simp only [View.ld_unit_zero (S := S512x4096) hz]
  obtain ⟨e00, e01, e10, e11, e20, e21, e30, e31, e40, e41⟩ := idx_facts t
  funext j
  obtain ⟨p, q, rfl⟩ : ∃ (p : Fin 512) (q : Fin 4096), j = ix2 p q := ⟨j 0, j 1, eq_ix2 j⟩
  refine (pay3_apply _ (ix2 p q)).trans ?_
  show V c (Pipeline.arrRef spec3 0) (((cfg3.win 0).blk t).view.emb (ix2 p q)) = V c (Pipeline.arrRef spec3 0) (((cfg3.win 4).blk t).view.emb (ix2 p q))
  refine congrArg _ (funext fun a => Fin.ext ?_)
  match a with
  | ⟨0, _⟩ => show win3_0.index t (0 : Fin 2) * 512 + 1 * p.val = win3_4.index t (0 : Fin 2) * 512 + 1 * p.val; omega
  | ⟨1, _⟩ => show win3_0.index t (1 : Fin 2) * 4096 + 1 * q.val = win3_4.index t (1 : Fin 2) * 4096 + 1 * q.val; omega

/-! ### Every index of an output array lies in the block of the point its row falls in -/

theorem mem_blk_dinv (t : Fin cfg3.N) (i : S4096x1.Idx) :
    i ∈ ((cfg3.win 2).blk t).view.set ↔ ∀ a : Fin 2, win3_2.index t a * S512x1.size a ≤ (i a).val ∧ (i a).val < win3_2.index t a * S512x1.size a + S512x1.size a := by
  show i ∈ ((View.whole main_v3_0).slice (win3_2.rect t)).set ↔ _
  rw [View.set_slice_whole, Rect.mem_set_unit]
  exact Iff.rfl

theorem mem_blk_xp (t : Fin cfg3.N) (i : S4096x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v3_1).slice (win3_3.rect t)).set ↔ _
  rw [View.set_slice_whole, Rect.mem_set_unit]
  exact Iff.rfl

theorem mem_blk_abf (t : Fin cfg3.N) (i : S4096x4096.Idx) :
    i ∈ ((cfg3.win 4).blk t).view.set ↔ ∀ a : Fin 2, win3_4.index t a * S512x4096.size a ≤ (i a).val ∧ (i a).val < win3_4.index t a * S512x4096.size a + S512x4096.size a := by
  show i ∈ ((View.whole main_v3_2).slice (win3_4.rect t)).set ↔ _
  rw [View.set_slice_whole, Rect.mem_set_unit]
  exact Iff.rfl

/-- The grid point whose blocks hold row r. -/
def pointOf (r : ℕ) (hr : r < 4096) : Fin cfg3.N := ⟨r / 512, by show r / 512 < 8; omega⟩

theorem pointOf_val (r : ℕ) (hr : r < 4096) : (pointOf r hr).val = r / 512 := rfl

theorem cover_dinv (i : S4096x1.Idx) :
    ∃ t : Fin cfg3.N, (cfg3.win 2).flush t = true ∧ i ∈ ((cfg3.win 2).blk t).view.set := by
  have hi0 : (i 0).val < 4096 := (i 0).isLt
  have hi1 : (i 1).val < 1 := (i 1).isLt
  refine ⟨pointOf (i 0).val hi0, flush3_2 _, ?_⟩
  rw [mem_blk_dinv]
  obtain ⟨e00, e01, e10, e11, e20, e21, e30, e31, e40, e41⟩ := idx_facts (pointOf (i 0).val hi0)
  have hv := pointOf_val (i 0).val hi0
  intro a
  match a with
  | ⟨0, _⟩ => show win3_2.index (pointOf (i 0).val hi0) (0 : Fin 2) * 512 ≤ (i 0).val ∧ (i 0).val < win3_2.index (pointOf (i 0).val hi0) (0 : Fin 2) * 512 + 512; omega
  | ⟨1, _⟩ => show win3_2.index (pointOf (i 0).val hi0) (1 : Fin 2) * 1 ≤ (i 1).val ∧ (i 1).val < win3_2.index (pointOf (i 0).val hi0) (1 : Fin 2) * 1 + 1; omega

theorem cover_xp (i : S4096x128.Idx) :
    ∃ t : Fin cfg3.N, (cfg3.win 3).flush t = true ∧ i ∈ ((cfg3.win 3).blk t).view.set := by
  have hi0 : (i 0).val < 4096 := (i 0).isLt
  have hi1 : (i 1).val < 128 := (i 1).isLt
  refine ⟨pointOf (i 0).val hi0, flush3_3 _, ?_⟩
  rw [mem_blk_xp]
  obtain ⟨e00, e01, e10, e11, e20, e21, e30, e31, e40, e41⟩ := idx_facts (pointOf (i 0).val hi0)
  have hv := pointOf_val (i 0).val hi0
  intro a
  match a with
  | ⟨0, _⟩ => show win3_3.index (pointOf (i 0).val hi0) (0 : Fin 2) * 512 ≤ (i 0).val ∧ (i 0).val < win3_3.index (pointOf (i 0).val hi0) (0 : Fin 2) * 512 + 512; omega
  | ⟨1, _⟩ => show win3_3.index (pointOf (i 0).val hi0) (1 : Fin 2) * 128 ≤ (i 1).val ∧ (i 1).val < win3_3.index (pointOf (i 0).val hi0) (1 : Fin 2) * 128 + 128; omega

theorem cover_abf (i : S4096x4096.Idx) :
    ∃ t : Fin cfg3.N, (cfg3.win 4).flush t = true ∧ i ∈ ((cfg3.win 4).blk t).view.set := by
  have hi0 : (i 0).val < 4096 := (i 0).isLt
  have hi1 : (i 1).val < 4096 := (i 1).isLt
  refine ⟨pointOf (i 0).val hi0, flush3_4 _, ?_⟩
  rw [mem_blk_abf]
  obtain ⟨e00, e01, e10, e11, e20, e21, e30, e31, e40, e41⟩ := idx_facts (pointOf (i 0).val hi0)
  have hv := pointOf_val (i 0).val hi0
  intro a
  match a with
  | ⟨0, _⟩ => show win3_4.index (pointOf (i 0).val hi0) (0 : Fin 2) * 512 ≤ (i 0).val ∧ (i 0).val < win3_4.index (pointOf (i 0).val hi0) (0 : Fin 2) * 512 + 512; omega
  | ⟨1, _⟩ => show win3_4.index (pointOf (i 0).val hi0) (1 : Fin 2) * 4096 ≤ (i 1).val ∧ (i 1).val < win3_4.index (pointOf (i 0).val hi0) (1 : Fin 2) * 4096 + 4096; omega

/-! ### The three arrays the region leaves -/

theorem arr_dinv (c : Dev nD) : (dat3 V c).arrAt 2 cfg3.N = dinvArr (V c (Pipeline.arrRef spec3 0)) :=
  (dat3 V c).arrAt_eq_of_cover 2 _ (fun t _ => flushed_dinv V c t) cover_dinv

theorem arr_xp (c : Dev nD) :
    (dat3 V c).arrAt 3 cfg3.N = xpArr (V c (Pipeline.arrRef spec3 0)) (V c (Pipeline.arrRef spec3 1)) :=
  (dat3 V c).arrAt_eq_of_cover 3 _ (fun t _ => flushed_xp V c t) cover_xp

theorem arr_abf (c : Dev nD) : (dat3 V c).arrAt 4 cfg3.N = abfArr (V c (Pipeline.arrRef spec3 0)) :=
  (dat3 V c).arrAt_eq_of_cover 4 _ (fun t _ => flushed_abf V c t) cover_abf

end Arrays

end Cert.Region3
end
-- ==== Proof.Region4.lean ====
/-
  The first graph-convolution layer of the second branch: the same region as the first branch's, run on the global
  adjacency, its scaled features, its degree factors and its own two weights. Every entry (j, o) of the output is the
  same fixed formula of row j of that adjacency, of its Xp, of its dinv j, of its W1 and of column o of its W2; each
  block of 512 rows written back is a block of that one array, and the eight blocks tile the array.
-/
import proofs.«122668_g52140902973514_cont_8to1_c_536_6_alg».proof.Proof.Gen.KernelIdeal.Frame
import proofs.«122668_g52140902973514_cont_8to1_c_536_6_alg».proof.Proof.Region1
import proofs.«122668_g52140902973514_cont_8to1_c_536_6_alg».proof.Proof.LibLayoutCol
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.Region4

open Idealize.ShloMosaic Idealize.ShloMosaic.TcCoe Idealize.SL.Sem Cert.KernelIdeal Cert.KernelIdeal.Gen
open Idealize.ShloMosaic.ValueIdx
open Cert.Region1 (hz matmul_plain_apply' m2Core m2At m2Arr)

/-! ## The first layer at an entry -/

/-- The body's pure term at (p, o) is that entry of its loaded blocks. -/
theorem pay1_apply (v0 : Vec Ideal S512x4096 .bf16) (v2 : Vec Ideal S4096x128 .f32) (v8 : Vec Ideal S512x128 .f32)
    (v13 : Vec Ideal S512x1 .f32) (v17 : Vec Ideal S128x256 .f32) (v21 : Vec Ideal S256x64 .f32) (p : Fin 512) (o : Fin 64) :
    k4_pay1 (F := Ideal) v0 v2 v8 v13 v17 v21 (ix2 p o)
      = m2Core (fun l => v0 (ix2 p l)) (fun l e => v2 (ix2 l e)) (fun e => v8 (ix2 p e)) (v13 (ix2 p (0 : Fin 1)))
          (fun e h => v17 (ix2 e h)) (fun h => v21 (ix2 h o)) := by
  unfold k4_pay1 m2Core
  refine congrArg₂ (· * ·) ?_ ((broadcastTo_a1_ab_apply _ _ p o).trans (congrFun (shapeCast_self v13 _) (ix2 p (0 : Fin 1))))
  refine (matmul_plain_apply' dot_S512x256_S256x64_S512x64_1_0_0_1_n_n rfl rfl rfl rfl rfl rfl rfl rfl none _ v21 p o).trans ?_
  refine Finset.sum_congr rfl fun h _ => congrArg (· * v21 (ix2 h o)) ?_
  refine congrArg₂ max ?_ Ideal.ofBits_zero_f32
  refine (matmul_plain_apply' dot_S512x128_S128x256_S512x256_1_0_0_1_n_n rfl rfl rfl rfl rfl rfl rfl rfl none _ v17 p h).trans ?_
  refine Finset.sum_congr rfl fun e _ => congrArg (· * v17 (ix2 e h)) ?_
  refine congrArg₂ (· * ·) (congrArg₂ (· + ·) ?_ (congrFun (shapeCast_self v8 _) (ix2 p e)))
    ((broadcastTo_a1_ab_apply _ _ p e).trans (congrFun (shapeCast_self v13 _) (ix2 p (0 : Fin 1))))
  refine (matmul_plain_apply' dot_S512x4096_S4096x128_S512x128_1_0_0_1_n_n rfl rfl rfl rfl rfl rfl rfl rfl none _ _ p e).trans ?_
  exact Finset.sum_congr rfl fun l _ => congrArg₂ (· * ·) (congrFun (shapeCast_self v0 _) (ix2 p l))
    (congrFun (shapeCast_self v2 _) (ix2 l e))

/-! ## What the body leaves in the output's buffer -/

/-- On any whole staging buffers, the body leaves its pure term of the loaded blocks: the adjacency block, the whole
    scaled features, their rows and the degree factors' rows at the point's row offset, and the two weights. -/
theorem out4_eq (c : Dev nD) (i : grid4.Coords)
    (a1 : Memref sig .tc .vmem S512x4096 .bf16) (h1 : a1.IsWhole) (a2 : Memref sig .tc .vmem S4096x128 .f32) (h2 : a2.IsWhole)
    (a3 : Memref sig .tc .vmem S4096x1 .f32) (h3 : a3.IsWhole) (a4 : Memref sig .tc .vmem S128x256 .f32) (h4 : a4.IsWhole)
    (a5 : Memref sig .tc .vmem S256x64 .f32) (h5 : a5.IsWhole) (a6 : Memref sig .tc .vmem S512x64 .f32) (h6 : a6.IsWhole)
    (x0 : Vec Ideal S512x4096 .bf16) (x1 : Vec Ideal S4096x128 .f32) (x2 : Vec Ideal S4096x1 .f32)
    (x3 : Vec Ideal S128x256 .f32) (x4 : Vec Ideal S256x64 .f32) :
    out4_A_5 (F := Ideal) c i a1 h1 a2 h2 a3 h3 a4 h4 a5 h5 a6 h6 x0 x1 x2 x3 x4
      = k4_pay1 (F := Ideal) x0 x1 (View.ld x1 (Rect.unit (s := S4096x128) (k4_off1 i) S512x128.size (k4_off1_inb i)))
          (View.ld x2 (Rect.unit (s := S4096x1) (k4_off2 i) S512x1.size (k4_off2_inb i))) x3 x4 := by
  unfold out4_A_5
  rw [View.read_writes_eq_canon _ _ _ (cover4_A_5 c i a1 h1 a2 h2 a3 h3 a4 h4 a5 h5 a6 h6 x0 x1 x2 x3 x4)]
  unfold kernelRun4_A
  dsimp only
  rw [View.canon_unit_zero hz]
  simp only [View.readAt_eq_ld, h1.read_unread, h2.read_unread, h3.read_unread, h4.read_unread, h5.read_unread,
    View.ld_unit_zero (S := S512x4096) hz, View.ld_unit_zero (S := S4096x128) hz, View.ld_unit_zero (S := S128x256) hz,
    View.ld_unit_zero (S := S256x64) hz]

/-! ## From blocks to the array -/

section Arrays

variable (V : (c : Dev nD) → (b : Ref sig .tc) → Buf (Elt Ideal) ((c : Thread nD τ).loc b))

/-- The printed index maps and row offsets over the eight grid points: block t of the adjacency and of the output
    starts at row 512 t; the other four windows hold their whole arrays; the body's two row loads start at row 512 t. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ k4_off1 (grid4.coords t) (0 : Fin 2) = 512 * t.val ∧ k4_off1 (grid4.coords t) (1 : Fin 2) = 0
    ∧ k4_off2 (grid4.coords t) (0 : Fin 2) = 512 * t.val ∧ k4_off2 (grid4.coords t) (1 : Fin 2) = 0 :=
  (by decide +kernel : ∀ t : Fin grid4.N, _)

/-- What point t writes back is block t of the array. -/
theorem flushed_m2 (c : Dev nD) (t : Fin cfg4.N) :
    (dat4 V c).flushed 5 t = ((cfg4.win 5).blk t).view.read (Elt Ideal)
      (m2Arr (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold outsAt4
  rw [out4_eq]
  obtain ⟨e00, e01, e10, e11, e20, e21, e30, e31, e40, e41, e50, e51, f10, f11, f20, f21⟩ := idx_facts t
  funext j
  obtain ⟨p, o, rfl⟩ : ∃ (p : Fin 512) (o : Fin 64), j = ix2 p o := ⟨j 0, j 1, eq_ix2 j⟩
  refine (pay1_apply (iblk4 V c 0 t) (iblk4 V c 1 t)
    (View.ld (iblk4 V c 1 t) (Rect.unit (s := S4096x128) (k4_off1 (grid4.coords t)) S512x128.size (k4_off1_inb (grid4.coords t))))
    (View.ld (iblk4 V c 2 t) (Rect.unit (s := S4096x1) (k4_off2 (grid4.coords t)) S512x1.size (k4_off2_inb (grid4.coords t))))
    (iblk4 V c 3 t) (iblk4 V c 4 t) p o).trans ?_
  show _ = m2Arr _ _ _ _ _ (((cfg4.win 5).blk t).view.emb (ix2 p o))
  unfold m2Arr m2At
  refine congr (congr (congr (congr (congr (congrArg m2Core ?_) ?_) ?_) ?_) ?_) ?_
  · funext l
    show V c (Pipeline.arrRef spec4 0) (((cfg4.win 0).blk t).view.emb (ix2 p l)) = V c (Pipeline.arrRef spec4 0) (ix2 _ l)
    refine congrArg _ (funext fun a => Fin.ext ?_)
    match a with
    | ⟨0, _⟩ => show win4_0.index t (0 : Fin 2) * 512 + 1 * p.val = win4_5.index t (0 : Fin 2) * 512 + 1 * p.val; omega
    | ⟨1, _⟩ => show win4_0.index t (1 : Fin 2) * 4096 + 1 * l.val = l.val; omega
  · funext l e
    show V c (Pipeline.arrRef spec4 1) (((cfg4.win 1).blk t).view.emb (ix2 l e)) = V c (Pipeline.arrRef spec4 1) (ix2 l e)
    refine congrArg _ (funext fun a => Fin.ext ?_)
    match a with
    | ⟨0, _⟩ => show win4_1.index t (0 : Fin 2) * 4096 + 1 * l.val = l.val; omega
    | ⟨1, _⟩ => show win4_1.index t (1 : Fin 2) * 128 + 1 * e.val = e.val; omega
  · funext e
    show V c (Pipeline.arrRef spec4 1) (((cfg4.win 1).blk t).view.emb
        ((Rect.unit (s := S4096x128) (k4_off1 (grid4.coords t)) S512x128.size (k4_off1_inb (grid4.coords t))).idx (ix2 p e)))
      = V c (Pipeline.arrRef spec4 1) (ix2 _ e)
    refine congrArg _ (funext fun a => Fin.ext ?_)
    match a with
    | ⟨0, _⟩ =>
      show win4_1.index t (0 : Fin 2) * 4096 + 1 * (k4_off1 (grid4.coords t) (0 : Fin 2) + 1 * p.val)
        = win4_5.index t (0 : Fin 2) * 512 + 1 * p.val
      omega
    | ⟨1, _⟩ =>
      show win4_1.index t (1 : Fin 2) * 128 + 1 * (k4_off1 (grid4.coords t) (1 : Fin 2) + 1 * e.val) = e.val
      omega
  · show V c (Pipeline.arrRef spec4 2) (((cfg4.win 2).blk t).view.emb
        ((Rect.unit (s := S4096x1) (k4_off2 (grid4.coords t)) S512x1.size (k4_off2_inb (grid4.coords t))).idx (ix2 p (0 : Fin 1))))
      = V c (Pipeline.arrRef spec4 2) (ix2 _ (0 : Fin 1))
    refine congrArg _ (funext fun a => Fin.ext ?_)
    match a with
    | ⟨0, _⟩ =>
      show win4_2.index t (0 : Fin 2) * 4096 + 1 * (k4_off2 (grid4.coords t) (0 : Fin 2) + 1 * p.val)
        = win4_5.index t (0 : Fin 2) * 512 + 1 * p.val
      omega
    | ⟨1, _⟩ =>
      show win4_2.index t (1 : Fin 2) * 1 + 1 * (k4_off2 (grid4.coords t) (1 : Fin 2) + 1 * 0) = 0
      omega
  · funext e h
    show V c (Pipeline.arrRef spec4 3) (((cfg4.win 3).blk t).view.emb (ix2 e h)) = V c (Pipeline.arrRef spec4 3) (ix2 e h)
    refine congrArg _ (funext fun a => Fin.ext ?_)
    match a with
    | ⟨0, _⟩ => show win4_3.index t (0 : Fin 2) * 128 + 1 * e.val = e.val; omega
    | ⟨1, _⟩ => show win4_3.index t (1 : Fin 2) * 256 + 1 * h.val = h.val; omega
  · funext h
    show V c (Pipeline.arrRef spec4 4) (((cfg4.win 4).blk t).view.emb (ix2 h o)) = V c (Pipeline.arrRef spec4 4) (ix2 h _)
    refine congrArg _ (funext fun a => Fin.ext ?_)
    match a with
    | ⟨0, _⟩ => show win4_4.index t (0 : Fin 2) * 256 + 1 * h.val = h.val; omega
    | ⟨1, _⟩ => show win4_4.index t (1 : Fin 2) * 64 + 1 * o.val = win4_5.index t (1 : Fin 2) * 64 + 1 * o.val; omega

/-- An index of the array is in point t's block iff each coordinate is in the block's range on its axis. -/
theorem mem_blk (t : Fin cfg4.N) (i : S4096x64.Idx) :
    i ∈ ((cfg4.win 5).blk t).view.set
      ↔ ∀ a : Fin 2, win4_5.index t a * S512x64.size a ≤ (i a).val ∧ (i a).val < win4_5.index t a * S512x64.size a + S512x64.size a := by
  show i ∈ ((View.whole main_v4).slice (win4_5.rect t)).set ↔ _
  rw [View.set_slice_whole, Rect.mem_set_unit]
  exact Iff.rfl

/-- Row r of the array is in the block of point r / 512, and every point writes its block back. -/
theorem cover (i : S4096x64.Idx) :
    ∃ t : Fin cfg4.N, (cfg4.win 5).flush t = true ∧ i ∈ ((cfg4.win 5).blk t).view.set := by
  have hi0 : (i 0).val < 4096 := (i 0).isLt
  have hi1 : (i 1).val < 64 := (i 1).isLt
  obtain ⟨t, htv⟩ : ∃ t : Fin cfg4.N, t.val = (i 0).val / 512 :=
    ⟨⟨(i 0).val / 512, by rw [show cfg4.N = 8 from N_4]; omega⟩, rfl⟩
  obtain ⟨e00, e01, e10, e11, e20, e21, e30, e31, e40, e41, e50, e51, f10, f11, f20, f21⟩ := idx_facts t
  refine ⟨t, flush4_5 t, ?_⟩
  rw [mem_blk]
  intro a
  match a with
  | ⟨0, _⟩ =>
    show win4_5.index t (0 : Fin 2) * 512 ≤ (i 0).val ∧ (i 0).val < win4_5.index t (0 : Fin 2) * 512 + 512
    omega
  | ⟨1, _⟩ =>
    show win4_5.index t (1 : Fin 2) * 64 ≤ (i 1).val ∧ (i 1).val < win4_5.index t (1 : Fin 2) * 64 + 64
    omega

/-- The region's output array, once every point has run: the first layer's scaled output of the arrays the region
    finds. -/
theorem arr4 (c : Dev nD) :
    (dat4 V c).arrAt 5 cfg4.N
      = m2Arr (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 _ (fun t _ => flushed_m2 V c t) cover

end Arrays

end Cert.Region4
end
-- ==== Proof.Region5.lean ====
/-
  The second graph-convolution pass of the other branch: the same body as the first branch's pass, on that branch's
  adjacency copy, array M and degree column.  The product lemma, the zero-offset fact and the array formula are the
  first branch's; the payload, the body's store, the index facts and the cover are restated for this pass's own names.
-/
import proofs.«122668_g52140902973514_cont_8to1_c_536_6_alg».proof.Proof.Gen.KernelIdeal.Frame
import proofs.«122668_g52140902973514_cont_8to1_c_536_6_alg».proof.Proof.Region2
import proofs.«122668_g52140902973514_cont_8to1_c_536_6_alg».proof.Proof.LibLayoutCol
import proofs.«122668_g52140902973514_cont_8to1_c_536_6_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Region5

open Idealize.ShloMosaic Idealize.ShloMosaic.TcCoe Idealize.SL.Sem Cert.KernelIdeal Cert.KernelIdeal.Gen
open Idealize.ShloMosaic.ValueIdx
open Idealize.ShloMosaic.Pipeline (Dat)
open Cert.Region2 (hz D2 mm_apply hArr)

/-! ## The payload at an index -/

/-- The payload at (p,o): the block's product with the narrowed copy of M (a change of float format is the identity on
    extended reals), plus the block's own rows of M, times the rows' degree factor. -/
theorem pay_apply (x0 : Vec Ideal S512x4096 .bf16) (x2 : Vec Ideal S4096x64 .f32) (x8 : Vec Ideal S512x64 .f32)
    (x13 : Vec Ideal S512x1 .f32) (p : Fin 512) (o : Fin 64) :
    k5_pay1 (F := Ideal) x0 x2 x8 x13 (ix2 p o)
      = ((∑ k : Fin 4096, x0 (ix2 p k) * x2 (ix2 k o)) + x8 (ix2 p o)) * x13 (ix2 p (0 : Fin 1)) := by
  unfold k5_pay1
  simp only [shapeCast_self]
  show (FloatOps.matmul D2 none x0 (truncf (F := Ideal) .bf16 x2 bitsLt_bf16_f32) (constant (F := Ideal) S512x64 .f32 0x00000000#32) (ix2 p o) + x8 (ix2 p o))
      * broadcastTo S512x64 x13 broadcasts_S512x1_S512x64 (ix2 p o) = _
  exact congrArg₂ (· * ·) (congrArg (· + x8 (ix2 p o)) (mm_apply x0 _ p o)) (broadcastTo_a1_ab_apply x13 _ p o)

/-! ## What the body leaves in the output's staging buffer -/

/-- The body's one covering store leaves its payload: of the adjacency block and the whole array M as loaded, and of
    the block's own rows of M and of the degree column, loaded through rectangles offset by the grid position. -/
theorem piece (c : Dev nD) (i : grid5.Coords) (a1 : Memref sig .tc .vmem S512x4096 .bf16) (h1 : a1.IsWhole)
    (a2 : Memref sig .tc .vmem S4096x64 .f32) (h2 : a2.IsWhole) (a3 : Memref sig .tc .vmem S4096x1 .f32) (h3 : a3.IsWhole)
    (a4 : Memref sig .tc .vmem S512x64 .f32) (h4 : a4.IsWhole)
    (x0 : Vec Ideal S512x4096 .bf16) (x1 : Vec Ideal S4096x64 .f32) (x2 : Vec Ideal S4096x1 .f32) :
    out5_A_3 (F := Ideal) c i a1 h1 a2 h2 a3 h3 a4 h4 x0 x1 x2
      = k5_pay1 (F := Ideal) x0 x1
          (View.ld x1 (Rect.unit (s := S4096x64) (k5_off1 i) S512x64.size (k5_off1_inb i)))
          (View.ld x2 (Rect.unit (s := S4096x1) (k5_off2 i) S512x1.size (k5_off2_inb i))) := by
  unfold out5_A_3
  rw [View.read_writes_eq_canon _ _ _ (cover5_A_3 c i a1 h1 a2 h2 a3 h3 a4 h4 x0 x1 x2)]
  unfold kernelRun5_A
  dsimp only
  rw [View.canon_unit_zero hz]
  simp only [View.readAt_eq_ld, h1.read_unread, h2.read_unread, h3.read_unread, View.ld_unit_zero (S := S512x4096) hz,
    View.ld_unit_zero (S := S4096x64) hz, shapeCast_self]

/-! ## From blocks to the array -/

section Arrays

variable (V : (c : Dev nD) → (b : Ref sig .tc) → Buf (Elt Ideal) ((c : Thread nD τ).loc b))

/-- The printed index maps and row offsets over the eight grid points: the adjacency window and the output window sit at
    block (t, 0), the two whole-array windows at block (0, 0), and the offset loads start at row 512 t, column 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ k5_off1 (grid5.coords t) (0 : Fin 2) = t.val * 512 ∧ k5_off1 (grid5.coords t) (1 : Fin 2) = 0
    ∧ k5_off2 (grid5.coords t) (0 : Fin 2) = t.val * 512 ∧ k5_off2 (grid5.coords t) (1 : Fin 2) = 0 :=
  (by decide +kernel : ∀ t : Fin grid5.N, _)

/-- What point t writes back is block t of the layer's result on the arrays as the region finds them. -/
theorem flushed_eq (c : Dev nD) (t : Fin cfg5.N) :
    (dat5 V c).flushed 3 t = ((cfg5.win 3).blk t).view.read (Elt Ideal)
      (hArr (V c (Pipeline.arrRef spec5 0)) (V c (Pipeline.arrRef spec5 1)) (V c (Pipeline.arrRef spec5 2))) := by
  show (cfg5.win 3).cut (grid5.coords t) ((dat5 V c).after 3 t) = _
  rw [after5_3]
  unfold outsAt5
  rw [piece]
  obtain ⟨e00, e01, e10, e11, e20, e21, e30, e31, f10, f11, f20, f21⟩ := idx_facts t
  funext j
  obtain ⟨p, o, rfl⟩ : ∃ (p : Fin 512) (o : Fin 64), j = ix2 p o := ⟨j 0, j 1, eq_ix2 j⟩
  have hp : p.val < 512 := p.isLt
  have ho : o.val < 64 := o.isLt
  refine (pay_apply (iblk5 V c 0 t) (iblk5 V c 1 t)
    (View.ld (iblk5 V c 1 t) (Rect.unit (s := S4096x64) (k5_off1 (grid5.coords t)) S512x64.size (k5_off1_inb (grid5.coords t))))
    (View.ld (iblk5 V c 2 t) (Rect.unit (s := S4096x1) (k5_off2 (grid5.coords t)) S512x1.size (k5_off2_inb (grid5.coords t)))) p o).trans ?_
  show _ = hArr (V c (Pipeline.arrRef spec5 0)) (V c (Pipeline.arrRef spec5 1)) (V c (Pipeline.arrRef spec5 2))
    (((cfg5.win 3).blk t).view.emb (ix2 p o))
  unfold hArr
  refine congrArg₂ (· * ·) (congrArg₂ (· + ·) (Finset.sum_congr rfl fun k _ => congrArg₂ (· * ·) ?_ ?_) ?_) ?_
  · show V c (Pipeline.arrRef spec5 0) (((cfg5.win 0).blk t).view.emb (ix2 p k)) = V c (Pipeline.arrRef spec5 0) (ix2 _ k)
    refine congrArg _ (funext fun a => Fin.ext ?_)
    match a with
    | ⟨0, _⟩ => show win5_0.index t (0 : Fin 2) * 512 + 1 * p.val = win5_3.index t (0 : Fin 2) * 512 + 1 * p.val; omega
    | ⟨1, _⟩ => show win5_0.index t (1 : Fin 2) * 4096 + 1 * k.val = k.val; omega
  · show V c (Pipeline.arrRef spec5 1) (((cfg5.win 1).blk t).view.emb (ix2 k o)) = V c (Pipeline.arrRef spec5 1) (ix2 k _)
    refine congrArg _ (funext fun a => Fin.ext ?_)
    match a with
    | ⟨0, _⟩ => show win5_1.index t (0 : Fin 2) * 4096 + 1 * k.val = k.val; omega
    | ⟨1, _⟩ => show win5_1.index t (1 : Fin 2) * 64 + 1 * o.val = win5_3.index t (1 : Fin 2) * 64 + 1 * o.val; omega
  · show V c (Pipeline.arrRef spec5 1) (((cfg5.win 1).blk t).view.emb
        ((Rect.unit (s := S4096x64) (k5_off1 (grid5.coords t)) S512x64.size (k5_off1_inb (grid5.coords t))).idx (ix2 p o)))
      = V c (Pipeline.arrRef spec5 1) (ix2 _ _)
    refine congrArg _ (funext fun a => Fin.ext ?_)
    match a with
    | ⟨0, _⟩ => show win5_1.index t (0 : Fin 2) * 4096 + 1 * (k5_off1 (grid5.coords t) (0 : Fin 2) + 1 * p.val) = win5_3.index t (0 : Fin 2) * 512 + 1 * p.val; omega
    | ⟨1, _⟩ => show win5_1.index t (1 : Fin 2) * 64 + 1 * (k5_off1 (grid5.coords t) (1 : Fin 2) + 1 * o.val) = win5_3.index t (1 : Fin 2) * 64 + 1 * o.val; omega
  · show V c (Pipeline.arrRef spec5 2) (((cfg5.win 2).blk t).view.emb
        ((Rect.unit (s := S4096x1) (k5_off2 (grid5.coords t)) S512x1.size (k5_off2_inb (grid5.coords t))).idx (ix2 p (0 : Fin 1))))
      = V c (Pipeline.arrRef spec5 2) (ix2 _ (0 : Fin 1))
    refine congrArg _ (funext fun a => Fin.ext ?_)
    match a with
    | ⟨0, _⟩ => show win5_2.index t (0 : Fin 2) * 4096 + 1 * (k5_off2 (grid5.coords t) (0 : Fin 2) + 1 * p.val) = win5_3.index t (0 : Fin 2) * 512 + 1 * p.val; omega
    | ⟨1, _⟩ => show win5_2.index t (1 : Fin 2) * 1 + 1 * (k5_off2 (grid5.coords t) (1 : Fin 2) + 1 * 0) = 0; omega

/-- An index of the result array is in point t's block iff each coordinate is in the block's range on its axis. -/
theorem mem_blk (t : Fin cfg5.N) (i : S4096x64.Idx) :
    i ∈ ((cfg5.win 3).blk t).view.set ↔ ∀ a : Fin 2, win5_3.index t a * S512x64.size a ≤ (i a).val ∧ (i a).val < win5_3.index t a * S512x64.size a + S512x64.size a := by
  show i ∈ ((View.whole main_v5).slice (win5_3.rect t)).set ↔ _
  rw [View.set_slice_whole, Rect.mem_set_unit]
  exact Iff.rfl

/-- Row r of the result array lies in the block of the point r / 512. -/
theorem cover (i : S4096x64.Idx) : ∃ t : Fin cfg5.N, (cfg5.win 3).flush t = true ∧ i ∈ ((cfg5.win 3).blk t).view.set := by
  have hi0 : (i 0).val < 4096 := idx2_lt0 i
  have hi1 : (i 1).val < 64 := idx2_lt1 i
  have hN : grid5.N = 8 := N_5
  let t : Fin cfg5.N := ⟨(i 0).val / 512, by show (i 0).val / 512 < grid5.N; omega⟩
  obtain ⟨e00, e01, e10, e11, e20, e21, e30, e31, f10, f11, f20, f21⟩ := idx_facts t
  have et : t.val = (i 0).val / 512 := rfl
  refine ⟨t, flush5_3 t, ?_⟩
  rw [mem_blk]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 64 ≤ (i 1).val ∧ (i 1).val < win5_3.index t (1 : Fin 2) * 64 + 64; omega

/-- The result array after the region's run: the layer's result on the three arrays as the region finds them. -/
theorem arr5 (c : Dev nD) :
    (dat5 V c).arrAt 3 cfg5.N
      = hArr (V c (Pipeline.arrRef spec5 0)) (V c (Pipeline.arrRef spec5 1)) (V c (Pipeline.arrRef spec5 2)) :=
  (dat5 V c).arrAt_eq_of_cover 3
    (hArr (V c (Pipeline.arrRef spec5 0)) (V c (Pipeline.arrRef spec5 1)) (V c (Pipeline.arrRef spec5 2)))
    (fun t _ => flushed_eq V c t) (cover)

end Arrays

end Cert.Region5
end
-- ==== Proof.Region6.lean ====
/-
  The closing region, read as four whole arrays.

  The region has no grid: its one point fetches each of its seven operands whole and writes each of its four results
  whole. A block is then the array itself (its index map is constantly zero and its extent the array's), so each
  result array ends as the body's result for that window applied to the seven operand arrays as the region finds them.
-/
import proofs.«122668_g52140902973514_cont_8to1_c_536_6_alg».proof.Proof.Gen.KernelIdeal.Frame
import proofs.«122668_g52140902973514_cont_8to1_c_536_6_alg».proof.Proof.Spec
import proofs.«122668_g52140902973514_cont_8to1_c_536_6_alg».proof.Proof.LibLayoutCol
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Region6

open Idealize.ShloMosaic Idealize.ShloMosaic.TcCoe Idealize.SL.Sem Cert.KernelIdeal Cert.KernelIdeal.Gen
open Idealize.ShloMosaic.ValueIdx

section Arrays

variable (V : (c : Dev nD) → (b : Ref sig .tc) → Buf (Elt Ideal) ((c : Thread nD τ).loc b))

/-! ### A block of a whole window is the array: its embedding is the identity -/

theorem emb_0 (t : Fin cfg6.N) (p : Fin 4096) (q : Fin 64) : ((cfg6.win 0).blk t).view.emb (ix2 p q) = ix2 p q := by
  funext a; apply Fin.ext
  match a with
  | ⟨0, _⟩ =>
    show win6_0.index t (0 : Fin 2) * 4096 + 1 * p.val = p.val
    have h : win6_0.index t (0 : Fin 2) = 0 := rfl
    omega
  | ⟨1, _⟩ =>
    show win6_0.index t (1 : Fin 2) * 64 + 1 * q.val = q.val
    have h : win6_0.index t (1 : Fin 2) = 0 := rfl
    omega

theorem emb_1 (t : Fin cfg6.N) (p : Fin 4096) (q : Fin 64) : ((cfg6.win 1).blk t).view.emb (ix2 p q) = ix2 p q := by
  funext a; apply Fin.ext
  match a with
  | ⟨0, _⟩ =>
    show win6_1.index t (0 : Fin 2) * 4096 + 1 * p.val = p.val
    have h : win6_1.index t (0 : Fin 2) = 0 := rfl
    omega
  | ⟨1, _⟩ =>
    show win6_1.index t (1 : Fin 2) * 64 + 1 * q.val = q.val
    have h : win6_1.index t (1 : Fin 2) = 0 := rfl
    omega

theorem emb_2 (t : Fin cfg6.N) (p : Fin 64) (q : Fin 256) : ((cfg6.win 2).blk t).view.emb (ix2 p q) = ix2 p q := by
  funext a; apply Fin.ext
  match a with
  | ⟨0, _⟩ =>
    show win6_2.index t (0 : Fin 2) * 64 + 1 * p.val = p.val
    have h : win6_2.index t (0 : Fin 2) = 0 := rfl
    omega
  | ⟨1, _⟩ =>
    show win6_2.index t (1 : Fin 2) * 256 + 1 * q.val = q.val
    have h : win6_2.index t (1 : Fin 2) = 0 := rfl
    omega

theorem emb_3 (t : Fin cfg6.N) (p : Fin 256) (q : Fin 128) : ((cfg6.win 3).blk t).view.emb (ix2 p q) = ix2 p q := by
  funext a; apply Fin.ext
  match a with
  | ⟨0, _⟩ =>
    show win6_3.index t (0 : Fin 2) * 256 + 1 * p.val = p.val
    have h : win6_3.index t (0 : Fin 2) = 0 := rfl
    omega
  | ⟨1, _⟩ =>
    show win6_3.index t (1 : Fin 2) * 128 + 1 * q.val = q.val
    have h : win6_3.index t (1 : Fin 2) = 0 := rfl
    omega

theorem emb_4 (t : Fin cfg6.N) (p : Fin 128) (q : Fin 32) : ((cfg6.win 4).blk t).view.emb (ix2 p q) = ix2 p q := by
  funext a; apply Fin.ext
  match a with
  | ⟨0, _⟩ =>
    show win6_4.index t (0 : Fin 2) * 128 + 1 * p.val = p.val
    have h : win6_4.index t (0 : Fin 2) = 0 := rfl
    omega
  | ⟨1, _⟩ =>
    show win6_4.index t (1 : Fin 2) * 32 + 1 * q.val = q.val
    have h : win6_4.index t (1 : Fin 2) = 0 := rfl
    omega

theorem emb_5 (t : Fin cfg6.N) (p : Fin 1) (q : Fin 32) : ((cfg6.win 5).blk t).view.emb (ix2 p q) = ix2 p q := by
  funext a; apply Fin.ext
  match a with
  | ⟨0, _⟩ =>
    show win6_5.index t (0 : Fin 2) * 1 + 1 * p.val = p.val
    have h : win6_5.index t (0 : Fin 2) = 0 := rfl
    omega
  | ⟨1, _⟩ =>
    show win6_5.index t (1 : Fin 2) * 32 + 1 * q.val = q.val
    have h : win6_5.index t (1 : Fin 2) = 0 := rfl
    omega

theorem emb_6 (t : Fin cfg6.N) (p : Fin 10) (q : Fin 32) : ((cfg6.win 6).blk t).view.emb (ix2 p q) = ix2 p q := by
  funext a; apply Fin.ext
  match a with
  | ⟨0, _⟩ =>
    show win6_6.index t (0 : Fin 2) * 10 + 1 * p.val = p.val
    have h : win6_6.index t (0 : Fin 2) = 0 := rfl
    omega
  | ⟨1, _⟩ =>
    show win6_6.index t (1 : Fin 2) * 32 + 1 * q.val = q.val
    have h : win6_6.index t (1 : Fin 2) = 0 := rfl
    omega

theorem emb_7 (t : Fin cfg6.N) (p : Fin 4096) (q : Fin 32) : ((cfg6.win 7).blk t).view.emb (ix2 p q) = ix2 p q := by
  funext a; apply Fin.ext
  match a with
  | ⟨0, _⟩ =>
    show win6_7.index t (0 : Fin 2) * 4096 + 1 * p.val = p.val
    have h : win6_7.index t (0 : Fin 2) = 0 := rfl
    omega
  | ⟨1, _⟩ =>
    show win6_7.index t (1 : Fin 2) * 32 + 1 * q.val = q.val
    have h : win6_7.index t (1 : Fin 2) = 0 := rfl
    omega

theorem emb_8 (t : Fin cfg6.N) (p : Fin 4096) (q : Fin 10) : ((cfg6.win 8).blk t).view.emb (ix2 p q) = ix2 p q := by
  funext a; apply Fin.ext
  match a with
  | ⟨0, _⟩ =>
    show win6_8.index t (0 : Fin 2) * 4096 + 1 * p.val = p.val
    have h : win6_8.index t (0 : Fin 2) = 0 := rfl
    omega
  | ⟨1, _⟩ =>
    show win6_8.index t (1 : Fin 2) * 10 + 1 * q.val = q.val
    have h : win6_8.index t (1 : Fin 2) = 0 := rfl
    omega

theorem emb_9 (t : Fin cfg6.N) (p : Fin 4096) (q : Fin 10) : ((cfg6.win 9).blk t).view.emb (ix2 p q) = ix2 p q := by
  funext a; apply Fin.ext
  match a with
  | ⟨0, _⟩ =>
    show win6_9.index t (0 : Fin 2) * 4096 + 1 * p.val = p.val
    have h : win6_9.index t (0 : Fin 2) = 0 := rfl
    omega
  | ⟨1, _⟩ =>
    show win6_9.index t (1 : Fin 2) * 10 + 1 * q.val = q.val
    have h : win6_9.index t (1 : Fin 2) = 0 := rfl
    omega

theorem emb_10 (t : Fin cfg6.N) (p : Fin 4096) (q : Fin 128) : ((cfg6.win 10).blk t).view.emb (ix2 p q) = ix2 p q := by
  funext a; apply Fin.ext
  match a with
  | ⟨0, _⟩ =>
    show win6_10.index t (0 : Fin 2) * 4096 + 1 * p.val = p.val
    have h : win6_10.index t (0 : Fin 2) = 0 := rfl
    omega
  | ⟨1, _⟩ =>
    show win6_10.index t (1 : Fin 2) * 128 + 1 * q.val = q.val
    have h : win6_10.index t (1 : Fin 2) = 0 := rfl
    omega

/-! ### Each operand's block at the one point is the operand array as the region finds it -/

theorem iblk_0 (c : Dev nD) (t : Fin cfg6.N) : iblk6 V c 0 t = V c (Pipeline.arrRef spec6 0) := by
  funext j
  obtain ⟨p, q, rfl⟩ : ∃ (p : Fin 4096) (q : Fin 64), j = ix2 p q := ⟨j 0, j 1, eq_ix2 j⟩
  show V c (Pipeline.arrRef spec6 0) (((cfg6.win 0).blk t).view.emb (ix2 p q)) = V c (Pipeline.arrRef spec6 0) (ix2 p q)
  exact congrArg _ (emb_0 t p q)

theorem iblk_1 (c : Dev nD) (t : Fin cfg6.N) : iblk6 V c 1 t = V c (Pipeline.arrRef spec6 1) := by
  funext j
  obtain ⟨p, q, rfl⟩ : ∃ (p : Fin 4096) (q : Fin 64), j = ix2 p q := ⟨j 0, j 1, eq_ix2 j⟩
  show V c (Pipeline.arrRef spec6 1) (((cfg6.win 1).blk t).view.emb (ix2 p q)) = V c (Pipeline.arrRef spec6 1) (ix2 p q)
  exact congrArg _ (emb_1 t p q)

theorem iblk_2 (c : Dev nD) (t : Fin cfg6.N) : iblk6 V c 2 t = V c (Pipeline.arrRef spec6 2) := by
  funext j
  obtain ⟨p, q, rfl⟩ : ∃ (p : Fin 64) (q : Fin 256), j = ix2 p q := ⟨j 0, j 1, eq_ix2 j⟩
  show V c (Pipeline.arrRef spec6 2) (((cfg6.win 2).blk t).view.emb (ix2 p q)) = V c (Pipeline.arrRef spec6 2) (ix2 p q)
  exact congrArg _ (emb_2 t p q)

theorem iblk_3 (c : Dev nD) (t : Fin cfg6.N) : iblk6 V c 3 t = V c (Pipeline.arrRef spec6 3) := by
  funext j
  obtain ⟨p, q, rfl⟩ : ∃ (p : Fin 256) (q : Fin 128), j = ix2 p q := ⟨j 0, j 1, eq_ix2 j⟩
  show V c (Pipeline.arrRef spec6 3) (((cfg6.win 3).blk t).view.emb (ix2 p q)) = V c (Pipeline.arrRef spec6 3) (ix2 p q)
  exact congrArg _ (emb_3 t p q)

theorem iblk_4 (c : Dev nD) (t : Fin cfg6.N) : iblk6 V c 4 t = V c (Pipeline.arrRef spec6 4) := by
  funext j
  obtain ⟨p, q, rfl⟩ : ∃ (p : Fin 128) (q : Fin 32), j = ix2 p q := ⟨j 0, j 1, eq_ix2 j⟩
  show V c (Pipeline.arrRef spec6 4) (((cfg6.win 4).blk t).view.emb (ix2 p q)) = V c (Pipeline.arrRef spec6 4) (ix2 p q)
  exact congrArg _ (emb_4 t p q)

theorem iblk_5 (c : Dev nD) (t : Fin cfg6.N) : iblk6 V c 5 t = V c (Pipeline.arrRef spec6 5) := by
  funext j
  obtain ⟨p, q, rfl⟩ : ∃ (p : Fin 1) (q : Fin 32), j = ix2 p q := ⟨j 0, j 1, eq_ix2 j⟩
  show V c (Pipeline.arrRef spec6 5) (((cfg6.win 5).blk t).view.emb (ix2 p q)) = V c (Pipeline.arrRef spec6 5) (ix2 p q)
  exact congrArg _ (emb_5 t p q)

theorem iblk_6 (c : Dev nD) (t : Fin cfg6.N) : iblk6 V c 6 t = V c (Pipeline.arrRef spec6 6) := by
  funext j
  obtain ⟨p, q, rfl⟩ : ∃ (p : Fin 10) (q : Fin 32), j = ix2 p q := ⟨j 0, j 1, eq_ix2 j⟩
  show V c (Pipeline.arrRef spec6 6) (((cfg6.win 6).blk t).view.emb (ix2 p q)) = V c (Pipeline.arrRef spec6 6) (ix2 p q)
  exact congrArg _ (emb_6 t p q)

/-! ### What the one point writes back, the cover, and the four arrays -/

theorem read_whole_7 (G : S4096x32.Idx → EReal) (t : Fin cfg6.N) :
    ((cfg6.win 7).blk t).view.read (Elt Ideal) G = G := by
  funext j
  obtain ⟨p, q, rfl⟩ : ∃ (p : Fin 4096) (q : Fin 32), j = ix2 p q := ⟨j 0, j 1, eq_ix2 j⟩
  show G (((cfg6.win 7).blk t).view.emb (ix2 p q)) = G (ix2 p q)
  exact congrArg G (emb_7 t p q)

theorem flushed_7 (c : Dev nD) (t : Fin cfg6.N) :
    (dat6 V c).flushed 7 t = ((cfg6.win 7).blk t).view.read (Elt Ideal)
      (out6_7 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  rw [read_whole_7]
  show (cfg6.win 7).cut (grid6.coords t) ((dat6 V c).after 7 t) = _
  rw [after6_7, iblk_0, iblk_1, iblk_2, iblk_3, iblk_4, iblk_5, iblk_6]
  rfl

theorem mem_blk_7 (t : Fin cfg6.N) (i : S4096x32.Idx) :
    i ∈ ((cfg6.win 7).blk t).view.set ↔ ∀ a : Fin 2, win6_7.index t a * S4096x32.size a ≤ (i a).val ∧ (i a).val < win6_7.index t a * S4096x32.size a + S4096x32.size a := by
  show i ∈ ((View.whole main_v7_0).slice (win6_7.rect t)).set ↔ _
  rw [View.set_slice_whole, Rect.mem_set_unit]
  exact Iff.rfl

theorem cover_7 (i : S4096x32.Idx) :
    ∃ t : Fin cfg6.N, (cfg6.win 7).flush t = true ∧ i ∈ ((cfg6.win 7).blk t).view.set := by
  have hi0 : (i 0).val < 4096 := (i 0).isLt
  have hi1 : (i 1).val < 32 := (i 1).isLt
  refine ⟨⟨0, by show 0 < 1; omega⟩, flush6_7 _, ?_⟩
  rw [mem_blk_7]
  intro a
  match a with
  | ⟨0, _⟩ =>
    show win6_7.index _ (0 : Fin 2) * 4096 ≤ (i 0).val ∧ (i 0).val < win6_7.index _ (0 : Fin 2) * 4096 + 4096
    have h : win6_7.index (⟨0, by show 0 < 1; omega⟩ : Fin cfg6.N) (0 : Fin 2) = 0 := rfl
    omega
  | ⟨1, _⟩ =>
    show win6_7.index _ (1 : Fin 2) * 32 ≤ (i 1).val ∧ (i 1).val < win6_7.index _ (1 : Fin 2) * 32 + 32
    have h : win6_7.index (⟨0, by show 0 < 1; omega⟩ : Fin cfg6.N) (1 : Fin 2) = 0 := rfl
    omega

theorem arr_7 (c : Dev nD) :
    (dat6 V c).arrAt 7 cfg6.N = out6_7 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 V c).arrAt_eq_of_cover 7 _ (fun t _ => flushed_7 V c t) cover_7

theorem read_whole_8 (G : S4096x10.Idx → EReal) (t : Fin cfg6.N) :
    ((cfg6.win 8).blk t).view.read (Elt Ideal) G = G := by
  funext j
  obtain ⟨p, q, rfl⟩ : ∃ (p : Fin 4096) (q : Fin 10), j = ix2 p q := ⟨j 0, j 1, eq_ix2 j⟩
  show G (((cfg6.win 8).blk t).view.emb (ix2 p q)) = G (ix2 p q)
  exact congrArg G (emb_8 t p q)

theorem flushed_8 (c : Dev nD) (t : Fin cfg6.N) :
    (dat6 V c).flushed 8 t = ((cfg6.win 8).blk t).view.read (Elt Ideal)
      (out6_8 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  rw [read_whole_8]
  show (cfg6.win 8).cut (grid6.coords t) ((dat6 V c).after 8 t) = _
  rw [after6_8, iblk_0, iblk_1, iblk_2, iblk_3, iblk_4, iblk_5, iblk_6]
  rfl

theorem mem_blk_8 (t : Fin cfg6.N) (i : S4096x10.Idx) :
    i ∈ ((cfg6.win 8).blk t).view.set ↔ ∀ a : Fin 2, win6_8.index t a * S4096x10.size a ≤ (i a).val ∧ (i a).val < win6_8.index t a * S4096x10.size a + S4096x10.size a := by
  show i ∈ ((View.whole main_v7_1).slice (win6_8.rect t)).set ↔ _
  rw [View.set_slice_whole, Rect.mem_set_unit]
  exact Iff.rfl

theorem cover_8 (i : S4096x10.Idx) :
    ∃ t : Fin cfg6.N, (cfg6.win 8).flush t = true ∧ i ∈ ((cfg6.win 8).blk t).view.set := by
  have hi0 : (i 0).val < 4096 := (i 0).isLt
  have hi1 : (i 1).val < 10 := (i 1).isLt
  refine ⟨⟨0, by show 0 < 1; omega⟩, flush6_8 _, ?_⟩
  rw [mem_blk_8]
  intro a
  match a with
  | ⟨0, _⟩ =>
    show win6_8.index _ (0 : Fin 2) * 4096 ≤ (i 0).val ∧ (i 0).val < win6_8.index _ (0 : Fin 2) * 4096 + 4096
    have h : win6_8.index (⟨0, by show 0 < 1; omega⟩ : Fin cfg6.N) (0 : Fin 2) = 0 := rfl
    omega
  | ⟨1, _⟩ =>
    show win6_8.index _ (1 : Fin 2) * 10 ≤ (i 1).val ∧ (i 1).val < win6_8.index _ (1 : Fin 2) * 10 + 10
    have h : win6_8.index (⟨0, by show 0 < 1; omega⟩ : Fin cfg6.N) (1 : Fin 2) = 0 := rfl
    omega

theorem arr_8 (c : Dev nD) :
    (dat6 V c).arrAt 8 cfg6.N = out6_8 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 V c).arrAt_eq_of_cover 8 _ (fun t _ => flushed_8 V c t) cover_8

theorem read_whole_9 (G : S4096x10.Idx → EReal) (t : Fin cfg6.N) :
    ((cfg6.win 9).blk t).view.read (Elt Ideal) G = G := by
  funext j
  obtain ⟨p, q, rfl⟩ : ∃ (p : Fin 4096) (q : Fin 10), j = ix2 p q := ⟨j 0, j 1, eq_ix2 j⟩
  show G (((cfg6.win 9).blk t).view.emb (ix2 p q)) = G (ix2 p q)
  exact congrArg G (emb_9 t p q)

theorem flushed_9 (c : Dev nD) (t : Fin cfg6.N) :
    (dat6 V c).flushed 9 t = ((cfg6.win 9).blk t).view.read (Elt Ideal)
      (out6_9 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  rw [read_whole_9]
  show (cfg6.win 9).cut (grid6.coords t) ((dat6 V c).after 9 t) = _
  rw [after6_9, iblk_0, iblk_1, iblk_2, iblk_3, iblk_4, iblk_5, iblk_6]
  rfl

theorem mem_blk_9 (t : Fin cfg6.N) (i : S4096x10.Idx) :
    i ∈ ((cfg6.win 9).blk t).view.set ↔ ∀ a : Fin 2, win6_9.index t a * S4096x10.size a ≤ (i a).val ∧ (i a).val < win6_9.index t a * S4096x10.size a + S4096x10.size a := by
  show i ∈ ((View.whole main_v7_2).slice (win6_9.rect t)).set ↔ _
  rw [View.set_slice_whole, Rect.mem_set_unit]
  exact Iff.rfl

theorem cover_9 (i : S4096x10.Idx) :
    ∃ t : Fin cfg6.N, (cfg6.win 9).flush t = true ∧ i ∈ ((cfg6.win 9).blk t).view.set := by
  have hi0 : (i 0).val < 4096 := (i 0).isLt
  have hi1 : (i 1).val < 10 := (i 1).isLt
  refine ⟨⟨0, by show 0 < 1; omega⟩, flush6_9 _, ?_⟩
  rw [mem_blk_9]
  intro a
  match a with
  | ⟨0, _⟩ =>
    show win6_9.index _ (0 : Fin 2) * 4096 ≤ (i 0).val ∧ (i 0).val < win6_9.index _ (0 : Fin 2) * 4096 + 4096
    have h : win6_9.index (⟨0, by show 0 < 1; omega⟩ : Fin cfg6.N) (0 : Fin 2) = 0 := rfl
    omega
  | ⟨1, _⟩ =>
    show win6_9.index _ (1 : Fin 2) * 10 ≤ (i 1).val ∧ (i 1).val < win6_9.index _ (1 : Fin 2) * 10 + 10
    have h : win6_9.index (⟨0, by show 0 < 1; omega⟩ : Fin cfg6.N) (1 : Fin 2) = 0 := rfl
    omega

theorem arr_9 (c : Dev nD) :
    (dat6 V c).arrAt 9 cfg6.N = out6_9 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 V c).arrAt_eq_of_cover 9 _ (fun t _ => flushed_9 V c t) cover_9

theorem read_whole_10 (G : S4096x128.Idx → EReal) (t : Fin cfg6.N) :
    ((cfg6.win 10).blk t).view.read (Elt Ideal) G = G := by
  funext j
  obtain ⟨p, q, rfl⟩ : ∃ (p : Fin 4096) (q : Fin 128), j = ix2 p q := ⟨j 0, j 1, eq_ix2 j⟩
  show G (((cfg6.win 10).blk t).view.emb (ix2 p q)) = G (ix2 p q)
  exact congrArg G (emb_10 t p q)

theorem flushed_10 (c : Dev nD) (t : Fin cfg6.N) :
    (dat6 V c).flushed 10 t = ((cfg6.win 10).blk t).view.read (Elt Ideal)
      (out6_10 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  rw [read_whole_10]
  show (cfg6.win 10).cut (grid6.coords t) ((dat6 V c).after 10 t) = _
  rw [after6_10, iblk_0, iblk_1, iblk_2, iblk_3, iblk_4, iblk_5, iblk_6]
  rfl

theorem mem_blk_10 (t : Fin cfg6.N) (i : S4096x128.Idx) :
    i ∈ ((cfg6.win 10).blk t).view.set ↔ ∀ a : Fin 2, win6_10.index t a * S4096x128.size a ≤ (i a).val ∧ (i a).val < win6_10.index t a * S4096x128.size a + S4096x128.size a := by
  show i ∈ ((View.whole main_v7_3).slice (win6_10.rect t)).set ↔ _
  rw [View.set_slice_whole, Rect.mem_set_unit]
  exact Iff.rfl

theorem cover_10 (i : S4096x128.Idx) :
    ∃ t : Fin cfg6.N, (cfg6.win 10).flush t = true ∧ i ∈ ((cfg6.win 10).blk t).view.set := by
  have hi0 : (i 0).val < 4096 := (i 0).isLt
  have hi1 : (i 1).val < 128 := (i 1).isLt
  refine ⟨⟨0, by show 0 < 1; omega⟩, flush6_10 _, ?_⟩
  rw [mem_blk_10]
  intro a
  match a with
  | ⟨0, _⟩ =>
    show win6_10.index _ (0 : Fin 2) * 4096 ≤ (i 0).val ∧ (i 0).val < win6_10.index _ (0 : Fin 2) * 4096 + 4096
    have h : win6_10.index (⟨0, by show 0 < 1; omega⟩ : Fin cfg6.N) (0 : Fin 2) = 0 := rfl
    omega
  | ⟨1, _⟩ =>
    show win6_10.index _ (1 : Fin 2) * 128 ≤ (i 1).val ∧ (i 1).val < win6_10.index _ (1 : Fin 2) * 128 + 128
    have h : win6_10.index (⟨0, by show 0 < 1; omega⟩ : Fin cfg6.N) (1 : Fin 2) = 0 := rfl
    omega

theorem arr_10 (c : Dev nD) :
    (dat6 V c).arrAt 10 cfg6.N = out6_10 (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 V c).arrAt_eq_of_cover 10 _ (fun t _ => flushed_10 V c t) cover_10

end Arrays

end Cert.Region6

end
-- ==== Proof.Chain.lean ====
/-
  The kernel's four result buffers, from the launch memory.

  Walking the fold of buffer contents from the launch: the first region of a branch leaves the degree factors, the scaled
  features and the adjacency's copy; the second reads those three and the two weights and leaves the scaled hidden
  product; the third reads the copy, that product and the degree factors and leaves the branch's embedding. A region
  keeps every buffer that is not one of its outputs, and the one host operation between the sixth region and the last
  only writes the bias as a row. So the closing region finds the two embeddings, the three remaining weights, the bias
  row and the centres, and its four results are its body's results on those seven arrays.
-/
import proofs.«122668_g52140902973514_cont_8to1_c_536_6_alg».proof.Proof.Gen.KernelIdeal.Frame
import proofs.«122668_g52140902973514_cont_8to1_c_536_6_alg».proof.Proof.Region0
import proofs.«122668_g52140902973514_cont_8to1_c_536_6_alg».proof.Proof.Region1
import proofs.«122668_g52140902973514_cont_8to1_c_536_6_alg».proof.Proof.Region2
import proofs.«122668_g52140902973514_cont_8to1_c_536_6_alg».proof.Proof.Region3
import proofs.«122668_g52140902973514_cont_8to1_c_536_6_alg».proof.Proof.Region4
import proofs.«122668_g52140902973514_cont_8to1_c_536_6_alg».proof.Proof.Region5
import proofs.«122668_g52140902973514_cont_8to1_c_536_6_alg».proof.Proof.Region6
import Idealize.ShloMosaic.Lib.StableHlo.Run
import Idealize.ShloMosaic.Lib.ValueIdx
import Idealize.ShloMosaic.Lib.ValueLayout

set_option maxRecDepth 16384

noncomputable section

namespace Cert.KChain

open Idealize.ShloMosaic Idealize.ShloMosaic.TcCoe Idealize.SL.Sem Cert.KernelIdeal Cert.KernelIdeal.Gen
open Idealize.ShloMosaic.ValueIdx
open Cert.Region0 (dinvArr xpArr abfArr)
open Cert.Region1 (m2Arr)
open Cert.Region2 (hArr)

/-- A branch's embedding array from its adjacency, the features and its two weights. -/
def branchArr (A : S4096x4096.Idx → EReal) (X : S4096x128.Idx → EReal) (W1 : S128x256.Idx → EReal)
    (W2 : S256x64.Idx → EReal) : S4096x64.Idx → EReal :=
  hArr (abfArr A) (m2Arr (abfArr A) (xpArr A X) (dinvArr A) W1 W2) (dinvArr A)

/-- The bias vector as a row. -/
def biasRow (b : S32.Idx → EReal) : S1x32.Idx → EReal := shapeCast S1x32 b shapeCasts_S32_S1x32

variable (m : (ℓ : Loc nD τ sig) → Buf (Elt Ideal) ℓ) (ρ : Dev nD → PrngReg) (c : Dev nD)

/-! ## The first branch: regions 0, 1, 2 -/

theorem v1_dinv : V1 m ρ c main_v0_0 = dinvArr (m ((c : Thread nD τ).loc main_arg1)) :=
  (W1_arr m ρ c 2).trans (Cert.Region0.arr_dinv (V0 m ρ) c)
theorem v1_xp : V1 m ρ c main_v0_1 = xpArr (m ((c : Thread nD τ).loc main_arg1)) (m ((c : Thread nD τ).loc main_arg0)) :=
  (W1_arr m ρ c 3).trans (Cert.Region0.arr_xp (V0 m ρ) c)
theorem v1_abf : V1 m ρ c main_v0_2 = abfArr (m ((c : Thread nD τ).loc main_arg1)) :=
  (W1_arr m ρ c 4).trans (Cert.Region0.arr_abf (V0 m ρ) c)
theorem v1_arg3 : V1 m ρ c main_arg3 = (m ((c : Thread nD τ).loc main_arg3)) := W1_of_ne m ρ c main_arg3 (by decide)
theorem v1_arg4 : V1 m ρ c main_arg4 = (m ((c : Thread nD τ).loc main_arg4)) := W1_of_ne m ρ c main_arg4 (by decide)

theorem v2_m2 : V2 m ρ c main_v1
    = m2Arr (abfArr (m ((c : Thread nD τ).loc main_arg1))) (xpArr (m ((c : Thread nD τ).loc main_arg1)) (m ((c : Thread nD τ).loc main_arg0))) (dinvArr (m ((c : Thread nD τ).loc main_arg1))) (m ((c : Thread nD τ).loc main_arg3)) (m ((c : Thread nD τ).loc main_arg4)) := by
  refine ((W2_arr m ρ c 5).trans (Cert.Region1.arr1 (V1 m ρ) c)).trans ?_
  show m2Arr (V1 m ρ c main_v0_2) (V1 m ρ c main_v0_1) (V1 m ρ c main_v0_0) (V1 m ρ c main_arg3) (V1 m ρ c main_arg4) = _
  rw [v1_abf, v1_xp, v1_dinv, v1_arg3, v1_arg4]
theorem v2_abf : V2 m ρ c main_v0_2 = abfArr (m ((c : Thread nD τ).loc main_arg1)) :=
  ((W2_arr m ρ c 0).trans (((dat1 (V1 m ρ) c).arrAt_in 0 rfl _).trans (A_eq1 (V1 m ρ) c 0))).trans (v1_abf m ρ c)
theorem v2_dinv : V2 m ρ c main_v0_0 = dinvArr (m ((c : Thread nD τ).loc main_arg1)) :=
  ((W2_arr m ρ c 2).trans (((dat1 (V1 m ρ) c).arrAt_in 2 rfl _).trans (A_eq1 (V1 m ρ) c 2))).trans (v1_dinv m ρ c)

theorem v3_h : V3 m ρ c main_v2 = branchArr (m ((c : Thread nD τ).loc main_arg1)) (m ((c : Thread nD τ).loc main_arg0)) (m ((c : Thread nD τ).loc main_arg3)) (m ((c : Thread nD τ).loc main_arg4)) := by
  refine ((W3_arr m ρ c 3).trans (Cert.Region2.arr2 (V2 m ρ) c)).trans ?_
  show hArr (V2 m ρ c main_v0_2) (V2 m ρ c main_v1) (V2 m ρ c main_v0_0) = _
  rw [v2_abf, v2_m2, v2_dinv]
  rfl

/-! ## What the second branch's regions find: arguments no earlier region writes -/

theorem v3_arg2 : V3 m ρ c main_arg2 = (m ((c : Thread nD τ).loc main_arg2)) :=
  calc V3 m ρ c main_arg2
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = (m ((c : Thread nD τ).loc main_arg2)) := rfl
theorem v3_arg0 : V3 m ρ c main_arg0 = (m ((c : Thread nD τ).loc main_arg0)) :=
  calc V3 m ρ c main_arg0
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 1).trans (((dat0 (V0 m ρ) c).arrAt_in 1 rfl _).trans (A_eq0 (V0 m ρ) c 1))
    _ = (m ((c : Thread nD τ).loc main_arg0)) := rfl
theorem v4_arg5 : V4 m ρ c main_arg5 = (m ((c : Thread nD τ).loc main_arg5)) :=
  calc V4 m ρ c main_arg5
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = (m ((c : Thread nD τ).loc main_arg5)) := rfl
theorem v4_arg6 : V4 m ρ c main_arg6 = (m ((c : Thread nD τ).loc main_arg6)) :=
  calc V4 m ρ c main_arg6
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = (m ((c : Thread nD τ).loc main_arg6)) := rfl

/-! ## The second branch: regions 3, 4, 5 -/

theorem v4_dinv : V4 m ρ c main_v3_0 = dinvArr (m ((c : Thread nD τ).loc main_arg2)) := by
  refine ((W4_arr m ρ c 2).trans (Cert.Region3.arr_dinv (V3 m ρ) c)).trans ?_
  show dinvArr (V3 m ρ c main_arg2) = _
  rw [v3_arg2]
theorem v4_xp : V4 m ρ c main_v3_1 = xpArr (m ((c : Thread nD τ).loc main_arg2)) (m ((c : Thread nD τ).loc main_arg0)) := by
  refine ((W4_arr m ρ c 3).trans (Cert.Region3.arr_xp (V3 m ρ) c)).trans ?_
  show xpArr (V3 m ρ c main_arg2) (V3 m ρ c main_arg0) = _
  rw [v3_arg2, v3_arg0]
theorem v4_abf : V4 m ρ c main_v3_2 = abfArr (m ((c : Thread nD τ).loc main_arg2)) := by
  refine ((W4_arr m ρ c 4).trans (Cert.Region3.arr_abf (V3 m ρ) c)).trans ?_
  show abfArr (V3 m ρ c main_arg2) = _
  rw [v3_arg2]

theorem v5_m2 : V5 m ρ c main_v4
    = m2Arr (abfArr (m ((c : Thread nD τ).loc main_arg2))) (xpArr (m ((c : Thread nD τ).loc main_arg2)) (m ((c : Thread nD τ).loc main_arg0))) (dinvArr (m ((c : Thread nD τ).loc main_arg2))) (m ((c : Thread nD τ).loc main_arg5)) (m ((c : Thread nD τ).loc main_arg6)) := by
  refine ((W5_arr m ρ c 5).trans (Cert.Region4.arr4 (V4 m ρ) c)).trans ?_
  show m2Arr (V4 m ρ c main_v3_2) (V4 m ρ c main_v3_1) (V4 m ρ c main_v3_0) (V4 m ρ c main_arg5) (V4 m ρ c main_arg6) = _
  rw [v4_abf, v4_xp, v4_dinv, v4_arg5, v4_arg6]
theorem v5_abf : V5 m ρ c main_v3_2 = abfArr (m ((c : Thread nD τ).loc main_arg2)) :=
  ((W5_arr m ρ c 0).trans (((dat4 (V4 m ρ) c).arrAt_in 0 rfl _).trans (A_eq4 (V4 m ρ) c 0))).trans (v4_abf m ρ c)
theorem v5_dinv : V5 m ρ c main_v3_0 = dinvArr (m ((c : Thread nD τ).loc main_arg2)) :=
  ((W5_arr m ρ c 2).trans (((dat4 (V4 m ρ) c).arrAt_in 2 rfl _).trans (A_eq4 (V4 m ρ) c 2))).trans (v4_dinv m ρ c)

theorem v6_h : V6 m ρ c main_v5 = branchArr (m ((c : Thread nD τ).loc main_arg2)) (m ((c : Thread nD τ).loc main_arg0)) (m ((c : Thread nD τ).loc main_arg5)) (m ((c : Thread nD τ).loc main_arg6)) := by
  refine ((W6_arr m ρ c 3).trans (Cert.Region5.arr5 (V5 m ρ) c)).trans ?_
  show hArr (V5 m ρ c main_v3_2) (V5 m ρ c main_v4) (V5 m ρ c main_v3_0) = _
  rw [v5_abf, v5_m2, v5_dinv]
  rfl

/-! ## What the closing region finds -/

theorem v7_hv : V7 m ρ c main_v2 = branchArr (m ((c : Thread nD τ).loc main_arg1)) (m ((c : Thread nD τ).loc main_arg0)) (m ((c : Thread nD τ).loc main_arg3)) (m ((c : Thread nD τ).loc main_arg4)) :=
  calc V7 m ρ c main_v2
    _ = W6 m ρ c (Proc.devRef .tc main_v2) := StableHlo.after_of_forall_not_mem (b := Proc.devRef .tc main_v2) _ _ (List.forall_iff_forall_mem.mp (by
        simp only [hostOps6, List.flatten_cons, List.flatten_nil, List.append_nil, List.cons_append, List.nil_append,
          List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v2) := W6_of_ne m ρ c main_v2 (by decide)
    _ = W4 m ρ c (Proc.devRef .tc main_v2) := W5_of_ne m ρ c main_v2 (by decide)
    _ = W3 m ρ c (Proc.devRef .tc main_v2) := W4_of_ne m ρ c main_v2 (by decide)
    _ = _ := v3_h m ρ c

theorem v7_hg : V7 m ρ c main_v5 = branchArr (m ((c : Thread nD τ).loc main_arg2)) (m ((c : Thread nD τ).loc main_arg0)) (m ((c : Thread nD τ).loc main_arg5)) (m ((c : Thread nD τ).loc main_arg6)) :=
  calc V7 m ρ c main_v5
    _ = W6 m ρ c (Proc.devRef .tc main_v5) := StableHlo.after_of_forall_not_mem (b := Proc.devRef .tc main_v5) _ _ (List.forall_iff_forall_mem.mp (by
        simp only [hostOps6, List.flatten_cons, List.flatten_nil, List.append_nil, List.cons_append, List.nil_append,
          List.Forall, StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = _ := v6_h m ρ c

theorem v7_arg7 : V7 m ρ c main_arg7 = (m ((c : Thread nD τ).loc main_arg7)) :=
  ((W8_arr m ρ c 2).trans (((dat6 (V7 m ρ) c).arrAt_in 2 rfl _).trans (A_eq6 (V7 m ρ) c 2))).symm.trans (W8_main_arg7 m ρ c)
theorem v7_arg8 : V7 m ρ c main_arg8 = (m ((c : Thread nD τ).loc main_arg8)) :=
  ((W8_arr m ρ c 3).trans (((dat6 (V7 m ρ) c).arrAt_in 3 rfl _).trans (A_eq6 (V7 m ρ) c 3))).symm.trans (W8_main_arg8 m ρ c)
theorem v7_arg9 : V7 m ρ c main_arg9 = (m ((c : Thread nD τ).loc main_arg9)) :=
  ((W8_arr m ρ c 4).trans (((dat6 (V7 m ρ) c).arrAt_in 4 rfl _).trans (A_eq6 (V7 m ρ) c 4))).symm.trans (W8_main_arg9 m ρ c)
theorem v7_arg11 : V7 m ρ c main_arg11 = (m ((c : Thread nD τ).loc main_arg11)) :=
  ((W8_arr m ρ c 6).trans (((dat6 (V7 m ρ) c).arrAt_in 6 rfl _).trans (A_eq6 (V7 m ρ) c 6))).symm.trans (W8_main_arg11 m ρ c)

theorem v6_arg10 : V6 m ρ c main_arg10 = (m ((c : Thread nD τ).loc main_arg10)) :=
  calc V6 m ρ c main_arg10
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = (m ((c : Thread nD τ).loc main_arg10)) := rfl

theorem v7_bias : V7 m ρ c main_v6 = biasRow (m ((c : Thread nD τ).loc main_arg10)) := by
  show StableHlo.after hostOps6 (W6 m ρ c) (Proc.devRef .tc main_v6) = _
  after_results
  rw [show W6 m ρ c (Proc.devRef .tc main_arg10) = m ((c : Thread nD τ).loc main_arg10) from v6_arg10 m ρ c]
  rfl

/-! ## The four results -/

theorem w8_7 : W8 m ρ c (Proc.devRef .tc main_v7_0) = out6_7 (F := Ideal) (branchArr (m ((c : Thread nD τ).loc main_arg1)) (m ((c : Thread nD τ).loc main_arg0)) (m ((c : Thread nD τ).loc main_arg3)) (m ((c : Thread nD τ).loc main_arg4))) (branchArr (m ((c : Thread nD τ).loc main_arg2)) (m ((c : Thread nD τ).loc main_arg0)) (m ((c : Thread nD τ).loc main_arg5)) (m ((c : Thread nD τ).loc main_arg6))) (m ((c : Thread nD τ).loc main_arg7)) (m ((c : Thread nD τ).loc main_arg8)) (m ((c : Thread nD τ).loc main_arg9)) (biasRow (m ((c : Thread nD τ).loc main_arg10))) (m ((c : Thread nD τ).loc main_arg11)) := by
  refine ((W8_arr m ρ c 7).trans (Cert.Region6.arr_7 (V7 m ρ) c)).trans ?_
  show out6_7 (F := Ideal) (V7 m ρ c main_v2) (V7 m ρ c main_v5) (V7 m ρ c main_arg7) (V7 m ρ c main_arg8) (V7 m ρ c main_arg9) (V7 m ρ c main_v6) (V7 m ρ c main_arg11) = _
  rw [v7_hv, v7_hg, v7_arg7, v7_arg8, v7_arg9, v7_bias, v7_arg11]

theorem w8_8 : W8 m ρ c (Proc.devRef .tc main_v7_1) = out6_8 (F := Ideal) (branchArr (m ((c : Thread nD τ).loc main_arg1)) (m ((c : Thread nD τ).loc main_arg0)) (m ((c : Thread nD τ).loc main_arg3)) (m ((c : Thread nD τ).loc main_arg4))) (branchArr (m ((c : Thread nD τ).loc main_arg2)) (m ((c : Thread nD τ).loc main_arg0)) (m ((c : Thread nD τ).loc main_arg5)) (m ((c : Thread nD τ).loc main_arg6))) (m ((c : Thread nD τ).loc main_arg7)) (m ((c : Thread nD τ).loc main_arg8)) (m ((c : Thread nD τ).loc main_arg9)) (biasRow (m ((c : Thread nD τ).loc main_arg10))) (m ((c : Thread nD τ).loc main_arg11)) := by
  refine ((W8_arr m ρ c 8).trans (Cert.Region6.arr_8 (V7 m ρ) c)).trans ?_
  show out6_8 (F := Ideal) (V7 m ρ c main_v2) (V7 m ρ c main_v5) (V7 m ρ c main_arg7) (V7 m ρ c main_arg8) (V7 m ρ c main_arg9) (V7 m ρ c main_v6) (V7 m ρ c main_arg11) = _
  rw [v7_hv, v7_hg, v7_arg7, v7_arg8, v7_arg9, v7_bias, v7_arg11]

theorem w8_9 : W8 m ρ c (Proc.devRef .tc main_v7_2) = out6_9 (F := Ideal) (branchArr (m ((c : Thread nD τ).loc main_arg1)) (m ((c : Thread nD τ).loc main_arg0)) (m ((c : Thread nD τ).loc main_arg3)) (m ((c : Thread nD τ).loc main_arg4))) (branchArr (m ((c : Thread nD τ).loc main_arg2)) (m ((c : Thread nD τ).loc main_arg0)) (m ((c : Thread nD τ).loc main_arg5)) (m ((c : Thread nD τ).loc main_arg6))) (m ((c : Thread nD τ).loc main_arg7)) (m ((c : Thread nD τ).loc main_arg8)) (m ((c : Thread nD τ).loc main_arg9)) (biasRow (m ((c : Thread nD τ).loc main_arg10))) (m ((c : Thread nD τ).loc main_arg11)) := by
  refine ((W8_arr m ρ c 9).trans (Cert.Region6.arr_9 (V7 m ρ) c)).trans ?_
  show out6_9 (F := Ideal) (V7 m ρ c main_v2) (V7 m ρ c main_v5) (V7 m ρ c main_arg7) (V7 m ρ c main_arg8) (V7 m ρ c main_arg9) (V7 m ρ c main_v6) (V7 m ρ c main_arg11) = _
  rw [v7_hv, v7_hg, v7_arg7, v7_arg8, v7_arg9, v7_bias, v7_arg11]

theorem w8_10 : W8 m ρ c (Proc.devRef .tc main_v7_3) = out6_10 (F := Ideal) (branchArr (m ((c : Thread nD τ).loc main_arg1)) (m ((c : Thread nD τ).loc main_arg0)) (m ((c : Thread nD τ).loc main_arg3)) (m ((c : Thread nD τ).loc main_arg4))) (branchArr (m ((c : Thread nD τ).loc main_arg2)) (m ((c : Thread nD τ).loc main_arg0)) (m ((c : Thread nD τ).loc main_arg5)) (m ((c : Thread nD τ).loc main_arg6))) (m ((c : Thread nD τ).loc main_arg7)) (m ((c : Thread nD τ).loc main_arg8)) (m ((c : Thread nD τ).loc main_arg9)) (biasRow (m ((c : Thread nD τ).loc main_arg10))) (m ((c : Thread nD τ).loc main_arg11)) := by
  refine ((W8_arr m ρ c 10).trans (Cert.Region6.arr_10 (V7 m ρ) c)).trans ?_
  show out6_10 (F := Ideal) (V7 m ρ c main_v2) (V7 m ρ c main_v5) (V7 m ρ c main_arg7) (V7 m ρ c main_arg8) (V7 m ρ c main_arg9) (V7 m ρ c main_v6) (V7 m ρ c main_arg11) = _
  rw [v7_hv, v7_hg, v7_arg7, v7_arg8, v7_arg9, v7_bias, v7_arg11]

end Cert.KChain

end
-- ==== Proof.Compose.lean ====
/-
  The kernel's four result arrays are the specification's k-arrangement of the twelve argument arrays.

  A branch's three regions compose to the embedding formula: the third region's product with the adjacency, plus the
  row itself, times the degree factor, of the second region's scaled hidden product, of the first region's scaled
  features — each stage's array read at an index is the corresponding stage of the formula by unfolding. The closing
  region's body results are the fused embedding, the soft assignments, their sharpened targets and the reconstruction of
  the two embeddings it finds.
-/
import proofs.«122668_g52140902973514_cont_8to1_c_536_6_alg».proof.Proof.Chain
import proofs.«122668_g52140902973514_cont_8to1_c_536_6_alg».proof.Proof.Closing
import proofs.«122668_g52140902973514_cont_8to1_c_536_6_alg».proof.Proof.Spec
import Idealize.ShloMosaic.Lib.ValueIdx
import Idealize.ShloMosaic.Lib.ValueLayout

set_option maxRecDepth 16384

noncomputable section

namespace Cert.KCompose

open Idealize.ShloMosaic Idealize.ShloMosaic.TcCoe Idealize.SL.Sem Cert.KernelIdeal Cert.KernelIdeal.Gen
open Idealize.ShloMosaic.ValueIdx
open Cert.Region0 (cur dinvArr xpArr abfArr)
open Cert.Region1 (m2Arr)
open Cert.Region2 (hArr)
open Cert.KChain (branchArr biasRow)

/-- The degree column read at row i. -/
theorem dinv_apply (A : S4096x4096.Idx → EReal) (i : Fin 4096) :
    dinvArr A (ix2 i (0 : Fin 1)) = Spec.kDinv (cur A) i := rfl

/-- The scaled features read at (l, e). -/
theorem xp_apply (A : S4096x4096.Idx → EReal) (X : S4096x128.Idx → EReal) (l : Fin 4096) (e : Fin 128) :
    xpArr A X (ix2 l e) = Spec.kXp (cur A) (cur X) l e := rfl

/-- The scaled hidden product read at (j, o). -/
theorem m2_apply (A : S4096x4096.Idx → EReal) (X : S4096x128.Idx → EReal) (W1 : S128x256.Idx → EReal)
    (W2 : S256x64.Idx → EReal) (j : Fin 4096) (o : Fin 64) :
    m2Arr (abfArr A) (xpArr A X) (dinvArr A) W1 W2 (ix2 j o) = Spec.kM (cur A) (cur X) (cur W1) (cur W2) j o := rfl

/-- A branch's embedding read at (i, o). -/
theorem branch_apply (A : S4096x4096.Idx → EReal) (X : S4096x128.Idx → EReal) (W1 : S128x256.Idx → EReal)
    (W2 : S256x64.Idx → EReal) (i : Fin 4096) (o : Fin 64) :
    branchArr A X W1 W2 (ix2 i o) = Spec.kH (cur A) (cur X) (cur W1) (cur W2) i o := by
  unfold branchArr
  show ((∑ j : Fin 4096, abfArr A (ix2 i j) * m2Arr (abfArr A) (xpArr A X) (dinvArr A) W1 W2 (ix2 j o))
      + m2Arr (abfArr A) (xpArr A X) (dinvArr A) W1 W2 (ix2 i o)) * dinvArr A (ix2 i (0 : Fin 1)) = _
  simp only [m2_apply, dinv_apply]
  rfl

theorem cur_branch (A : S4096x4096.Idx → EReal) (X : S4096x128.Idx → EReal) (W1 : S128x256.Idx → EReal)
    (W2 : S256x64.Idx → EReal) :
    Cert.Closing.cur (branchArr A X W1 W2) = Spec.kH (cur A) (cur X) (cur W1) (cur W2) :=
  funext fun i => funext fun o => branch_apply A X W1 W2 i o

/-- The bias row read at column o. -/
theorem row_bias (b : S32.Idx → EReal) : Cert.Closing.row (biasRow b) = fun o => b (ix1 o) :=
  funext fun o => shapeCast_a_1a_apply b shapeCasts_S32_S1x32 (0 : Fin 1) o

section Results

variable (a0 : S4096x128.Idx → EReal) (a1 a2 : S4096x4096.Idx → EReal) (a3 : S128x256.Idx → EReal) (a4 : S256x64.Idx → EReal)
  (a5 : S128x256.Idx → EReal) (a6 : S256x64.Idx → EReal) (a7 : S64x256.Idx → EReal) (a8 : S256x128.Idx → EReal)
  (a9 : S128x32.Idx → EReal) (a10 : S32.Idx → EReal) (a11 : S10x32.Idx → EReal)

/-- The fused embedding the closing region computes from the two branch embeddings. -/
theorem H_eq : Cert.Closing.H (branchArr a1 a0 a3 a4) (branchArr a2 a0 a5 a6) a9 (biasRow a10)
    = Spec.kOutH (cur a0) (cur a1) (cur a2) (cur a3) (cur a4) (cur a5) (cur a6) (cur a9) (fun o => a10 (ix1 o)) := by
  funext i o
  show Ideal.tanh (Spec.kFuse (Cert.Closing.cur (branchArr a1 a0 a3 a4)) (Cert.Closing.cur (branchArr a2 a0 a5 a6))
    (Cert.Closing.cur a9) (Cert.Closing.row (biasRow a10)) i o) = _
  rw [cur_branch, cur_branch, row_bias]
  rfl

theorem outH (i : Fin 4096) (o : Fin 32) :
    out6_7 (F := Ideal) (branchArr a1 a0 a3 a4) (branchArr a2 a0 a5 a6) a7 a8 a9 (biasRow a10) a11 (ix2 i o)
      = Spec.kOutH (cur a0) (cur a1) (cur a2) (cur a3) (cur a4) (cur a5) (cur a6) (cur a9) (fun o => a10 (ix1 o)) i o :=
  (Cert.Closing.out6_7_apply _ _ a7 a8 a9 _ a11 i o).trans (congrFun (congrFun (H_eq a0 a1 a2 a3 a4 a5 a6 a9 a10) i) o)

theorem outQ (i : Fin 4096) (k : Fin 10) :
    out6_8 (F := Ideal) (branchArr a1 a0 a3 a4) (branchArr a2 a0 a5 a6) a7 a8 a9 (biasRow a10) a11 (ix2 i k)
      = Spec.kOutQ (cur a0) (cur a1) (cur a2) (cur a3) (cur a4) (cur a5) (cur a6) (cur a9) (fun o => a10 (ix1 o)) (cur a11) i k := by
  refine (Cert.Closing.out6_8_apply _ _ a7 a8 a9 _ a11 i k).trans ?_
  rw [H_eq]
  rfl

theorem outP (i : Fin 4096) (k : Fin 10) :
    out6_9 (F := Ideal) (branchArr a1 a0 a3 a4) (branchArr a2 a0 a5 a6) a7 a8 a9 (biasRow a10) a11 (ix2 i k)
      = Spec.kOutP (cur a0) (cur a1) (cur a2) (cur a3) (cur a4) (cur a5) (cur a6) (cur a9) (fun o => a10 (ix1 o)) (cur a11) i k := by
  refine (Cert.Closing.out6_9_apply _ _ a7 a8 a9 _ a11 i k).trans ?_
  rw [H_eq]
  rfl

theorem outX (i : Fin 4096) (e : Fin 128) :
    out6_10 (F := Ideal) (branchArr a1 a0 a3 a4) (branchArr a2 a0 a5 a6) a7 a8 a9 (biasRow a10) a11 (ix2 i e)
      = Spec.kOutX (cur a0) (cur a1) (cur a3) (cur a4) (cur a7) (cur a8) i e := by
  refine (Cert.Closing.out6_10_apply _ _ a7 a8 a9 _ a11 i e).trans ?_
  rw [cur_branch]
  rfl

end Results

end Cert.KCompose

end
-- ==== Proof.RefValue.lean ====
/-
  The reference program read at coordinates.

  Each of the reference's four results, read at an index built from coordinates, is the formula of the arrangement
  "r" of Spec.lean applied to the argument arrays read by coordinates.  The proof follows the program stage by stage:
  A + I (the identity's entry comes from comparing the two coordinates), its row sums, the inverse square roots, the
  normalised adjacency, each matrix product as a sum over the contracted coordinate, the rectifier, the joined
  embeddings, the fused layer, the squared distances to the centres, and the two normalisations of the soft
  assignment.  Every stage lemma is stated at explicit coordinates over the literal array extents.
-/
import proofs.«122668_g52140902973514_cont_8to1_c_536_6_alg».proof.Proof.ReadP
import proofs.«122668_g52140902973514_cont_8to1_c_536_6_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.RefBridge

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## Vocabulary -/

/-- A rank-2 array read by its two coordinates. -/
abbrev cur {n0 n1 : ℕ} (a : (⟨2, ![n0, n1]⟩ : Shape).Idx → EReal) (i : Fin n0) (j : Fin n1) : EReal := a (ix2 i j)
/-- A rank-1 array read by its coordinate. -/
abbrev cur1 {n : ℕ} (a : (⟨1, ![n]⟩ : Shape).Idx → EReal) (o : Fin n) : EReal := a (ix1 o)

/-- Two rank-1 indices with the same coordinate are equal. -/
local macro "idx1" : tactic => `(tactic| (funext a; match a with | ⟨0, _⟩ => rfl))
/-- Two rank-2 indices with the same coordinates are equal. -/
local macro "idx2" : tactic => `(tactic| (funext a; match a with | ⟨0, _⟩ => rfl | ⟨1, _⟩ => rfl))
/-- Two rank-3 indices with the same coordinates are equal. -/
local macro "idx3" : tactic => `(tactic| (funext a; match a with | ⟨0, _⟩ => rfl | ⟨1, _⟩ => rfl | ⟨2, _⟩ => rfl))

/-- The f32 word 0x3F800000 denotes 1. -/
theorem ofBits_one_f32 : Ideal.ofBits .f32 0x3F800000#32 = 1 := by
  simp [Ideal.ofBits, Ideal.ieee]
  first
    | (rw [← EReal.coe_mul, ← EReal.coe_one]; congr 1; norm_num; done)
    | (norm_cast; norm_num; done)
    | (rw [← EReal.coe_mul]; norm_num; done)

/-- An entry of the identity, built by comparing the 32-bit words of the two coordinates: 1 on the diagonal, 0 off it. -/
theorem eye_entry (i j : Fin 4096) :
    FloatOps.uitofp (F := Ideal) .f32 (IntOp.cmpi .eq (IntOp.addi (BitVec.ofNat 32 i.val) 0#32) (BitVec.ofNat 32 j.val))
      = if i = j then (1 : EReal) else 0 := by
  have hne : (BitVec.ofNat 32 i.val == BitVec.ofNat 32 j.val) = decide (i = j) := by
    rw [Bool.eq_iff_iff]
    simp only [beq_iff_eq, decide_eq_true_eq]
    constructor
    · intro h
      have h2 := congrArg BitVec.toNat h
      simp only [BitVec.toNat_ofNat] at h2
      have hi := i.isLt; have hj := j.isLt
      rw [Nat.mod_eq_of_lt (by omega), Nat.mod_eq_of_lt (by omega)] at h2
      exact Fin.ext h2
    · rintro rfl; rfl
  show (((BitVec.ofBool (BitVec.ofNat 32 i.val + 0#32 == BitVec.ofNat 32 j.val)).toNat : ℝ) : EReal) = _
  rw [BitVec.add_zero, hne]
  by_cases h : i = j
  · simp [h]
  · simp [h]

/-- Two [4096,64] arrays joined along the feature axis, read at (i,k): the first array at (i,k) for k below 64, the
    second at (i,k-64) from 64 on. -/
theorem concat_at (hc : Shape.Concatenates [S4096x64, S4096x64] S4096x128 1) (y1 y2 : S4096x64.Idx → EReal)
    (i : Fin 4096) (k : Fin 128) :
    concatenate S4096x128 1 [⟨S4096x64, y1⟩, ⟨S4096x64, y2⟩] hc (ix2 i k)
      = if h : k.val < 64 then y1 (ix2 i ⟨k.val, h⟩) else y2 (ix2 i ⟨k.val - 64, by omega⟩) := by
  by_cases h : k.val < 64
  · rw [dif_pos h]
    exact concatenate_pair_apply_left (1 : Fin S4096x128.rank) y1 y2 hc (ix2 i k) rfl (ix2 i ⟨k.val, h⟩)
      (fun b => by match b with | ⟨0, _⟩ => rfl | ⟨1, _⟩ => rfl)
  · rw [dif_neg h]
    exact concatenate_pair_apply_right (1 : Fin S4096x128.rank) y1 y2 hc (ix2 i k) rfl rfl (ix2 i ⟨k.val - 64, by omega⟩)
      (fun b hb => by
        match b, hb with
        | ⟨0, _⟩, _ => rfl
        | ⟨1, _⟩, hb => exact absurd rfl hb)
      (by show k.val - 64 + 64 = k.val; omega)

variable (x0 : (⟨S4096x128, .f32⟩ : BufTy).Contents (Elt Ideal)) (x1 x2 : (⟨S4096x4096, .f32⟩ : BufTy).Contents (Elt Ideal))
  (x3 : (⟨S128x256, .f32⟩ : BufTy).Contents (Elt Ideal)) (x4 : (⟨S256x64, .f32⟩ : BufTy).Contents (Elt Ideal))
  (x5 : (⟨S128x256, .f32⟩ : BufTy).Contents (Elt Ideal)) (x6 : (⟨S256x64, .f32⟩ : BufTy).Contents (Elt Ideal))
  (x7 : (⟨S64x256, .f32⟩ : BufTy).Contents (Elt Ideal)) (x8 : (⟨S256x128, .f32⟩ : BufTy).Contents (Elt Ideal))
  (x9 : (⟨S128x32, .f32⟩ : BufTy).Contents (Elt Ideal)) (x10 : (⟨S32, .f32⟩ : BufTy).Contents (Elt Ideal))
  (x11 : (⟨S10x32, .f32⟩ : BufTy).Contents (Elt Ideal))

/-! ## The view branch (adjacency `x1`, weights `x3`, `x4`) -/

/-- A + I at (i,j). -/
theorem v6_at (i j : Fin 4096) : val_main_v6 (F := Ideal) x1 (ix2 i j) = Spec.rAp (cur x1) i j := by
  rw [val_main_v6_apply, val_main_v5_apply, val_main_v4_apply, val_main_v3_apply, val_main_v0_apply,
    val_main_v1_apply, val_main_v2_apply, val_main_c_apply]
  exact congrArg (x1 (ix2 i j) + ·) (eye_entry i j)

/-- The row sums of A + I. -/
theorem v7_at (i : Fin 4096) : val_main_v7 (F := Ideal) x1 (ix1 i) = ∑ j, Spec.rAp (cur x1) i j := by
  rw [val_main_v7_apply, val_main_cst_apply, Ideal.ofBits_def, Ideal.ofBits_zero_f32, zero_add]
  refine Finset.sum_congr rfl fun k _ => ?_
  rw [show idx_main_v7 (ix1 i) k = ix2 i k from by idx2, v6_at]

/-- The inverse square root of the clamped degree. -/
theorem v10_at (i : Fin 4096) : val_main_v10 (F := Ideal) x1 (ix1 i) = Spec.rDinv (cur x1) i := by
  rw [val_main_v10_apply, val_main_v9_apply, v7_at, val_main_v8_apply, val_main_cst_0_apply]
  rfl

/-- The normalised adjacency at (i,j). -/
theorem v16_at (i j : Fin 4096) : val_main_v16 (F := Ideal) x1 (ix2 i j) = Spec.rAn (cur x1) i j := by
  rw [val_main_v16_apply, val_main_v13_apply, val_main_v12_apply, val_main_v11_apply, val_main_v15_apply,
    val_main_v14_apply, v6_at,
    show idx_main_v11 (idx_main_v12 (ix2 i j)) = ix1 i from by idx1,
    show idx_main_v14 (idx_main_v15 (ix2 i j)) = ix1 j from by idx1, v10_at, v10_at]
  rfl

/-- X W1 at (j,h). -/
theorem v34_at (j : Fin 4096) (h : Fin 256) :
    val_main_v34 (F := Ideal) x0 x3 (ix2 j h) = Spec.rXW (cur x0) (cur x3) j h := by
  rw [val_main_v34_apply]; unfold Spec.rXW
  refine Finset.sum_congr rfl fun k _ => ?_
  rw [show lidx_main_v34 (ix2 j h) k = ix2 j k from by idx2, show ridx_main_v34 (ix2 j h) k = ix2 k h from by idx2]

/-- An (X W1) at (i,h). -/
theorem v35_at (i : Fin 4096) (h : Fin 256) :
    val_main_v35 (F := Ideal) x0 x1 x3 (ix2 i h) = ∑ j, Spec.rAn (cur x1) i j * Spec.rXW (cur x0) (cur x3) j h := by
  rw [val_main_v35_apply]
  refine Finset.sum_congr rfl fun k _ => ?_
  rw [show lidx_main_v35 (ix2 i h) k = ix2 i k from by idx2, show ridx_main_v35 (ix2 i h) k = ix2 k h from by idx2,
    v16_at, v34_at]

/-- The first layer's activations. -/
theorem v36_at (i : Fin 4096) (h : Fin 256) :
    val_main_v36 (F := Ideal) x0 x1 x3 (ix2 i h) = Spec.rR (cur x1) (cur x0) (cur x3) i h := by
  rw [val_main_v36_apply, v35_at, val_main_call0_v0_apply, val_main_call0_cst_apply, Ideal.ofBits_def, Ideal.ofBits_zero_f32]
  rfl

/-- An relu(...) at (i,h). -/
theorem v37_at (i : Fin 4096) (h : Fin 256) :
    val_main_v37 (F := Ideal) x0 x1 x3 (ix2 i h) = Spec.rQ (cur x1) (cur x0) (cur x3) i h := by
  rw [val_main_v37_apply]; unfold Spec.rQ
  refine Finset.sum_congr rfl fun k _ => ?_
  rw [show lidx_main_v37 (ix2 i h) k = ix2 i k from by idx2, show ridx_main_v37 (ix2 i h) k = ix2 k h from by idx2,
    v16_at, v36_at]

/-- The branch's embedding at (i,o). -/
theorem v38_at (i : Fin 4096) (o : Fin 64) :
    val_main_v38 (F := Ideal) x0 x1 x3 x4 (ix2 i o) = Spec.rH (cur x1) (cur x0) (cur x3) (cur x4) i o := by
  rw [val_main_v38_apply]; unfold Spec.rH
  refine Finset.sum_congr rfl fun k _ => ?_
  rw [show lidx_main_v38 (ix2 i o) k = ix2 i k from by idx2, show ridx_main_v38 (ix2 i o) k = ix2 k o from by idx2, v37_at]

/-! ## The global branch (adjacency `x2`, weights `x5`, `x6`) -/

/-- A + I at (i,j). -/
theorem v23_at (i j : Fin 4096) : val_main_v23 (F := Ideal) x2 (ix2 i j) = Spec.rAp (cur x2) i j := by
  rw [val_main_v23_apply, val_main_v22_apply, val_main_v21_apply, val_main_v20_apply, val_main_v17_apply,
    val_main_v18_apply, val_main_v19_apply, val_main_c_1_apply]
  exact congrArg (x2 (ix2 i j) + ·) (eye_entry i j)

/-- The row sums of A + I. -/
theorem v24_at (i : Fin 4096) : val_main_v24 (F := Ideal) x2 (ix1 i) = ∑ j, Spec.rAp (cur x2) i j := by
  rw [val_main_v24_apply, val_main_cst_2_apply, Ideal.ofBits_def, Ideal.ofBits_zero_f32, zero_add]
  refine Finset.sum_congr rfl fun k _ => ?_
  rw [show idx_main_v24 (ix1 i) k = ix2 i k from by idx2, v23_at]

/-- The inverse square root of the clamped degree. -/
theorem v27_at (i : Fin 4096) : val_main_v27 (F := Ideal) x2 (ix1 i) = Spec.rDinv (cur x2) i := by
  rw [val_main_v27_apply, val_main_v26_apply, v24_at, val_main_v25_apply, val_main_cst_3_apply]
  rfl

/-- The normalised adjacency at (i,j). -/
theorem v33_at (i j : Fin 4096) : val_main_v33 (F := Ideal) x2 (ix2 i j) = Spec.rAn (cur x2) i j := by
  rw [val_main_v33_apply, val_main_v30_apply, val_main_v29_apply, val_main_v28_apply, val_main_v32_apply,
    val_main_v31_apply, v23_at,
    show idx_main_v28 (idx_main_v29 (ix2 i j)) = ix1 i from by idx1,
    show idx_main_v31 (idx_main_v32 (ix2 i j)) = ix1 j from by idx1, v27_at, v27_at]
  rfl

/-- X W1 at (j,h). -/
theorem v39_at (j : Fin 4096) (h : Fin 256) :
    val_main_v39 (F := Ideal) x0 x5 (ix2 j h) = Spec.rXW (cur x0) (cur x5) j h := by
  rw [val_main_v39_apply]; unfold Spec.rXW
  refine Finset.sum_congr rfl fun k _ => ?_
  rw [show lidx_main_v39 (ix2 j h) k = ix2 j k from by idx2, show ridx_main_v39 (ix2 j h) k = ix2 k h from by idx2]

/-- An (X W1) at (i,h). -/
theorem v40_at (i : Fin 4096) (h : Fin 256) :
    val_main_v40 (F := Ideal) x0 x2 x5 (ix2 i h) = ∑ j, Spec.rAn (cur x2) i j * Spec.rXW (cur x0) (cur x5) j h := by
  rw [val_main_v40_apply]
  refine Finset.sum_congr rfl fun k _ => ?_
  rw [show lidx_main_v40 (ix2 i h) k = ix2 i k from by idx2, show ridx_main_v40 (ix2 i h) k = ix2 k h from by idx2,
    v33_at, v39_at]

/-- The first layer's activations. -/
theorem v41_at (i : Fin 4096) (h : Fin 256) :
    val_main_v41 (F := Ideal) x0 x2 x5 (ix2 i h) = Spec.rR (cur x2) (cur x0) (cur x5) i h := by
  rw [val_main_v41_apply, v40_at, val_main_call1_v0_apply, val_main_call1_cst_apply, Ideal.ofBits_def, Ideal.ofBits_zero_f32]
  rfl

/-- An relu(...) at (i,h). -/
theorem v42_at (i : Fin 4096) (h : Fin 256) :
    val_main_v42 (F := Ideal) x0 x2 x5 (ix2 i h) = Spec.rQ (cur x2) (cur x0) (cur x5) i h := by
  rw [val_main_v42_apply]; unfold Spec.rQ
  refine Finset.sum_congr rfl fun k _ => ?_
  rw [show lidx_main_v42 (ix2 i h) k = ix2 i k from by idx2, show ridx_main_v42 (ix2 i h) k = ix2 k h from by idx2,
    v33_at, v41_at]

/-- The branch's embedding at (i,o). -/
theorem v43_at (i : Fin 4096) (o : Fin 64) :
    val_main_v43 (F := Ideal) x0 x2 x5 x6 (ix2 i o) = Spec.rH (cur x2) (cur x0) (cur x5) (cur x6) i o := by
  rw [val_main_v43_apply]; unfold Spec.rH
  refine Finset.sum_congr rfl fun k _ => ?_
  rw [show lidx_main_v43 (ix2 i o) k = ix2 i k from by idx2, show ridx_main_v43 (ix2 i o) k = ix2 k o from by idx2, v42_at]

/-! ## The closing stage -/

/-- The view embedding through the first decoder weight, at (i,h). -/
theorem v44_at (i : Fin 4096) (h : Fin 256) :
    val_main_v44 (F := Ideal) x0 x1 x3 x4 x7 (ix2 i h) = ∑ k : Fin 64, Spec.rH (cur x1) (cur x0) (cur x3) (cur x4) i k * cur x7 k h := by
  rw [val_main_v44_apply]
  refine Finset.sum_congr rfl fun k _ => ?_
  rw [show lidx_main_v44 (ix2 i h) k = ix2 i k from by idx2, show ridx_main_v44 (ix2 i h) k = ix2 k h from by idx2, v38_at]

/-- The decoder's hidden activations at (i,h). -/
theorem v45_at (i : Fin 4096) (h : Fin 256) :
    val_main_v45 (F := Ideal) x0 x1 x3 x4 x7 (ix2 i h) = max (∑ k : Fin 64, Spec.rH (cur x1) (cur x0) (cur x3) (cur x4) i k * cur x7 k h) 0 := by
  rw [val_main_v45_apply, v44_at, val_main_call2_v0_apply, val_main_call2_cst_apply, Ideal.ofBits_def, Ideal.ofBits_zero_f32]
  all_goals rfl

/-- RESULT X_hat: the reconstructed features at (i,e). -/
theorem refX (i : Fin 4096) (e : Fin 128) :
    val_main_v46 (F := Ideal) x0 x1 x3 x4 x7 x8 (ix2 i e)
      = Spec.rOutX (cur x0) (cur x1) (cur x3) (cur x4) (cur x7) (cur x8) i e := by
  rw [val_main_v46_apply]; unfold Spec.rOutX Spec.eXhat
  refine Finset.sum_congr rfl fun k _ => ?_
  rw [show lidx_main_v46 (ix2 i e) k = ix2 i k from by idx2, show ridx_main_v46 (ix2 i e) k = ix2 k e from by idx2, v45_at]

/-- The two embeddings joined along the feature axis, at (i,k). -/
theorem v47_at (i : Fin 4096) (k : Fin 128) :
    val_main_v47 (F := Ideal) x0 x1 x2 x3 x4 x5 x6 (ix2 i k) = Spec.rCat (Spec.rH (cur x1) (cur x0) (cur x3) (cur x4)) (Spec.rH (cur x2) (cur x0) (cur x5) (cur x6)) i k := by
  unfold Spec.rCat
  refine (concat_at concatenates_S4096x64_S4096x64_S4096x128_d1 (val_main_v38 (F := Ideal) x0 x1 x3 x4)
    (val_main_v43 (F := Ideal) x0 x2 x5 x6) i k).trans ?_
  by_cases h : k.val < 64
  · rw [dif_pos h, dif_pos h, v38_at]
  · rw [dif_neg h, dif_neg h, v43_at]

/-- The joined embeddings through the fusion weight, at (i,o). -/
theorem v48_at (i : Fin 4096) (o : Fin 32) :
    val_main_v48 (F := Ideal) x0 x1 x2 x3 x4 x5 x6 x9 (ix2 i o)
      = ∑ k : Fin 128, Spec.rCat (Spec.rH (cur x1) (cur x0) (cur x3) (cur x4)) (Spec.rH (cur x2) (cur x0) (cur x5) (cur x6)) i k * cur x9 k o := by
  rw [val_main_v48_apply]
  refine Finset.sum_congr rfl fun k _ => ?_
  rw [show lidx_main_v48 (ix2 i o) k = ix2 i k from by idx2, show ridx_main_v48 (ix2 i o) k = ix2 k o from by idx2, v47_at]

/-- RESULT h: the fused embedding at (i,o). -/
theorem refH (i : Fin 4096) (o : Fin 32) :
    val_main_v52 (F := Ideal) x0 x1 x2 x3 x4 x5 x6 x9 x10 (ix2 i o)
      = Spec.rOutH (cur x0) (cur x1) (cur x2) (cur x3) (cur x4) (cur x5) (cur x6) (cur x9) (fun o => x10 (ix1 o)) i o := by
  rw [val_main_v52_apply, val_main_v51_apply, v48_at, val_main_v50_apply, val_main_v49_apply,
    show idx_main_v49 (idx_main_v50 (ix2 i o)) = ix1 o from by idx1]
  all_goals rfl

/-- The fused embedding of the arrangement "r", from the arrays. -/
local notation "hR" => Spec.rOutH (cur x0) (cur x1) (cur x2) (cur x3) (cur x4) (cur x5) (cur x6) (cur x9) (fun o => x10 (ix1 o))
/-- Its squared distances to the centres. -/
local notation "dR" => Spec.rDist2 (cur x11) hR

/-- The squared distance of row i to centre k. -/
theorem v59_at (i : Fin 4096) (k : Fin 10) :
    val_main_v59 (F := Ideal) x0 x1 x2 x3 x4 x5 x6 x9 x10 x11 (ix2 i k) = dR i k := by
  rw [val_main_v59_apply, val_main_cst_4_apply, Ideal.ofBits_def, Ideal.ofBits_zero_f32, zero_add]
  unfold Spec.rDist2
  refine Finset.sum_congr rfl fun e _ => ?_
  rw [val_main_v58_apply, val_main_v57_apply, val_main_v55_apply, val_main_v53_apply, val_main_v56_apply, val_main_v54_apply,
    show idx_main_v53 (idx_main_v55 (idx_main_v59 (ix2 i k) e)) = ix2 i e from by idx2,
    show idx_main_v54 (idx_main_v56 (idx_main_v59 (ix2 i k) e)) = ix2 k e from by idx2, refH]
  all_goals rfl

/-- The Student-t kernel before normalisation, at (i,k). -/
theorem v63_at (i : Fin 4096) (k : Fin 10) :
    val_main_v63 (F := Ideal) x0 x1 x2 x3 x4 x5 x6 x9 x10 x11 (ix2 i k) = Spec.q0 dR i k := by
  rw [val_main_v63_apply, val_main_v62_apply, val_main_cst_6_apply, val_main_v61_apply, val_main_v60_apply, val_main_cst_5_apply,
    v59_at, Ideal.ofBits_def, ofBits_one_f32]
  all_goals rfl

/-- Its row sums. -/
theorem v64_at (i : Fin 4096) :
    val_main_v64 (F := Ideal) x0 x1 x2 x3 x4 x5 x6 x9 x10 x11 (ix1 i) = ∑ k', Spec.q0 dR i k' := by
  rw [val_main_v64_apply, val_main_cst_7_apply, Ideal.ofBits_def, Ideal.ofBits_zero_f32, zero_add]
  refine Finset.sum_congr rfl fun k _ => ?_
  rw [show idx_main_v64 (ix1 i) k = ix2 i k from by idx2, v63_at]

/-- RESULT q: the soft assignment at (i,k). -/
theorem refQ (i : Fin 4096) (k : Fin 10) :
    val_main_v67 (F := Ideal) x0 x1 x2 x3 x4 x5 x6 x9 x10 x11 (ix2 i k)
      = Spec.rOutQ (cur x0) (cur x1) (cur x2) (cur x3) (cur x4) (cur x5) (cur x6) (cur x9) (fun o => x10 (ix1 o)) (cur x11) i k := by
  rw [val_main_v67_apply, v63_at, val_main_v66_apply, val_main_v65_apply,
    show idx_main_v65 (idx_main_v66 (ix2 i k)) = ix1 i from by idx1, v64_at]
  all_goals rfl

/-- The soft cluster frequencies: the column sums of q. -/
theorem v68_at (k : Fin 10) :
    val_main_v68 (F := Ideal) x0 x1 x2 x3 x4 x5 x6 x9 x10 x11 (ix1 k) = Spec.freq dR k := by
  rw [val_main_v68_apply, val_main_cst_8_apply, Ideal.ofBits_def, Ideal.ofBits_zero_f32, zero_add]
  unfold Spec.freq
  refine Finset.sum_congr rfl fun i _ => ?_
  rw [show idx_main_v68 (ix1 k) i = ix2 i k from by idx2, refQ]
  all_goals rfl

/-- The sharpened assignment before normalisation, at (i,k). -/
theorem v72_at (i : Fin 4096) (k : Fin 10) :
    val_main_v72 (F := Ideal) x0 x1 x2 x3 x4 x5 x6 x9 x10 x11 (ix2 i k) = Spec.p0 dR i k := by
  rw [val_main_v72_apply, val_main_v69_apply, refQ, val_main_v71_apply, val_main_v70_apply,
    show idx_main_v70 (idx_main_v71 (ix2 i k)) = ix1 k from by idx1, v68_at]
  all_goals rfl

/-- Its row sums. -/
theorem v73_at (i : Fin 4096) :
    val_main_v73 (F := Ideal) x0 x1 x2 x3 x4 x5 x6 x9 x10 x11 (ix1 i) = ∑ k', Spec.p0 dR i k' := by
  rw [val_main_v73_apply, val_main_cst_9_apply, Ideal.ofBits_def, Ideal.ofBits_zero_f32, zero_add]
  refine Finset.sum_congr rfl fun k _ => ?_
  rw [show idx_main_v73 (ix1 i) k = ix2 i k from by idx2, v72_at]

/-- RESULT p: the target distribution at (i,k). -/
theorem refP (i : Fin 4096) (k : Fin 10) :
    val_main_v76 (F := Ideal) x0 x1 x2 x3 x4 x5 x6 x9 x10 x11 (ix2 i k)
      = Spec.rOutP (cur x0) (cur x1) (cur x2) (cur x3) (cur x4) (cur x5) (cur x6) (cur x9) (fun o => x10 (ix1 o)) (cur x11) i k := by
  rw [val_main_v76_apply, v72_at, val_main_v75_apply, val_main_v74_apply,
    show idx_main_v74 (idx_main_v75 (ix2 i k)) = ix1 i from by idx1, v73_at]
  all_goals rfl

/-! ## The same four, on the terms the run states -/

section Results

variable (m : (ℓ : Loc nD τ sig) → Buf (Elt Ideal) ℓ) (c : Dev nD)

/-- RESULT h on the run's term for it: the argument arrays are the launch memory's. -/
theorem res_refH (i : Fin 4096) (o : Fin 32) :
    Cert.ReferenceIdeal.ValueP.res_main_v52 m c (ix2 i o) = Spec.rOutH (cur (m ((c.tc : Thread nD τ).loc main_arg0))) (cur (m ((c.tc : Thread nD τ).loc main_arg1))) (cur (m ((c.tc : Thread nD τ).loc main_arg2))) (cur (m ((c.tc : Thread nD τ).loc main_arg3))) (cur (m ((c.tc : Thread nD τ).loc main_arg4))) (cur (m ((c.tc : Thread nD τ).loc main_arg5))) (cur (m ((c.tc : Thread nD τ).loc main_arg6))) (cur (m ((c.tc : Thread nD τ).loc main_arg9))) (fun o => m ((c.tc : Thread nD τ).loc main_arg10) (ix1 o)) i o :=
  (congrFun (val_main_v52_eq m c) (ix2 i o)).trans (refH _ _ _ _ _ _ _ _ _ i o)

/-- RESULT q on the run's term for it. -/
theorem res_refQ (i : Fin 4096) (k : Fin 10) :
    Cert.ReferenceIdeal.ValueP.res_main_v67 m c (ix2 i k) = Spec.rOutQ (cur (m ((c.tc : Thread nD τ).loc main_arg0))) (cur (m ((c.tc : Thread nD τ).loc main_arg1))) (cur (m ((c.tc : Thread nD τ).loc main_arg2))) (cur (m ((c.tc : Thread nD τ).loc main_arg3))) (cur (m ((c.tc : Thread nD τ).loc main_arg4))) (cur (m ((c.tc : Thread nD τ).loc main_arg5))) (cur (m ((c.tc : Thread nD τ).loc main_arg6))) (cur (m ((c.tc : Thread nD τ).loc main_arg9))) (fun o => m ((c.tc : Thread nD τ).loc main_arg10) (ix1 o)) (cur (m ((c.tc : Thread nD τ).loc main_arg11))) i k :=
  (congrFun (val_main_v67_eq m c) (ix2 i k)).trans (refQ _ _ _ _ _ _ _ _ _ _ i k)

/-- RESULT p on the run's term for it. -/
theorem res_refP (i : Fin 4096) (k : Fin 10) :
    Cert.ReferenceIdeal.ValueP.res_main_v76 m c (ix2 i k) = Spec.rOutP (cur (m ((c.tc : Thread nD τ).loc main_arg0))) (cur (m ((c.tc : Thread nD τ).loc main_arg1))) (cur (m ((c.tc : Thread nD τ).loc main_arg2))) (cur (m ((c.tc : Thread nD τ).loc main_arg3))) (cur (m ((c.tc : Thread nD τ).loc main_arg4))) (cur (m ((c.tc : Thread nD τ).loc main_arg5))) (cur (m ((c.tc : Thread nD τ).loc main_arg6))) (cur (m ((c.tc : Thread nD τ).loc main_arg9))) (fun o => m ((c.tc : Thread nD τ).loc main_arg10) (ix1 o)) (cur (m ((c.tc : Thread nD τ).loc main_arg11))) i k :=
  (congrFun (val_main_v76_eq m c) (ix2 i k)).trans (refP _ _ _ _ _ _ _ _ _ _ i k)

/-- RESULT X_hat on any buffer that holds the run's term for it (the run states that term in line; it is the last
    product's stage by unfolding). -/
theorem res_refX (b : (⟨S4096x128, .f32⟩ : BufTy).Contents (Elt Ideal))
    (hb : b = val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)))
    (i : Fin 4096) (e : Fin 128) :
    b (ix2 i e) = Spec.rOutX (cur (m ((c.tc : Thread nD τ).loc main_arg0))) (cur (m ((c.tc : Thread nD τ).loc main_arg1))) (cur (m ((c.tc : Thread nD τ).loc main_arg3))) (cur (m ((c.tc : Thread nD τ).loc main_arg4))) (cur (m ((c.tc : Thread nD τ).loc main_arg7))) (cur (m ((c.tc : Thread nD τ).loc main_arg8))) i e := by
  subst hb
  exact refX _ _ _ _ _ _ i e

end Results

end Cert.RefBridge

end
-- ==== Proof.RealLaw.lean ====
/-
  The two arrangements agree on real inputs.

  Every input being a real number, every intermediate value of either arrangement is a real number: finite sums,
  products, maxima and the hyperbolic tangent of reals are reals, and the inverse square root is taken of a degree
  clamped from below by a positive constant.  Each definition of a graph branch is therefore mirrored by a formula over
  the reals, the extended-real value being its coercion, and the branch's equality is proved over the reals, where
  multiplication distributes over finite sums and finite sums may be exchanged: the identity's share of a product with
  A + I is the operand's own row, the scalings by the inverse root degrees move freely through the sums, and the
  products with the weights reassociate.  The fused layer agrees for any extended-real operands (a sum over 128 indices
  is the sum over its two halves), and the squared distance of a real point to a real centre is the expanded square.
  The soft assignments, their targets and the reconstruction are the same function of equal arguments.
-/
import proofs.«122668_g52140902973514_cont_8to1_c_536_6_alg».proof.Proof.Spec
import Mathlib.Algebra.BigOperators.Fin

noncomputable section

namespace Cert.RealLaw

open Idealize.ShloMosaic

/-- A real array read as an array of extended reals. -/
abbrev up {a b : ℕ} (f : Fin a → Fin b → ℝ) : Fin a → Fin b → EReal := fun i j => ((f i j : ℝ) : EReal)
/-- A real vector read as a vector of extended reals. -/
abbrev up1 {a : ℕ} (f : Fin a → ℝ) : Fin a → EReal := fun i => ((f i : ℝ) : EReal)

/-! ## Coercion lemmas -/

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem coe_max (a b : ℝ) : max (a : EReal) (b : EReal) = ((max a b : ℝ) : EReal) :=
  (EReal.coe_strictMono.monotone.map_max).symm

/-- The real the degree floor denotes. -/
def epsR : ℝ := 9223372 * (2 : ℝ) ^ (-63 : ℤ)

theorem epsR_pos : 0 < epsR := by
  unfold epsR; positivity

/-- The degree floor is a positive real. -/
theorem eps_eq : Spec.eps = ((epsR : ℝ) : EReal) := by
  unfold Spec.eps epsR
  simp [Ideal.ofBits, Ideal.ieee, -EReal.coe_mul]

/-! ## One graph branch over the reals -/

section Branch

variable {n d h1 h2 : ℕ}
variable (A : Fin n → Fin n → ℝ) (X : Fin n → Fin d → ℝ) (W1 : Fin d → Fin h1 → ℝ) (W2 : Fin h1 → Fin h2 → ℝ)

/-- The inverse square root of a row's clamped degree. -/
def dinvR (i : Fin n) : ℝ := (Real.sqrt (max ((∑ j, A i j) + 1) epsR))⁻¹

/-- k: the features with row l scaled. -/
def kXpR (l : Fin n) (e : Fin d) : ℝ := X l e * dinvR A l
/-- k: row j of An * X. -/
def kTR (j : Fin n) (e : Fin d) : ℝ := ((∑ l, A j l * kXpR A X l e) + kXpR A X j e) * dinvR A j
/-- k: the first layer's activations. -/
def kRR (j : Fin n) (h : Fin h1) : ℝ := max (∑ e, kTR A X j e * W1 e h) 0
/-- k: the activations through W2, row j scaled. -/
def kMR (j : Fin n) (o : Fin h2) : ℝ := (∑ h, kRR A X W1 j h * W2 h o) * dinvR A j
/-- k: the branch's embedding. -/
def kHR (i : Fin n) (o : Fin h2) : ℝ := ((∑ j, A i j * kMR A X W1 W2 j o) + kMR A X W1 W2 i o) * dinvR A i

/-- r: A + I. -/
def rApR (i j : Fin n) : ℝ := A i j + (if i = j then 1 else 0)
/-- r: the normalised adjacency. -/
def rAnR (i j : Fin n) : ℝ := (rApR A i j * dinvR A i) * dinvR A j
/-- r: X * W1. -/
def rXWR (j : Fin n) (h : Fin h1) : ℝ := ∑ e, X j e * W1 e h
/-- r: the first layer's activations. -/
def rRR (i : Fin n) (h : Fin h1) : ℝ := max (∑ j, rAnR A i j * rXWR X W1 j h) 0
/-- r: An * relu(...). -/
def rQR (i : Fin n) (h : Fin h1) : ℝ := ∑ j, rAnR A i j * rRR A X W1 j h
/-- r: the branch's embedding. -/
def rHR (i : Fin n) (o : Fin h2) : ℝ := ∑ h, rQR A X W1 i h * W2 h o

/-! ### The extended-real values are the coercions of the real ones -/

/-- The row sum of A + I is the row sum of A plus one, for any extended-real A. -/
theorem rDinv_eq_kDinv (B : Fin n → Fin n → EReal) (i : Fin n) : Spec.rDinv B i = Spec.kDinv B i := by
  unfold Spec.rDinv Spec.kDinv Spec.rAp
  rw [Finset.sum_add_distrib]
  simp only [Finset.sum_ite_eq, Finset.mem_univ, if_true]

theorem kDinv_up (i : Fin n) : Spec.kDinv (up A) i = ((dinvR A i : ℝ) : EReal) := by
  have hpos : 0 < max ((∑ j, A i j) + 1) epsR := lt_max_of_lt_right epsR_pos
  unfold Spec.kDinv dinvR
  rw [eps_eq, coe_sum, ← EReal.coe_one, ← EReal.coe_add, coe_max, Ideal.rsqrt_coe,
    if_neg (not_lt.mpr hpos.le), if_neg hpos.ne']

theorem rDinv_up (i : Fin n) : Spec.rDinv (up A) i = ((dinvR A i : ℝ) : EReal) := by
  rw [rDinv_eq_kDinv, kDinv_up]

theorem kXp_up (l : Fin n) (e : Fin d) : Spec.kXp (up A) (up X) l e = ((kXpR A X l e : ℝ) : EReal) := by
  unfold Spec.kXp kXpR
  simp only [up, kDinv_up, EReal.coe_mul]

theorem kT_up (j : Fin n) (e : Fin d) : Spec.kT (up A) (up X) j e = ((kTR A X j e : ℝ) : EReal) := by
  unfold Spec.kT kTR
  simp only [up, kXp_up, kDinv_up, EReal.coe_mul, EReal.coe_add, ← coe_sum]

theorem kR_up (j : Fin n) (h : Fin h1) : Spec.kR (up A) (up X) (up W1) j h = ((kRR A X W1 j h : ℝ) : EReal) := by
  unfold Spec.kR kRR
  simp only [up, kT_up, EReal.coe_mul, EReal.coe_zero, ← coe_sum, ← coe_max]

theorem kM_up (j : Fin n) (o : Fin h2) :
    Spec.kM (up A) (up X) (up W1) (up W2) j o = ((kMR A X W1 W2 j o : ℝ) : EReal) := by
  unfold Spec.kM kMR
  simp only [up, kR_up, kDinv_up, EReal.coe_mul, ← coe_sum]

theorem kH_up (i : Fin n) (o : Fin h2) :
    Spec.kH (up A) (up X) (up W1) (up W2) i o = ((kHR A X W1 W2 i o : ℝ) : EReal) := by
  unfold Spec.kH kHR
  simp only [up, kM_up, kDinv_up, EReal.coe_mul, EReal.coe_add, ← coe_sum]

theorem rAp_up (i j : Fin n) : Spec.rAp (up A) i j = ((rApR A i j : ℝ) : EReal) := by
  unfold Spec.rAp rApR
  split_ifs <;> simp only [up, EReal.coe_add, EReal.coe_one, EReal.coe_zero]

theorem rAn_up (i j : Fin n) : Spec.rAn (up A) i j = ((rAnR A i j : ℝ) : EReal) := by
  unfold Spec.rAn rAnR
  simp only [rAp_up, rDinv_up, EReal.coe_mul]

theorem rXW_up (j : Fin n) (h : Fin h1) : Spec.rXW (up X) (up W1) j h = ((rXWR X W1 j h : ℝ) : EReal) := by
  unfold Spec.rXW rXWR
  simp only [up, EReal.coe_mul, ← coe_sum]

theorem rR_up (i : Fin n) (h : Fin h1) : Spec.rR (up A) (up X) (up W1) i h = ((rRR A X W1 i h : ℝ) : EReal) := by
  unfold Spec.rR rRR
  simp only [rAn_up, rXW_up, EReal.coe_mul, EReal.coe_zero, ← coe_sum, ← coe_max]

theorem rQ_up (i : Fin n) (h : Fin h1) : Spec.rQ (up A) (up X) (up W1) i h = ((rQR A X W1 i h : ℝ) : EReal) := by
  unfold Spec.rQ rQR
  simp only [rAn_up, rR_up, EReal.coe_mul, ← coe_sum]

theorem rH_up (i : Fin n) (o : Fin h2) :
    Spec.rH (up A) (up X) (up W1) (up W2) i o = ((rHR A X W1 W2 i o : ℝ) : EReal) := by
  unfold Spec.rH rHR
  simp only [up, rQ_up, EReal.coe_mul, ← coe_sum]

/-! ### The equalities over the reals -/

/-- The identity's share of a product with A + I is the operand's own entry. -/
theorem sum_add_delta (B : Fin n → Fin n → ℝ) (f : Fin n → ℝ) (i : Fin n) :
    ∑ j, (B i j + if i = j then 1 else 0) * f j = (∑ j, B i j * f j) + f i := by
  simp only [add_mul, Finset.sum_add_distrib, ite_mul, one_mul, zero_mul, Finset.sum_ite_eq, Finset.mem_univ,
    if_true]

/-- The first layer: (An (dinv ∘ X)) W1 = An (X W1), entry by entry. -/
theorem layer1 (j : Fin n) (h : Fin h1) :
    ∑ e, kTR A X j e * W1 e h = ∑ l, rAnR A j l * rXWR X W1 l h := by
  have hr : ∀ l, rAnR A j l * rXWR X W1 l h
      = (A j l + if j = l then 1 else 0) * (dinvR A j * dinvR A l * rXWR X W1 l h) := by
    intro l; unfold rAnR rApR; ring
  rw [Finset.sum_congr rfl (fun l _ => hr l), sum_add_delta]
  unfold kTR kXpR rXWR
  simp only [add_mul, Finset.sum_add_distrib, Finset.sum_mul, Finset.mul_sum]
  rw [Finset.sum_comm]
  congr 1
  · apply Finset.sum_congr rfl; intro l _; apply Finset.sum_congr rfl; intro e _; ring
  · apply Finset.sum_congr rfl; intro e _; ring

theorem kRR_eq : kRR A X W1 = rRR A X W1 := by
  funext j h
  unfold kRR rRR
  rw [layer1]

/-- The second layer: An ((R W2) scaled) against (An R) W2, entry by entry. -/
theorem layer2 (i : Fin n) (o : Fin h2) : kHR A X W1 W2 i o = rHR A X W1 W2 i o := by
  unfold kHR kMR rHR rQR
  rw [kRR_eq]
  have hr : ∀ h, (∑ j, rAnR A i j * rRR A X W1 j h) * W2 h o
      = ∑ j, (A i j + if i = j then 1 else 0) * (dinvR A i * dinvR A j * (rRR A X W1 j h * W2 h o)) := by
    intro h; rw [Finset.sum_mul]; apply Finset.sum_congr rfl; intro j _; unfold rAnR rApR; ring
  rw [Finset.sum_congr rfl (fun h _ => hr h), Finset.sum_comm]
  simp only [← Finset.mul_sum]
  rw [sum_add_delta, add_mul, Finset.sum_mul]
  congr 1
  · apply Finset.sum_congr rfl; intro j _; ring
  · ring

/-- A graph branch's two arrangements agree on real inputs. -/
theorem branch_eq :
    Spec.kH (up A) (up X) (up W1) (up W2) = Spec.rH (up A) (up X) (up W1) (up W2) := by
  funext i o
  rw [kH_up, rH_up, layer2]

end Branch

/-! ## The closing stage -/

section Closing

variable {n : ℕ}

/-- A sum over 128 indices is the sum over the first 64 plus the sum over the last 64. -/
theorem sum_halves {M : Type*} [AddCommMonoid M] (f : Fin 128 → M) :
    ∑ k : Fin 128, f k
      = (∑ k : Fin 64, f ⟨k.val, by omega⟩) + ∑ k : Fin 64, f ⟨64 + k.val, by omega⟩ :=
  Fin.sum_univ_add (a := 64) (b := 64) f

/-- The fused pre-activation: the two halves of the weight applied apart, or the whole weight applied to the
    concatenation. Any extended-real operands. -/
theorem fuse_eq (hv hg : Fin n → Fin 64 → EReal) (Wf : Fin 128 → Fin 32 → EReal) (bf : Fin 32 → EReal)
    (i : Fin n) (o : Fin 32) : Spec.kFuse hv hg Wf bf i o = Spec.rFuse hv hg Wf bf i o := by
  unfold Spec.kFuse Spec.rFuse
  rw [sum_halves]
  have hlo : ∀ k : Fin 64, Spec.rCat hv hg i ⟨k.val, by omega⟩ = hv i k := by
    intro k; unfold Spec.rCat; rw [dif_pos k.isLt]
  have hhi : ∀ k : Fin 64, Spec.rCat hv hg i ⟨64 + k.val, by omega⟩ = hg i k := by
    intro k; unfold Spec.rCat
    rw [dif_neg (by simp)]
    congr 1; ext; simp
  simp only [hlo, hhi]

/-- The fused pre-activation over the reals. -/
def fuseR (hv hg : Fin n → Fin 64 → ℝ) (Wf : Fin 128 → Fin 32 → ℝ) (bf : Fin 32 → ℝ) (i : Fin n) (o : Fin 32) : ℝ :=
  ((∑ k : Fin 64, hv i k * Wf ⟨k.val, by omega⟩ o) + ∑ k : Fin 64, hg i k * Wf ⟨64 + k.val, by omega⟩ o) + bf o

theorem kFuse_up (hv hg : Fin n → Fin 64 → ℝ) (Wf : Fin 128 → Fin 32 → ℝ) (bf : Fin 32 → ℝ) (i : Fin n) (o : Fin 32) :
    Spec.kFuse (up hv) (up hg) (up Wf) (up1 bf) i o = ((fuseR hv hg Wf bf i o : ℝ) : EReal) := by
  unfold Spec.kFuse fuseR
  simp only [up, up1, EReal.coe_mul, EReal.coe_add, ← coe_sum]

/-- The squared distance of a real point to a real centre: the expanded square is the sum of squared differences. -/
theorem dist2_eq (C : Fin 10 → Fin 32 → ℝ) (h : Fin n → Fin 32 → ℝ) :
    Spec.kDist2 (up C) (up h) = Spec.rDist2 (up C) (up h) := by
  funext i k
  have h2 : (2 : EReal) = ((2 : ℝ) : EReal) := rfl
  have hreal : (∑ e, (h i e - C k e) * (h i e - C k e))
      = ((∑ e, h i e * h i e) + ∑ e, C k e * C k e) - 2 * ∑ e, h i e * C k e := by
    rw [Finset.mul_sum, ← Finset.sum_add_distrib, ← Finset.sum_sub_distrib]
    apply Finset.sum_congr rfl; intro e _; ring
  unfold Spec.kDist2 Spec.rDist2
  simp only [up, h2, ← EReal.coe_mul, ← EReal.coe_sub, coe_sum, ← EReal.coe_add]
  rw [hreal]

end Closing

/-! ## The four results -/

section Whole

variable {n : ℕ}
variable (X : Fin n → Fin 128 → ℝ) (Av Ag : Fin n → Fin n → ℝ)
  (W1v : Fin 128 → Fin 256 → ℝ) (W2v : Fin 256 → Fin 64 → ℝ)
  (W1g : Fin 128 → Fin 256 → ℝ) (W2g : Fin 256 → Fin 64 → ℝ)
  (Wd1 : Fin 64 → Fin 256 → ℝ) (Wd2 : Fin 256 → Fin 128 → ℝ)
  (Wf : Fin 128 → Fin 32 → ℝ) (bf : Fin 32 → ℝ) (C : Fin 10 → Fin 32 → ℝ)

/-- The fused embedding over the reals. -/
def outHR (i : Fin n) (o : Fin 32) : ℝ :=
  Real.tanh (fuseR (kHR Av X W1v W2v) (kHR Ag X W1g W2g) Wf bf i o)

/-- The fused embedding of real inputs is a real array. -/
theorem kOutH_up :
    Spec.kOutH (up X) (up Av) (up Ag) (up W1v) (up W2v) (up W1g) (up W2g) (up Wf) (up1 bf)
      = up (outHR X Av Ag W1v W2v W1g W2g Wf bf) := by
  funext i o
  have hv : Spec.kH (up Av) (up X) (up W1v) (up W2v) = up (kHR Av X W1v W2v) := by
    funext a b; exact kH_up Av X W1v W2v a b
  have hg : Spec.kH (up Ag) (up X) (up W1g) (up W2g) = up (kHR Ag X W1g W2g) := by
    funext a b; exact kH_up Ag X W1g W2g a b
  unfold Spec.kOutH outHR
  rw [hv, hg, kFuse_up, Ideal.tanh_coe]

/-- The fused embeddings agree. -/
theorem outH_eq :
    Spec.kOutH (up X) (up Av) (up Ag) (up W1v) (up W2v) (up W1g) (up W2g) (up Wf) (up1 bf)
      = Spec.rOutH (up X) (up Av) (up Ag) (up W1v) (up W2v) (up W1g) (up W2g) (up Wf) (up1 bf) := by
  funext i o
  unfold Spec.kOutH Spec.rOutH
  rw [branch_eq Av X W1v W2v, branch_eq Ag X W1g W2g, fuse_eq]

/-- The soft assignments agree. -/
theorem outQ_eq :
    Spec.kOutQ (up X) (up Av) (up Ag) (up W1v) (up W2v) (up W1g) (up W2g) (up Wf) (up1 bf) (up C)
      = Spec.rOutQ (up X) (up Av) (up Ag) (up W1v) (up W2v) (up W1g) (up W2g) (up Wf) (up1 bf) (up C) := by
  unfold Spec.kOutQ Spec.rOutQ
  rw [← outH_eq, kOutH_up, dist2_eq]

/-- The target distributions agree. -/
theorem outP_eq :
    Spec.kOutP (up X) (up Av) (up Ag) (up W1v) (up W2v) (up W1g) (up W2g) (up Wf) (up1 bf) (up C)
      = Spec.rOutP (up X) (up Av) (up Ag) (up W1v) (up W2v) (up W1g) (up W2g) (up Wf) (up1 bf) (up C) := by
  unfold Spec.kOutP Spec.rOutP
  rw [← outH_eq, kOutH_up, dist2_eq]

/-- The reconstructions agree. -/
theorem outX_eq :
    Spec.kOutX (up X) (up Av) (up W1v) (up W2v) (up Wd1) (up Wd2)
      = Spec.rOutX (up X) (up Av) (up W1v) (up W2v) (up Wd1) (up Wd2) := by
  unfold Spec.kOutX Spec.rOutX
  rw [branch_eq Av X W1v W2v]

end Whole

end Cert.RealLaw

end
-- ==== Proof.Finite.lean ====
/-
  From the claim's precondition, every argument array is an array of real numbers.

  The precondition is the conjunction, over the twelve argument arrays, of "every entry x has |x| < +∞", each printed as
  a reduction by "and" of the elementwise comparison.  The conjunction being 1, each reduction is 1, so each comparison
  holds at every index; |x| = max x (-x) below +∞ excludes both infinities, and an extended real that is neither is a
  real.  An array all of whose entries are reals is the coercion of the array of its real parts.
-/
import proofs.«122668_g52140902973514_cont_8to1_c_536_6_alg».proof.Defs
import proofs.«122668_g52140902973514_cont_8to1_c_536_6_alg».proof.Proof.Gen.Pre_finite_inputs
import proofs.«122668_g52140902973514_cont_8to1_c_536_6_alg».proof.Proof.RealLaw
import Idealize.ShloMosaic.Lib.ReduceAll
import Idealize.ShloMosaic.Lib.ValueIdx

noncomputable section

namespace Cert.Finite

open Idealize.ShloMosaic Idealize.SL.Sem
open Cert.RealLaw (up up1)

instance : Subsingleton Cert.Pre_finite_inputs.S_.Idx := ⟨fun a b => funext fun d => d.elim0⟩

/-- An extended real whose absolute value max x (-x) is below +∞ is a real. -/
theorem real_of_abs_lt (x : EReal)
    (e : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  have e' : Ideal.cmp .olt (max x (-x)) (Ideal.ofBits .f32 0x7F800000#32) = 1#1 := e
  rw [htop] at e'
  have hlt : max x (-x) < ⊤ := by
    by_contra hn
    simp [Ideal.cmp, hn] at e'
  induction x using EReal.rec with
  | bot => simp at hlt
  | coe r => exact ⟨r, rfl⟩
  | top => simp at hlt

/-- One printed all-reduction: if it is 1, every entry of the array is a real. -/
theorem all_real {s : Shape} {axes : List (Fin s.rank)} (x : FVec Ideal s .f32)
    (b : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
        (cmpf .olt (Host.absf x) (broadcastInDim s ![] b (constant (F := Ideal) Cert.Pre_finite_inputs.S_ .f32 0x7F800000#32)))
        (constantI Cert.Pre_finite_inputs.S_ 1 1#1) h hu ValueIdx.ix0 = 1#1) :
    ∀ y : s.Idx, ∃ r : ℝ, x y = (r : EReal) := by
  intro y
  exact real_of_abs_lt (x y) (Host.reduce_andi_all _ _ h hu _ e y)

/-- An array of rank two all of whose entries are reals is the coercion of the array of its real parts. -/
theorem up_of_real2 {a b : ℕ} (f : (⟨2, ![a, b]⟩ : Shape).Idx → EReal) (hf : ∀ y, ∃ r : ℝ, f y = (r : EReal)) :
    ∃ X : Fin a → Fin b → ℝ, (fun i j => f (ValueIdx.ix2 i j)) = up X := by
  refine ⟨fun i j => (f (ValueIdx.ix2 i j)).toReal, ?_⟩
  funext i j
  obtain ⟨r, hr⟩ := hf (ValueIdx.ix2 i j)
  show f (ValueIdx.ix2 i j) = (((f (ValueIdx.ix2 i j)).toReal : ℝ) : EReal)
  rw [hr, EReal.toReal_coe]

/-- The same for a vector. -/
theorem up_of_real1 {a : ℕ} (f : (⟨1, ![a]⟩ : Shape).Idx → EReal) (hf : ∀ y, ∃ r : ℝ, f y = (r : EReal)) :
    ∃ v : Fin a → ℝ, (fun o => f (ValueIdx.ix1 o)) = up1 v := by
  refine ⟨fun o => (f (ValueIdx.ix1 o)).toReal, ?_⟩
  funext o
  obtain ⟨r, hr⟩ := hf (ValueIdx.ix1 o)
  show f (ValueIdx.ix1 o) = (((f (ValueIdx.ix1 o)).toReal : ℝ) : EReal)
  rw [hr, EReal.toReal_coe]

/-- A conjunction of two one-bit scalars that is 1 has both 1. -/
theorem and_split {a b : IVec Cert.Pre_finite_inputs.S_ 1} (h : andi a b ValueIdx.ix0 = 1#1) :
    a ValueIdx.ix0 = 1#1 ∧ b ValueIdx.ix0 = 1#1 :=
  IntOp.andi_eq_one.1 h

section Fn

open Cert.Pre_finite_inputs

/-- The printed predicate, all ones: every entry of each of its twelve arrays is a real. -/
theorem fn_real [Cert.Pre_finite_inputs.Facts]
    (a0 : FVec Ideal S4096x128 .f32) (a1 a2 : FVec Ideal S4096x4096 .f32) (a3 : FVec Ideal S128x256 .f32)
    (a4 : FVec Ideal S256x64 .f32) (a5 : FVec Ideal S128x256 .f32) (a6 : FVec Ideal S256x64 .f32)
    (a7 : FVec Ideal S64x256 .f32) (a8 : FVec Ideal S256x128 .f32) (a9 : FVec Ideal S128x32 .f32)
    (a10 : FVec Ideal S32 .f32) (a11 : FVec Ideal S10x32 .f32)
    (e : Cert.Pre_finite_inputs.fn (F := Ideal) a0 a1 a2 a3 a4 a5 a6 a7 a8 a9 a10 a11 = fun _ => 1#1) :
    (∀ y, ∃ r : ℝ, a0 y = (r : EReal)) ∧ (∀ y, ∃ r : ℝ, a1 y = (r : EReal)) ∧ (∀ y, ∃ r : ℝ, a2 y = (r : EReal))
      ∧ (∀ y, ∃ r : ℝ, a3 y = (r : EReal)) ∧ (∀ y, ∃ r : ℝ, a4 y = (r : EReal)) ∧ (∀ y, ∃ r : ℝ, a5 y = (r : EReal))
      ∧ (∀ y, ∃ r : ℝ, a6 y = (r : EReal)) ∧ (∀ y, ∃ r : ℝ, a7 y = (r : EReal)) ∧ (∀ y, ∃ r : ℝ, a8 y = (r : EReal))
      ∧ (∀ y, ∃ r : ℝ, a9 y = (r : EReal)) ∧ (∀ y, ∃ r : ℝ, a10 y = (r : EReal))
      ∧ (∀ y, ∃ r : ℝ, a11 y = (r : EReal)) := by
  have h := congrFun e ValueIdx.ix0
  unfold Cert.Pre_finite_inputs.fn Cert.Pre_finite_inputs.fn_part1 Cert.Pre_finite_inputs.fn_part2
    Cert.Pre_finite_inputs.fn_part3 at h
  dsimp only at h
  obtain ⟨h, h11⟩ := and_split h
  obtain ⟨h, h10⟩ := and_split h
  obtain ⟨h, h9⟩ := and_split h
  obtain ⟨h, h8⟩ := and_split h
  obtain ⟨h, h7⟩ := and_split h
  obtain ⟨h, h6⟩ := and_split h
  obtain ⟨h, h5⟩ := and_split h
  obtain ⟨h, h4⟩ := and_split h
  obtain ⟨h, h3⟩ := and_split h
  obtain ⟨h, h2⟩ := and_split h
  obtain ⟨h0, h1⟩ := and_split h
  exact ⟨all_real a0 _ _ _ h0, all_real a1 _ _ _ h1, all_real a2 _ _ _ h2, all_real a3 _ _ _ h3,
    all_real a4 _ _ _ h4, all_real a5 _ _ _ h5, all_real a6 _ _ _ h6, all_real a7 _ _ _ h7,
    all_real a8 _ _ _ h8, all_real a9 _ _ _ h9, all_real a10 _ _ _ h10, all_real a11 _ _ _ h11⟩

end Fn

/-- From the claim's precondition, every argument array is the coercion of a real array. -/
theorem args_real (m : (ℓ : Loc Cert.KernelIdeal.nD Cert.KernelIdeal.τ Cert.KernelIdeal.sig) → Buf (Elt Ideal) ℓ)
    [hPre : Cert.Pre_finite_inputs.Facts] (h : Cert.Pre_KernelIdeal m) (c : Dev Cert.KernelIdeal.nD) :
    ∃ (X : Fin 4096 → Fin 128 → ℝ) (Av Ag : Fin 4096 → Fin 4096 → ℝ)
      (W1v : Fin 128 → Fin 256 → ℝ) (W2v : Fin 256 → Fin 64 → ℝ)
      (W1g : Fin 128 → Fin 256 → ℝ) (W2g : Fin 256 → Fin 64 → ℝ)
      (Wd1 : Fin 64 → Fin 256 → ℝ) (Wd2 : Fin 256 → Fin 128 → ℝ)
      (Wf : Fin 128 → Fin 32 → ℝ) (bf : Fin 32 → ℝ) (C : Fin 10 → Fin 32 → ℝ),
      (fun i j => m ((c.tc : Thread Cert.KernelIdeal.nD Cert.KernelIdeal.τ).loc Cert.KernelIdeal.main_arg0) (ValueIdx.ix2 i j)) = up X
      ∧ (fun i j => m ((c.tc : Thread Cert.KernelIdeal.nD Cert.KernelIdeal.τ).loc Cert.KernelIdeal.main_arg1) (ValueIdx.ix2 i j)) = up Av
      ∧ (fun i j => m ((c.tc : Thread Cert.KernelIdeal.nD Cert.KernelIdeal.τ).loc Cert.KernelIdeal.main_arg2) (ValueIdx.ix2 i j)) = up Ag
      ∧ (fun i j => m ((c.tc : Thread Cert.KernelIdeal.nD Cert.KernelIdeal.τ).loc Cert.KernelIdeal.main_arg3) (ValueIdx.ix2 i j)) = up W1v
      ∧ (fun i j => m ((c.tc : Thread Cert.KernelIdeal.nD Cert.KernelIdeal.τ).loc Cert.KernelIdeal.main_arg4) (ValueIdx.ix2 i j)) = up W2v
      ∧ (fun i j => m ((c.tc : Thread Cert.KernelIdeal.nD Cert.KernelIdeal.τ).loc Cert.KernelIdeal.main_arg5) (ValueIdx.ix2 i j)) = up W1g
      ∧ (fun i j => m ((c.tc : Thread Cert.KernelIdeal.nD Cert.KernelIdeal.τ).loc Cert.KernelIdeal.main_arg6) (ValueIdx.ix2 i j)) = up W2g
      ∧ (fun i j => m ((c.tc : Thread Cert.KernelIdeal.nD Cert.KernelIdeal.τ).loc Cert.KernelIdeal.main_arg7) (ValueIdx.ix2 i j)) = up Wd1
      ∧ (fun i j => m ((c.tc : Thread Cert.KernelIdeal.nD Cert.KernelIdeal.τ).loc Cert.KernelIdeal.main_arg8) (ValueIdx.ix2 i j)) = up Wd2
      ∧ (fun i j => m ((c.tc : Thread Cert.KernelIdeal.nD Cert.KernelIdeal.τ).loc Cert.KernelIdeal.main_arg9) (ValueIdx.ix2 i j)) = up Wf
      ∧ (fun o => m ((c.tc : Thread Cert.KernelIdeal.nD Cert.KernelIdeal.τ).loc Cert.KernelIdeal.main_arg10) (ValueIdx.ix1 o)) = up1 bf
      ∧ (fun i j => m ((c.tc : Thread Cert.KernelIdeal.nD Cert.KernelIdeal.τ).loc Cert.KernelIdeal.main_arg11) (ValueIdx.ix2 i j)) = up C := by
  obtain ⟨h0, h1, h2, h3, h4, h5, h6, h7, h8, h9, h10, h11⟩ := fn_real _ _ _ _ _ _ _ _ _ _ _ _ (h c)
  obtain ⟨X, hX⟩ := up_of_real2 _ h0
  obtain ⟨Av, hAv⟩ := up_of_real2 _ h1
  obtain ⟨Ag, hAg⟩ := up_of_real2 _ h2
  obtain ⟨W1v, hW1v⟩ := up_of_real2 _ h3
  obtain ⟨W2v, hW2v⟩ := up_of_real2 _ h4
  obtain ⟨W1g, hW1g⟩ := up_of_real2 _ h5
  obtain ⟨W2g, hW2g⟩ := up_of_real2 _ h6
  obtain ⟨Wd1, hWd1⟩ := up_of_real2 _ h7
  obtain ⟨Wd2, hWd2⟩ := up_of_real2 _ h8
  obtain ⟨Wf, hWf⟩ := up_of_real2 _ h9
  obtain ⟨bf, hbf⟩ := up_of_real1 _ h10
  obtain ⟨C, hC⟩ := up_of_real2 _ h11
  exact ⟨X, Av, Ag, W1v, W2v, W1g, W2g, Wd1, Wd2, Wf, bf, C, hX, hAv, hAg, hW1v, hW2v, hW1g, hW2g, hWd1, hWd2, hWf,
    hbf, hC⟩

end Cert.Finite

end
-- ==== Proof.lean ====
/-
  Two 2-layer graph-convolution branches over dense 4096 x 4096 adjacencies, a feature decoder, a fusion layer and a
  Student-t soft cluster assignment: the kernel against its plain reference, on the extended reals.

  The kernel never forms the normalised adjacency An = D (A + I) D: it scales by the degree factors before and after each
  product with A and adds the scaled row back for the identity's share, applies the first weight after the first
  adjacency product and the second weight before the second, splits the fusion product into its two halves, and
  expands the squared distances to the centres. Each of these is an identity of finite real sums; on inputs that are
  all finite every intermediate value is a real number (the degrees are clamped below by a positive constant, every
  divisor is a sum of positive terms), so the identities hold of the extended reals the two programs compute.

  The kernel's four results are read off its run region by region (seven pipelined regions; each result array is one
  function of the argument arrays), the reference's off its run operation by operation; both are instances of one
  specification, in two arrangements, whose equality on real inputs is proved over the reals.
-/
import proofs.«122668_g52140902973514_cont_8to1_c_536_6_alg».proof.Defs
import proofs.«122668_g52140902973514_cont_8to1_c_536_6_alg».proof.Proof.Gen.Kernel
import proofs.«122668_g52140902973514_cont_8to1_c_536_6_alg».proof.Proof.Gen.Kernel.Frame
import proofs.«122668_g52140902973514_cont_8to1_c_536_6_alg».proof.Proof.Gen.KernelIdeal
import proofs.«122668_g52140902973514_cont_8to1_c_536_6_alg».proof.Proof.Gen.KernelIdeal.Frame
import proofs.«122668_g52140902973514_cont_8to1_c_536_6_alg».proof.Proof.Gen.ReferenceIdeal
import proofs.«122668_g52140902973514_cont_8to1_c_536_6_alg».proof.Proof.Gen.Pre_finite_inputs
import proofs.«122668_g52140902973514_cont_8to1_c_536_6_alg».proof.Proof.RunP
import proofs.«122668_g52140902973514_cont_8to1_c_536_6_alg».proof.Proof.ReadP
import proofs.«122668_g52140902973514_cont_8to1_c_536_6_alg».proof.Proof.KRun
import proofs.«122668_g52140902973514_cont_8to1_c_536_6_alg».proof.Proof.Chain
import proofs.«122668_g52140902973514_cont_8to1_c_536_6_alg».proof.Proof.Compose
import proofs.«122668_g52140902973514_cont_8to1_c_536_6_alg».proof.Proof.RefValue
import proofs.«122668_g52140902973514_cont_8to1_c_536_6_alg».proof.Proof.RealLaw
import proofs.«122668_g52140902973514_cont_8to1_c_536_6_alg».proof.Proof.Finite
import Idealize.ShloMosaic.Adequacy
import Idealize.ShloMosaic.Init

set_option maxRecDepth 16384

noncomputable section

namespace Cert.Proof

open Idealize.ShloMosaic Idealize.SL.Sem
open Idealize.ShloMosaic.ValueIdx
open Cert.RealLaw (up up1)
open Cert.Region0 (cur)

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run with the four results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.ValueP.run (F := Ideal) m ρ)

set_option maxHeartbeats 4000000 in
/-- From memories agreeing on the twelve arguments, all finite, the two idealized programs end with equal results:
    the kernel's result buffers hold the specification's k-arrangement of the argument arrays, the reference's its
    r-arrangement, and the two arrangements agree on arrays of reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W8 m ρ c (Proc.devRef .tc Cert.KernelIdeal.main_v7_0),
    fun c => Cert.KernelIdeal.Gen.W8 m ρ c (Proc.devRef .tc Cert.KernelIdeal.main_v7_1),
    fun c => Cert.KernelIdeal.Gen.W8 m ρ c (Proc.devRef .tc Cert.KernelIdeal.main_v7_2),
    fun c => Cert.KernelIdeal.Gen.W8 m ρ c (Proc.devRef .tc Cert.KernelIdeal.main_v7_3),
    Cert.KRun.run_vals m ρ, ?_⟩
  refine (θ_run Cert.ReferenceIdeal.defs _ _).mono (fun r h c => ?_) (Cert.ReferenceIdeal.ValueP.run (F := Ideal) m' ρ')
  obtain ⟨h52, h67, h76, h46, hargs⟩ := h c
  obtain ⟨g0, g1, g2, g3, g4, g5, g6, g7, g8, g9, g10, g11⟩ := hagree c
  obtain ⟨X, Av, Ag, W1v, W2v, W1g, W2g, Wd1, Wd2, Wf, bf, C, e0, e1, e2, e3, e4, e5, e6, e7, e8, e9, e10, e11⟩ :=
    Cert.Finite.args_real m hpre c
  -- the argument arrays, read by coordinates, are arrays of reals
  have c0 : cur (m ((c.tc : Thread Cert.KernelIdeal.nD Cert.KernelIdeal.τ).loc Cert.KernelIdeal.main_arg0)) = up X := e0
  have c1 : cur (m ((c.tc : Thread Cert.KernelIdeal.nD Cert.KernelIdeal.τ).loc Cert.KernelIdeal.main_arg1)) = up Av := e1
  have c2 : cur (m ((c.tc : Thread Cert.KernelIdeal.nD Cert.KernelIdeal.τ).loc Cert.KernelIdeal.main_arg2)) = up Ag := e2
  have c3 : cur (m ((c.tc : Thread Cert.KernelIdeal.nD Cert.KernelIdeal.τ).loc Cert.KernelIdeal.main_arg3)) = up W1v := e3
  have c4 : cur (m ((c.tc : Thread Cert.KernelIdeal.nD Cert.KernelIdeal.τ).loc Cert.KernelIdeal.main_arg4)) = up W2v := e4
  have c5 : cur (m ((c.tc : Thread Cert.KernelIdeal.nD Cert.KernelIdeal.τ).loc Cert.KernelIdeal.main_arg5)) = up W1g := e5
  have c6 : cur (m ((c.tc : Thread Cert.KernelIdeal.nD Cert.KernelIdeal.τ).loc Cert.KernelIdeal.main_arg6)) = up W2g := e6
  have c7 : cur (m ((c.tc : Thread Cert.KernelIdeal.nD Cert.KernelIdeal.τ).loc Cert.KernelIdeal.main_arg7)) = up Wd1 := e7
  have c8 : cur (m ((c.tc : Thread Cert.KernelIdeal.nD Cert.KernelIdeal.τ).loc Cert.KernelIdeal.main_arg8)) = up Wd2 := e8
  have c9 : cur (m ((c.tc : Thread Cert.KernelIdeal.nD Cert.KernelIdeal.τ).loc Cert.KernelIdeal.main_arg9)) = up Wf := e9
  have c10 : (fun o => (m ((c.tc : Thread Cert.KernelIdeal.nD Cert.KernelIdeal.τ).loc Cert.KernelIdeal.main_arg10)) (ix1 o)) = up1 bf := e10
  have c11 : cur (m ((c.tc : Thread Cert.KernelIdeal.nD Cert.KernelIdeal.τ).loc Cert.KernelIdeal.main_arg11)) = up C := e11
  refine ⟨h52.trans ?_, h67.trans ?_, h76.trans ?_, ?_, hargs⟩
  · funext y
    obtain ⟨i, o, rfl⟩ : ∃ (i : Fin 4096) (o : Fin 32), y = ix2 i o := ⟨y 0, y 1, eq_ix2 y⟩
    refine (Cert.RefBridge.res_refH m' c i o).trans ?_
    rw [g0, g1, g2, g3, g4, g5, g6, g9, g10]
    refine Eq.trans ?_ ((congrFun (Cert.KChain.w8_7 m ρ c) (ix2 i o)).trans
      (Cert.KCompose.outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) i o)).symm
    show Spec.rOutH (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg2))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg5))) (cur (m ((c.tc : Thread Cert.KernelIdeal.nD Cert.KernelIdeal.τ).loc Cert.KernelIdeal.main_arg6))) (cur (m ((c.tc : Thread Cert.KernelIdeal.nD Cert.KernelIdeal.τ).loc Cert.KernelIdeal.main_arg9))) (fun o => (m ((c.tc : Thread Cert.KernelIdeal.nD Cert.KernelIdeal.τ).loc Cert.KernelIdeal.main_arg10)) (ix1 o)) i o = Spec.kOutH (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg2))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg5))) (cur (m ((c.tc : Thread Cert.KernelIdeal.nD Cert.KernelIdeal.τ).loc Cert.KernelIdeal.main_arg6))) (cur (m ((c.tc : Thread Cert.KernelIdeal.nD Cert.KernelIdeal.τ).loc Cert.KernelIdeal.main_arg9))) (fun o => (m ((c.tc : Thread Cert.KernelIdeal.nD Cert.KernelIdeal.τ).loc Cert.KernelIdeal.main_arg10)) (ix1 o)) i o
    rw [c0, c1, c2, c3, c4, c5, c6, c9, c10]
    exact (congrFun (congrFun (Cert.RealLaw.outH_eq X Av Ag W1v W2v W1g W2g Wf bf) i) o).symm
  · funext y
    obtain ⟨i, k, rfl⟩ : ∃ (i : Fin 4096) (k : Fin 10), y = ix2 i k := ⟨y 0, y 1, eq_ix2 y⟩
    refine (Cert.RefBridge.res_refQ m' c i k).trans ?_
    rw [g0, g1, g2, g3, g4, g5, g6, g9, g10, g11]
    refine Eq.trans ?_ ((congrFun (Cert.KChain.w8_8 m ρ c) (ix2 i k)).trans
      (Cert.KCompose.outQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) i k)).symm
    show Spec.rOutQ (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg2))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg5))) (cur (m ((c.tc : Thread Cert.KernelIdeal.nD Cert.KernelIdeal.τ).loc Cert.KernelIdeal.main_arg6))) (cur (m ((c.tc : Thread Cert.KernelIdeal.nD Cert.KernelIdeal.τ).loc Cert.KernelIdeal.main_arg9))) (fun o => (m ((c.tc : Thread Cert.KernelIdeal.nD Cert.KernelIdeal.τ).loc Cert.KernelIdeal.main_arg10)) (ix1 o)) (cur (m ((c.tc : Thread Cert.KernelIdeal.nD Cert.KernelIdeal.τ).loc Cert.KernelIdeal.main_arg11))) i k = Spec.kOutQ (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg2))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg5))) (cur (m ((c.tc : Thread Cert.KernelIdeal.nD Cert.KernelIdeal.τ).loc Cert.KernelIdeal.main_arg6))) (cur (m ((c.tc : Thread Cert.KernelIdeal.nD Cert.KernelIdeal.τ).loc Cert.KernelIdeal.main_arg9))) (fun o => (m ((c.tc : Thread Cert.KernelIdeal.nD Cert.KernelIdeal.τ).loc Cert.KernelIdeal.main_arg10)) (ix1 o)) (cur (m ((c.tc : Thread Cert.KernelIdeal.nD Cert.KernelIdeal.τ).loc Cert.KernelIdeal.main_arg11))) i k
    rw [c0, c1, c2, c3, c4, c5, c6, c9, c10, c11]
    exact (congrFun (congrFun (Cert.RealLaw.outQ_eq X Av Ag W1v W2v W1g W2g Wf bf C) i) k).symm
  · funext y
    obtain ⟨i, k, rfl⟩ : ∃ (i : Fin 4096) (k : Fin 10), y = ix2 i k := ⟨y 0, y 1, eq_ix2 y⟩
    refine (Cert.RefBridge.res_refP m' c i k).trans ?_
    rw [g0, g1, g2, g3, g4, g5, g6, g9, g10, g11]
    refine Eq.trans ?_ ((congrFun (Cert.KChain.w8_9 m ρ c) (ix2 i k)).trans
      (Cert.KCompose.outP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) i k)).symm
    show Spec.rOutP (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg2))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg5))) (cur (m ((c.tc : Thread Cert.KernelIdeal.nD Cert.KernelIdeal.τ).loc Cert.KernelIdeal.main_arg6))) (cur (m ((c.tc : Thread Cert.KernelIdeal.nD Cert.KernelIdeal.τ).loc Cert.KernelIdeal.main_arg9))) (fun o => (m ((c.tc : Thread Cert.KernelIdeal.nD Cert.KernelIdeal.τ).loc Cert.KernelIdeal.main_arg10)) (ix1 o)) (cur (m ((c.tc : Thread Cert.KernelIdeal.nD Cert.KernelIdeal.τ).loc Cert.KernelIdeal.main_arg11))) i k = Spec.kOutP (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg2))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg5))) (cur (m ((c.tc : Thread Cert.KernelIdeal.nD Cert.KernelIdeal.τ).loc Cert.KernelIdeal.main_arg6))) (cur (m ((c.tc : Thread Cert.KernelIdeal.nD Cert.KernelIdeal.τ).loc Cert.KernelIdeal.main_arg9))) (fun o => (m ((c.tc : Thread Cert.KernelIdeal.nD Cert.KernelIdeal.τ).loc Cert.KernelIdeal.main_arg10)) (ix1 o)) (cur (m ((c.tc : Thread Cert.KernelIdeal.nD Cert.KernelIdeal.τ).loc Cert.KernelIdeal.main_arg11))) i k
    rw [c0, c1, c2, c3, c4, c5, c6, c9, c10, c11]
    exact (congrFun (congrFun (Cert.RealLaw.outP_eq X Av Ag W1v W2v W1g W2g Wf bf C) i) k).symm
  · funext y
    obtain ⟨i, e, rfl⟩ : ∃ (i : Fin 4096) (e : Fin 128), y = ix2 i e := ⟨y 0, y 1, eq_ix2 y⟩
    refine (Cert.RefBridge.res_refX m' c _ (h46.trans (Cert.ReferenceIdeal.ReadP.val_main_v46_eq _ _ _ _ _ _)) i e).trans ?_
    rw [g0, g1, g3, g4, g7, g8]
    refine Eq.trans ?_ ((congrFun (Cert.KChain.w8_10 m ρ c) (ix2 i e)).trans
      (Cert.KCompose.outX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) i e)).symm
    show Spec.rOutX (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg7))) (cur (m ((c.tc : Thread Cert.KernelIdeal.nD Cert.KernelIdeal.τ).loc Cert.KernelIdeal.main_arg8))) i e
      = Spec.kOutX (cur (m ((c.tc : Thread Cert.KernelIdeal.nD Cert.KernelIdeal.τ).loc Cert.KernelIdeal.main_arg0))) (cur (m ((c.tc : Thread Cert.KernelIdeal.nD Cert.KernelIdeal.τ).loc Cert.KernelIdeal.main_arg1))) (cur (m ((c.tc : Thread Cert.KernelIdeal.nD Cert.KernelIdeal.τ).loc Cert.KernelIdeal.main_arg3))) (cur (m ((c.tc : Thread Cert.KernelIdeal.nD Cert.KernelIdeal.τ).loc Cert.KernelIdeal.main_arg4))) (cur (m ((c.tc : Thread Cert.KernelIdeal.nD Cert.KernelIdeal.τ).loc Cert.KernelIdeal.main_arg7))) (cur (m ((c.tc : Thread Cert.KernelIdeal.nD Cert.KernelIdeal.τ).loc Cert.KernelIdeal.main_arg8))) i e
    rw [c0, c1, c3, c4, c7, c8]
    exact (congrFun (congrFun (Cert.RealLaw.outX_eq X Av W1v W2v Wd1 Wd2) i) e).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
